-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048 : Shape := ⟨3, ![1, 1, 2048]⟩
abbrev S350x2048 : Shape := ⟨2, ![350, 2048]⟩
abbrev S350x4096 : Shape := ⟨2, ![350, 4096]⟩
abbrev S350 : Shape := ⟨1, ![350]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S350x2048 : S_.BroadcastsInDim S350x2048 (![] : Fin 0 → Fin S350x2048.rank)
  reducesTo_S350x2048_S_d0_1 : S350x2048.ReducesTo [0, 1] S_
  bcast_S_S350x4096 : S_.BroadcastsInDim S350x4096 (![] : Fin 0 → Fin S350x4096.rank)
  reducesTo_S350x4096_S_d0_1 : S350x4096.ReducesTo [0, 1] S_
  bcast_S_S350 : S_.BroadcastsInDim S350 (![] : Fin 0 → Fin S350.rank)
  reducesTo_S350_S_d0 : S350.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn_part3 {F : FTy → Type} [FloatOps F] (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  main_v53

def fn_part2 {F : FTy → Type} [FloatOps F] (main_arg7 : FVec F S6144x2048 .f32) (main_arg8 : FVec F S6144x2048 .f32) (main_arg9 : FVec F S6144 .f32) (main_arg10 : FVec F S6144 .f32) (main_v33 : IVec S_ 1) : IVec S_ 1 :=
  let main_v34 : FVec F S6144x2048 .f32 := Host.absf main_arg7
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144x2048 .f32 := Host.absf main_arg8
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_v48 main_v49 main_v50

def fn_part1 {F : FTy → Type} [FloatOps F] (main_arg4 : FVec F S350 .f32) (main_arg5 : FVec F S2048x4096 .f32) (main_arg6 : FVec F S2048 .f32) (main_arg7 : FVec F S6144x2048 .f32) (main_arg8 : FVec F S6144x2048 .f32) (main_arg9 : FVec F S6144 .f32) (main_arg10 : FVec F S6144 .f32) (main_v13 : IVec S_ 1) (main_v16 : IVec S350x4096 1) : IVec S_ 1 :=
  let main_c_5 : IVec S_ 1 := constantI S_ 1 1#1
  let main_v17 : IVec S_ 1 := (fun x v => Host.reduce IntOp.andi x v reducesTo_S350x4096_S_d0_1 h_S_) main_v16 main_c_5
  let main_v18 : IVec S_ 1 := andi main_v13 main_v17
  let main_v19 : FVec F S350 .f32 := Host.absf main_arg4
  let main_cst_6 : FVec F S_ .f32 := constant S_ .f32 0x7F800000#32
  let main_v20 : FVec F S350 .f32 := broadcastInDim S350 ![] bcast_S_S350 main_cst_6
  let main_v21 : IVec S350 1 := cmpf .olt main_v19 main_v20
  let main_c_7 : IVec S_ 1 := constantI S_ 1 1#1
  let main_v22 : IVec S_ 1 := (fun x v => Host.reduce IntOp.andi x v reducesTo_S350_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x1x2048 .f32) (main_arg1 : FVec F S1x1x2048 .f32) (main_arg2 : FVec F S350x2048 .f32) (main_arg3 : FVec F S350x4096 .f32) (main_arg4 : FVec F S350 .f32) (main_arg5 : FVec F S2048x4096 .f32) (main_arg6 : FVec F S2048 .f32) (main_arg7 : FVec F S6144x2048 .f32) (main_arg8 : FVec F S6144x2048 .f32) (main_arg9 : FVec F S6144 .f32) (main_arg10 : FVec F S6144 .f32) : IVec S_ 1 :=
  let main_v0 : FVec F S1x1x2048 .f32 := Host.absf main_arg0
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x1x2048 .f32 := Host.absf main_arg1
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : IVec S_ 1 := andi main_v3 main_v7
  let main_v9 : FVec F S350x2048 .f32 := Host.absf main_arg2
  let main_cst_2 : FVec F S_ .f32 := constant S_ .f32 0x7F800000#32
  let main_v10 : FVec F S350x2048 .f32 := broadcastInDim S350x2048 ![] bcast_S_S350x2048 main_cst_2
  let main_v11 : IVec S350x2048 1 := cmpf .olt main_v9 main_v10
  let main_c_3 : IVec S_ 1 := constantI S_ 1 1#1
  let main_v12 : IVec S_ 1 := (fun x v => Host.reduce IntOp.andi x v reducesTo_S350x2048_S_d0_1 h_S_) main_v11 main_c_3
  let main_v13 : IVec S_ 1 := andi main_v8 main_v12
  let main_v14 : FVec F S350x4096 .f32 := Host.absf main_arg3
  let main_cst_4 : FVec F S_ .f32 := constant S_ .f32 0x7F800000#32
  let main_v15 : FVec F S350x4096 .f32 := broadcastInDim S350x4096 ![] bcast_S_S350x4096 main_cst_4
  let main_v16 : IVec S350x4096 1 := cmpf .olt main_v14 main_v15
  fn_part1 (F := F) main_arg4 main_arg5 main_arg6 main_arg7 main_arg8 main_arg9 main_arg10 main_v13 main_v16
-- ==== Kernel.lean ====
abbrev S1x1x2048 : Shape := ⟨3, ![1, 1, 2048]⟩
abbrev S350x2048 : Shape := ⟨2, ![350, 2048]⟩
abbrev S350x4096 : Shape := ⟨2, ![350, 4096]⟩
abbrev S350 : Shape := ⟨1, ![350]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S1x2048 : Shape := ⟨2, ![1, 2048]⟩
abbrev S1x350 : Shape := ⟨2, ![1, 350]⟩
abbrev S1x4096 : Shape := ⟨2, ![1, 4096]⟩
abbrev S1 : Shape := ⟨1, ![1]⟩
abbrev S1x1 : Shape := ⟨2, ![1, 1]⟩
abbrev S512x4096 : Shape := ⟨2, ![512, 4096]⟩
abbrev S1x512 : Shape := ⟨2, ![1, 512]⟩
abbrev S3x2048x2048 : Shape := ⟨3, ![3, 2048, 2048]⟩
abbrev S3x1x2048 : Shape := ⟨3, ![3, 1, 2048]⟩
abbrev S3x256x2048 : Shape := ⟨3, ![3, 256, 2048]⟩
abbrev S3x1x256 : Shape := ⟨3, ![3, 1, 256]⟩
abbrev S1x256 : Shape := ⟨2, ![1, 256]⟩
abbrev S1x256x2048 : Shape := ⟨3, ![1, 256, 2048]⟩
abbrev S256x2048 : Shape := ⟨2, ![256, 2048]⟩
abbrev S1x1x256 : Shape := ⟨3, ![1, 1, 256]⟩

abbrev nBuf : Space → Nat
  | .hbm => 25
  | .vmem => 27
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S350x2048, .f32⟩
  | .hbm, ⟨3, _⟩ => ⟨S350x4096, .f32⟩
  | .hbm, ⟨4, _⟩ => ⟨S350, .f32⟩
  | .hbm, ⟨5, _⟩ => ⟨S2048x4096, .f32⟩
  | .hbm, ⟨6, _⟩ => ⟨S2048, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S1x2048, .f32⟩
  | .hbm, ⟨12, _⟩ => ⟨S1x2048, .f32⟩
  | .hbm, ⟨13, _⟩ => ⟨S1x350, .f32⟩
  | .hbm, ⟨14, _⟩ => ⟨S1x350, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S3x2048x2048, .f32⟩
  | .hbm, ⟨19, _⟩ => ⟨S3x2048x2048, .f32⟩
  | .hbm, ⟨20, _⟩ => ⟨S3x1x2048, .f32⟩
  | .hbm, ⟨21, _⟩ => ⟨S3x1x2048, .f32⟩
  | .hbm, ⟨22, _⟩ => ⟨S1x2048, .f32⟩
  | .hbm, ⟨23, _⟩ => ⟨S1x1x2048, .f32⟩
  | .hbm, ⟨24, _⟩ => ⟨S1x1x2048, .f32⟩
  | .local _ .vmem, ⟨0, _⟩ => ⟨S1x2048, .f32⟩
  | .local _ .vmem, ⟨1, _⟩ => ⟨S1x2048, .f32⟩
  | .local _ .vmem, ⟨2, _⟩ => ⟨S350x4096, .f32⟩
  | .local _ .vmem, ⟨3, _⟩ => ⟨S1x350, .f32⟩
  | .local _ .vmem, ⟨4, _⟩ => ⟨S350x2048, .f32⟩
  | .local _ .vmem, ⟨5, _⟩ => ⟨S1x350, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x4096, .f32⟩
  | .local _ .vmem, ⟨10, _⟩ => ⟨S512x4096, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x2048, .f32⟩
  | .local _ .vmem, ⟨16, _⟩ => ⟨S1x2048, .f32⟩
  | .local _ .vmem, ⟨17, _⟩ => ⟨S3x256x2048, .f32⟩
  | .local _ .vmem, ⟨18, _⟩ => ⟨S3x256x2048, .f32⟩
  | .local _ .vmem, ⟨19, _⟩ => ⟨S3x256x2048, .f32⟩
  | .local _ .vmem, ⟨20, _⟩ => ⟨S3x256x2048, .f32⟩
  | .local _ .vmem, ⟨21, _⟩ => ⟨S3x1x256, .f32⟩
  | .local _ .vmem, ⟨22, _⟩ => ⟨S3x1x256, .f32⟩
  | .local _ .vmem, ⟨23, _⟩ => ⟨S3x1x256, .f32⟩
  | .local _ .vmem, ⟨24, _⟩ => ⟨S3x1x256, .f32⟩
  | .local _ .vmem, ⟨25, _⟩ => ⟨S1x256, .f32⟩
  | .local _ .vmem, ⟨26, _⟩ => ⟨S1x256, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S350x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x350 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S350x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x350 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def k2_mult1 (i : grid2.Coords) : BitVec 32 :=
  let arg0 : BitVec 32 := BitVec.ofNat 32 (i 0).val
  let c256_i32 : BitVec 32 := 256#32
  let v0 : BitVec 32 := Scalar.muli arg0 c256_i32
  v0
def k2_off1 (i : grid2.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S1x1x2048_S1x2048 : S1x1x2048.ShapeCasts S1x2048
  shapeCasts_S350_S1x350 : S350.ShapeCasts S1x350
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  concatenates_S1x2048_S1x2048_S1x4096_d1 : Shape.Concatenates [S1x2048, S1x2048] S1x4096 1
  bitsLt_bf16_f32 : FTy.bits .bf16 < FTy.bits .f32
  inb_S350x4096_S350x4096_0_0 : ∀ a, (![0, 0] : Fin 2 → Nat) a + S350x4096.size a ≤ S350x4096.size a
  h_S350x4096 : 0 < S350x4096.numel
  inb_S1x350_S1x350_0_0 : ∀ a, (![0, 0] : Fin 2 → Nat) a + S1x350.size a ≤ S1x350.size a
  h_S1x350 : 0 < S1x350.numel
  shapeCasts_S1x350_S1x350 : S1x350.ShapeCasts S1x350
  reduces_S1x350_S1 : S1x350.Reduces [1] S1
  shapeCasts_S1_S1x1 : S1.ShapeCasts S1x1
  broadcasts_S1x1_S1x350 : S1x1.Broadcasts S1x350
  inb_S350x2048_S350x2048_0_0 : ∀ a, (![0, 0] : Fin 2 → Nat) a + S350x2048.size a ≤ S350x2048.size a
  h_S350x2048 : 0 < S350x2048.numel
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S6144x2048_S3x2048x2048 : S6144x2048.ShapeCasts S3x2048x2048
  shapeCasts_S6144_S3x1x2048 : S6144.ShapeCasts S3x1x2048
  h_S1x256 : 0 < S1x256.numel
  shapeCasts_S1x256_S1x256 : S1x256.ShapeCasts S1x256
  inb_S3x256x2048_S3x256x2048_0_0_0 : ∀ a, (![0, 0, 0] : Fin 3 → Nat) a + S3x256x2048.size a ≤ S3x256x2048.size a
  h_S3x256x2048 : 0 < S3x256x2048.numel
  shapeCasts_S3x256x2048_S3x256x2048 : S3x256x2048.ShapeCasts S3x256x2048
  inb_S3x1x256_S3x1x256_0_0_0 : ∀ a, (![0, 0, 0] : Fin 3 → Nat) a + S3x1x256.size a ≤ S3x1x256.size a
  h_S3x1x256 : 0 < S3x1x256.numel
  shapeCasts_S3x1x256_S3x1x256 : S3x1x256.ShapeCasts S3x1x256
  slices_S3x256x2048_o0_0_0_S1x256x2048 : S3x256x2048.Slices ![0, 0, 0] S1x256x2048
  shapeCasts_S1x256x2048_S256x2048 : S1x256x2048.ShapeCasts S256x2048
  slices_S3x1x256_o0_0_0_S1x1x256 : S3x1x256.Slices ![0, 0, 0] S1x1x256
  shapeCasts_S1x1x256_S1x256 : S1x1x256.ShapeCasts S1x256
  slices_S3x256x2048_o1_0_0_S1x256x2048 : S3x256x2048.Slices ![1, 0, 0] S1x256x2048
  slices_S3x1x256_o1_0_0_S1x1x256 : S3x1x256.Slices ![1, 0, 0] S1x1x256
  slices_S3x256x2048_o2_0_0_S1x256x2048 : S3x256x2048.Slices ![2, 0, 0] S1x256x2048
  slices_S3x1x256_o2_0_0_S1x1x256 : S3x1x256.Slices ![2, 0, 0] S1x1x256
  inb_S1x256_S1x256_0_0 : ∀ a, (![0, 0] : Fin 2 → Nat) a + S1x256.size a ≤ S1x256.size a
  shapeCasts_S1x2048_S1x1x2048 : S1x2048.ShapeCasts S1x1x2048
  dot_S1x4096_S350x4096_S1x350_1_1_0_0_n_n_wf : DotDims.WF S1x4096 S350x4096 S1x350 [1] [1] [0] [0] [] []
  dot_S1x350_S350x2048_S1x2048_1_0_0_1_n_n_wf : DotDims.WF S1x350 S350x2048 S1x2048 [1] [0] [0] [1] [] []
  dot_S1x4096_S512x4096_S1x512_1_1_0_0_n_n_wf : DotDims.WF S1x4096 S512x4096 S1x512 [1] [1] [0] [0] [] []
  dot_S1x2048_S256x2048_S1x256_1_1_0_0_n_n_wf : DotDims.WF S1x2048 S256x2048 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S350x4096.size a ≤ S350x4096.size a
  hwx0_2 : ∀ i : grid0.Coords, EltTy.bits .f32 = 32 ∨ (Rect.block (s := S350x4096) S350x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x350.size a ≤ S1x350.size a
  hwx0_3 : ∀ i : grid0.Coords, EltTy.bits .f32 = 32 ∨ (Rect.block (s := S1x350) S1x350.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S350x2048.size a ≤ S350x2048.size a
  hwx0_4 : ∀ i : grid0.Coords, EltTy.bits .f32 = 32 ∨ (Rect.block (s := S350x2048) S350x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x350.size a ≤ S1x350.size a
  hwx0_5 : ∀ i : grid0.Coords, EltTy.bits .f32 = 32 ∨ (Rect.block (s := S1x350) S1x350.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S2048x4096.size a
  hwx1_2 : ∀ i : grid1.Coords, EltTy.bits .f32 = 32 ∨ (Rect.block (s := S2048x4096) S512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x2048.size a
  hwx1_4 : ∀ i : grid1.Coords, EltTy.bits .f32 = 32 ∨ (Rect.block (s := S1x2048) S1x512.size (cc1_transform_4 i) (hinb1_4 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S1x256.size a ≤ S1x2048.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3x256x2048.size a ≤ S3x2048x2048.size a
  hwx2_2 : ∀ i : grid2.Coords, EltTy.bits .f32 = 32 ∨ (Rect.block (s := S3x2048x2048) S3x256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x256x2048.size a ≤ S3x2048x2048.size a
  hwx2_3 : ∀ i : grid2.Coords, EltTy.bits .f32 = 32 ∨ (Rect.block (s := S3x2048x2048) S3x256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x1x256.size a ≤ S3x1x2048.size a
  hwx2_4 : ∀ i : grid2.Coords, EltTy.bits .f32 = 32 ∨ (Rect.block (s := S3x1x2048) S3x1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3x1x256.size a ≤ S3x1x2048.size a
  hwx2_5 : ∀ i : grid2.Coords, EltTy.bits .f32 = 32 ∨ (Rect.block (s := S3x1x2048) S3x1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x2048.size a
  hwx2_6 : ∀ i : grid2.Coords, EltTy.bits .f32 = 32 ∨ (Rect.block (s := S1x2048) S1x256.size (cc2_transform_6 i) (hinb2_6 i)).WholeWords (EltTy.packing .f32)

variable [Facts₀]

def dot_S1x4096_S350x4096_S1x350_1_1_0_0_n_n : DotDims S1x4096 S350x4096 S1x350 where
  lhsContracting := [1]
  rhsContracting := [1]
  lhsNonContracting := [0]
  rhsNonContracting := [0]
  lhsBatch := []
  rhsBatch := []
  wf := dot_S1x4096_S350x4096_S1x350_1_1_0_0_n_n_wf
def dot_S1x350_S350x2048_S1x2048_1_0_0_1_n_n : DotDims S1x350 S350x2048 S1x2048 where
  lhsContracting := [1]
  rhsContracting := [0]
  lhsNonContracting := [0]
  rhsNonContracting := [1]
  lhsBatch := []
  rhsBatch := []
  wf := dot_S1x350_S350x2048_S1x2048_1_0_0_1_n_n_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf

abbrev win0_0 : Pipeline.Window sig grid0 :=
  Pipeline.Window.ofSpec (Memref.whole main_v0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S350x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x350.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S350x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x350.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x2048.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S3x256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S3x256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S3x1x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S3x1x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1x1x2048 : Shape := ⟨3, ![1, 1, 2048]⟩
abbrev S350x2048 : Shape := ⟨2, ![350, 2048]⟩
abbrev S350x4096 : Shape := ⟨2, ![350, 4096]⟩
abbrev S350 : Shape := ⟨1, ![350]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S1x2048 : Shape := ⟨2, ![1, 2048]⟩
abbrev S1x4096 : Shape := ⟨2, ![1, 4096]⟩
abbrev S4096x350 : Shape := ⟨2, ![4096, 350]⟩
abbrev S1x350 : Shape := ⟨2, ![1, 350]⟩
abbrev S_ : Shape := ⟨0, ![]⟩
abbrev S1 : Shape := ⟨1, ![1]⟩
abbrev S1x1 : Shape := ⟨2, ![1, 1]⟩
abbrev S4096x2048 : Shape := ⟨2, ![4096, 2048]⟩
abbrev S2048x6144 : Shape := ⟨2, ![2048, 6144]⟩
abbrev S1x6144 : Shape := ⟨2, ![1, 6144]⟩

abbrev nBuf : Space → Nat
  | .hbm => 84
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S350x2048, .f32⟩
  | .hbm, ⟨3, _⟩ => ⟨S350x4096, .f32⟩
  | .hbm, ⟨4, _⟩ => ⟨S350, .f32⟩
  | .hbm, ⟨5, _⟩ => ⟨S2048x4096, .f32⟩
  | .hbm, ⟨6, _⟩ => ⟨S2048, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S1x2048, .f32⟩
  | .hbm, ⟨12, _⟩ => ⟨S1x2048, .f32⟩
  | .hbm, ⟨13, _⟩ => ⟨S1x4096, .f32⟩
  | .hbm, ⟨14, _⟩ => ⟨S4096x350, .f32⟩
  | .hbm, ⟨15, _⟩ => ⟨S1x350, .f32⟩
  | .hbm, ⟨16, _⟩ => ⟨S1x350, .f32⟩
  | .hbm, ⟨17, _⟩ => ⟨S1x350, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S1x350, .f32⟩
  | .hbm, ⟨25, _⟩ => ⟨S1x350, .f32⟩
  | .hbm, ⟨26, _⟩ => ⟨S1x350, .f32⟩
  | .hbm, ⟨27, _⟩ => ⟨S_, .f32⟩
  | .hbm, ⟨28, _⟩ => ⟨S1, .f32⟩
  | .hbm, ⟨29, _⟩ => ⟨S1x1, .f32⟩
  | .hbm, ⟨30, _⟩ => ⟨S1x350, .f32⟩
  | .hbm, ⟨31, _⟩ => ⟨S1x350, .f32⟩
  | .hbm, ⟨32, _⟩ => ⟨S1x2048, .f32⟩
  | .hbm, ⟨33, _⟩ => ⟨S1x4096, .f32⟩
  | .hbm, ⟨34, _⟩ => ⟨S4096x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S2048x6144, .f32⟩
  | .hbm, ⟨42, _⟩ => ⟨S1x6144, .f32⟩
  | .hbm, ⟨43, _⟩ => ⟨S1x6144, .f32⟩
  | .hbm, ⟨44, _⟩ => ⟨S1x6144, .f32⟩
  | .hbm, ⟨45, _⟩ => ⟨S2048x6144, .f32⟩
  | .hbm, ⟨46, _⟩ => ⟨S1x6144, .f32⟩
  | .hbm, ⟨47, _⟩ => ⟨S1x6144, .f32⟩
  | .hbm, ⟨48, _⟩ => ⟨S1x6144, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S_, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x1x2048, .f32⟩
  | .hbm, ⟨83, _⟩ => ⟨S1x1x2048, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  shapeCasts_S1x1x2048_S1x2048 : S1x1x2048.ShapeCasts S1x2048
  concatenates_S1x2048_S1x2048_S1x4096_d1 : Shape.Concatenates [S1x2048, S1x2048] S1x4096 1
  transposes_S350x4096_S4096x350_1_0 : S350x4096.Transposes [1, 0] S4096x350
  bcast_S350_S1x350_1 : S350.BroadcastsInDim S1x350 (![1] : Fin 1 → Fin S1x350.rank)
  reducesTo_S1x350_S1_d1 : S1x350.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x350_0_1 : S1x1.BroadcastsInDim S1x350 (![0, 1] : Fin 2 → Fin S1x350.rank)
  transposes_S2048x4096_S4096x2048_1_0 : S2048x4096.Transposes [1, 0] S4096x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S1x2048_S1x1x2048_1_2 : S1x2048.BroadcastsInDim S1x1x2048 (![1, 2] : Fin 2 → Fin S1x1x2048.rank)
  dot_S1x4096_S4096x350_S1x350_1_0_0_1_n_n_wf : DotDims.WF S1x4096 S4096x350 S1x350 [1] [0] [0] [1] [] []
  dot_S1x350_S350x2048_S1x2048_1_0_0_1_n_n_wf : DotDims.WF S1x350 S350x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []

variable [Facts₀]

def dot_S1x4096_S4096x350_S1x350_1_0_0_1_n_n : DotDims S1x4096 S4096x350 S1x350 where
  lhsContracting := [1]
  rhsContracting := [0]
  lhsNonContracting := [0]
  rhsNonContracting := [1]
  lhsBatch := []
  rhsBatch := []
  wf := dot_S1x4096_S4096x350_S1x350_1_0_0_1_n_n_wf
def dot_S1x350_S350x2048_S1x2048_1_0_0_1_n_n : DotDims S1x350 S350x2048 S1x2048 where
  lhsContracting := [1]
  rhsContracting := [0]
  lhsNonContracting := [0]
  rhsNonContracting := [1]
  lhsBatch := []
  rhsBatch := []
  wf := dot_S1x350_S350x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf

class Facts : Prop extends Facts₀ where

variable [Facts]
-- ==== Proof.KRun.lean ====
/-
  The idealized kernel's run, keeping what every buffer holds at the end.

  The program is seven segments: reshapes of the arguments, the attention call, a reshape, the combine call, four
  reshapes, the recurrent-cell call, two reshapes.  The contents of the buffers at each boundary form a fold from the
  launch memory: a stretch of host operations applies its operations in order, a call replaces each of its arrays by
  what its write-backs leave and keeps every other buffer.  Every weakly fair execution terminates without a fault in
  a state whose buffers hold the end of that fold; the frame claim and the three results are read off this one run.
-/
import proofs.«100843_j15350213116625_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates, nothing faulting, and each buffer that
    outlives the calls ends at the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Bridge

end
-- ==== Proof.RefRun.lean ====
/-
  The reference's run, read back in four stretches.

  The reference is a straight line of 73 host operations.  Every weakly fair execution of it terminates, and each buffer
  ends at what the operations, applied in order to the launch contents, leave there.  To read the results off that fold
  without ever forming one large term, the line is cut into four consecutive stretches — the attention stage (through the
  context), the combine stage, the two affine images, and the recurrent cell with the two re-lays of its result — and
  each stretch is read on its own, from ANY contents: given what the stretch finds in the few buffers it reads, what it
  leaves in the few buffers a later stretch or the caller reads.  Chained, the two returned buffers end at the last
  stage of the launch arrays; the attention weights and the arguments are read off the whole line directly.
-/
import proofs.«100843_j15350213116625_2_alg».proof.Proof.ReadP
import Idealize.ShloMosaic.Lib.StableHlo.Run

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The reference's 73 operations, in order (the clamp's three operations stand in its call's place). -/
abbrev ops : List (HloOp τ sig (Elt F)) :=
  [ reshape main_arg0 main_v0 rfl shapeCasts_S1x1x2048_S1x2048,
    reshape main_arg1 main_v1 rfl shapeCasts_S1x1x2048_S1x2048,
    binary main_v0 main_v1 main_v2 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg3 main_v3 ((transpose S4096x350 [1, 0] · transposes_S350x4096_S4096x350_1_0) : (⟨S350x4096, .f32⟩ : BufTy).Contents (Elt F) → (⟨S4096x350, .f32⟩ : BufTy).Contents (Elt F)),
    binary main_v2 main_v3 main_v4 ((fun l r => Host.dotGeneral dot_S1x4096_S4096x350_S1x350_1_0_0_1_n_n none l r) : (⟨S1x4096, .f32⟩ : BufTy).Contents (Elt F) → (⟨S4096x350, .f32⟩ : BufTy).Contents (Elt F) → (⟨S1x350, .f32⟩ : BufTy).Contents (Elt F)),
    unary main_arg4 main_v5 (broadcastInDim S1x350 ![1] bcast_S350_S1x350_1 : (⟨S350, .f32⟩ : BufTy).Contents (Elt F) → (⟨S1x350, .f32⟩ : BufTy).Contents (Elt F)),
    binary main_v4 main_v5 main_v6 (addf : (⟨S1x350, .f32⟩ : BufTy).Contents (Elt F) → (⟨S1x350, .f32⟩ : BufTy).Contents (Elt F) → (⟨S1x350, .f32⟩ : BufTy).Contents (Elt F)),
    nullary main_cst (constant S_ .f32 0xFF800000#32),
    binary main_v6 main_cst main_v7 ((fun x v => Host.reduce FloatOps.maximumf x v reducesTo_S1x350_S1_d1 h_S_) : (⟨S1x350, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v8 (broadcastInDim S1 ![] bcast_S_S1 : (⟨S_, .f32⟩ : BufTy).Contents (Elt F) → (⟨S1, .f32⟩ : BufTy).Contents (Elt F)),
    binary main_v8 main_v7 main_v9 (maximumf : (⟨S1, .f32⟩ : BufTy).Contents (Elt F) → (⟨S1, .f32⟩ : BufTy).Contents (Elt F) → (⟨S1, .f32⟩ : BufTy).Contents (Elt F)),
    unary main_v9 main_v10 (broadcastInDim S1x1 ![0] bcast_S1_S1x1_0 : (⟨S1, .f32⟩ : BufTy).Contents (Elt F) → (⟨S1x1, .f32⟩ : BufTy).Contents (Elt F)),
    unary main_v10 main_v11 (broadcastInDim S1x350 ![0, 1] bcast_S1x1_S1x350_0_1 : (⟨S1x1, .f32⟩ : BufTy).Contents (Elt F) → (⟨S1x350, .f32⟩ : BufTy).Contents (Elt F)),
    binary main_v6 main_v11 main_v12 (subf : (⟨S1x350, .f32⟩ : BufTy).Contents (Elt F) → (⟨S1x350, .f32⟩ : BufTy).Contents (Elt F) → (⟨S1x350, .f32⟩ : BufTy).Contents (Elt F)),
    unary main_v12 main_v13 (Host.exp : (⟨S1x350, .f32⟩ : BufTy).Contents (Elt F) → (⟨S1x350, .f32⟩ : BufTy).Contents (Elt F)),
    nullary main_cst_1 (constant S_ .f32 0x00000000#32),
    binary main_v13 main_cst_1 main_v14 ((fun x v => Host.reduceAdd x v reducesTo_S1x350_S1_d1 h_S_) : (⟨S1x350, .f32⟩ : BufTy).Contents (Elt F) → (⟨S_, .f32⟩ : BufTy).Contents (Elt F) → (⟨S1, .f32⟩ : BufTy).Contents (Elt F)),
    unary main_v14 main_v15 (broadcastInDim S1x1 ![0] bcast_S1_S1x1_0 : (⟨S1, .f32⟩ : BufTy).Contents (Elt F) → (⟨S1x1, .f32⟩ : BufTy).Contents (Elt F)),
    unary main_v15 main_v16 (broadcastInDim S1x350 ![0, 1] bcast_S1x1_S1x350_0_1 : (⟨S1x1, .f32⟩ : BufTy).Contents (Elt F) → (⟨S1x350, .f32⟩ : BufTy).Contents (Elt F)),
    binary main_v13 main_v16 main_v17 (Host.divf : (⟨S1x350, .f32⟩ : BufTy).Contents (Elt F) → (⟨S1x350, .f32⟩ : BufTy).Contents (Elt F) → (⟨S1x350, .f32⟩ : BufTy).Contents (Elt F)),
    binary main_v17 main_arg2 main_v18 ((fun l r => Host.dotGeneral dot_S1x350_S350x2048_S1x2048_1_0_0_1_n_n none l r) : (⟨S1x350, .f32⟩ : BufTy).Contents (Elt F) → (⟨S350x2048, .f32⟩ : BufTy).Contents (Elt F) → (⟨S1x2048, .f32⟩ : BufTy).Contents (Elt F)),
    binary main_v0 main_v18 main_v19 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg5 main_v20 ((transpose S4096x2048 [1, 0] · transposes_S2048x4096_S4096x2048_1_0) : (⟨S2048x4096, .f32⟩ : BufTy).Contents (Elt F) → (⟨S4096x2048, .f32⟩ : BufTy).Contents (Elt F)),
    binary main_v19 main_v20 main_v21 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg6 main_v22 (broadcastInDim S1x2048 ![1] bcast_S2048_S1x2048_1 : (⟨S2048, .f32⟩ : BufTy).Contents (Elt F) → (⟨S1x2048, .f32⟩ : BufTy).Contents (Elt F)),
    binary main_v21 main_v22 main_v23 (addf : (⟨S1x2048, .f32⟩ : BufTy).Contents (Elt F) → (⟨S1x2048, .f32⟩ : BufTy).Contents (Elt F) → (⟨S1x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048, .f32⟩) main_call0_v0) (broadcastInDim S1x2048 ![] bcast_S_S1x2048),
    TRef.binary (TRef.of (T := ⟨S1x2048, .f32⟩) main_v23) (TRef.of (T := ⟨S1x2048, .f32⟩) main_call0_v0) (TRef.of (T := ⟨S1x2048, .f32⟩) main_v24) maximumf,
    unary main_arg7 main_v25 ((transpose S2048x6144 [1, 0] · transposes_S6144x2048_S2048x6144_1_0) : (⟨S6144x2048, .f32⟩ : BufTy).Contents (Elt F) → (⟨S2048x6144, .f32⟩ : BufTy).Contents (Elt F)),
    binary main_v24 main_v25 main_v26 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg9 main_v27 (broadcastInDim S1x6144 ![1] bcast_S6144_S1x6144_1 : (⟨S6144, .f32⟩ : BufTy).Contents (Elt F) → (⟨S1x6144, .f32⟩ : BufTy).Contents (Elt F)),
    binary main_v26 main_v27 main_v28 (addf : (⟨S1x6144, .f32⟩ : BufTy).Contents (Elt F) → (⟨S1x6144, .f32⟩ : BufTy).Contents (Elt F) → (⟨S1x6144, .f32⟩ : BufTy).Contents (Elt F)),
    unary main_arg8 main_v29 ((transpose S2048x6144 [1, 0] · transposes_S6144x2048_S2048x6144_1_0) : (⟨S6144x2048, .f32⟩ : BufTy).Contents (Elt F) → (⟨S2048x6144, .f32⟩ : BufTy).Contents (Elt F)),
    binary main_v1 main_v29 main_v30 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg10 main_v31 (broadcastInDim S1x6144 ![1] bcast_S6144_S1x6144_1 : (⟨S6144, .f32⟩ : BufTy).Contents (Elt F) → (⟨S1x6144, .f32⟩ : BufTy).Contents (Elt F)),
    binary main_v30 main_v31 main_v32 (addf : (⟨S1x6144, .f32⟩ : BufTy).Contents (Elt F) → (⟨S1x6144, .f32⟩ : BufTy).Contents (Elt F) → (⟨S1x6144, .f32⟩ : BufTy).Contents (Elt F)),
    unary main_v28 main_v33 ((extractStridedSlice S1x2048 ![0, 0] · slices_S1x6144_S1x2048_0_0) : (⟨S1x6144, .f32⟩ : BufTy).Contents (Elt F) → (⟨S1x2048, .f32⟩ : BufTy).Contents (Elt F)),
    unary main_v28 main_v34 ((extractStridedSlice S1x2048 ![0, 2048] · slices_S1x6144_S1x2048_0_2048) : (⟨S1x6144, .f32⟩ : BufTy).Contents (Elt F) → (⟨S1x2048, .f32⟩ : BufTy).Contents (Elt F)),
    unary main_v28 main_v35 ((extractStridedSlice S1x2048 ![0, 4096] · slices_S1x6144_S1x2048_0_4096) : (⟨S1x6144, .f32⟩ : BufTy).Contents (Elt F) → (⟨S1x2048, .f32⟩ : BufTy).Contents (Elt F)),
    unary main_v32 main_v36 ((extractStridedSlice S1x2048 ![0, 0] · slices_S1x6144_S1x2048_0_0) : (⟨S1x6144, .f32⟩ : BufTy).Contents (Elt F) → (⟨S1x2048, .f32⟩ : BufTy).Contents (Elt F)),
    unary main_v32 main_v37 ((extractStridedSlice S1x2048 ![0, 2048] · slices_S1x6144_S1x2048_0_2048) : (⟨S1x6144, .f32⟩ : BufTy).Contents (Elt F) → (⟨S1x2048, .f32⟩ : BufTy).Contents (Elt F)),
    unary main_v32 main_v38 ((extractStridedSlice S1x2048 ![0, 4096] · slices_S1x6144_S1x2048_0_4096) : (⟨S1x6144, .f32⟩ : BufTy).Contents (Elt F) → (⟨S1x2048, .f32⟩ : BufTy).Contents (Elt F)),
    binary main_v33 main_v36 main_v39 (addf : (⟨S1x2048, .f32⟩ : BufTy).Contents (Elt F) → (⟨S1x2048, .f32⟩ : BufTy).Contents (Elt F) → (⟨S1x2048, .f32⟩ : BufTy).Contents (Elt F)),
    unary main_v39 main_v40 (Host.negf : (⟨S1x2048, .f32⟩ : BufTy).Contents (Elt F) → (⟨S1x2048, .f32⟩ : BufTy).Contents (Elt F)),
    unary main_v40 main_v41 (Host.exp : (⟨S1x2048, .f32⟩ : BufTy).Contents (Elt F) → (⟨S1x2048, .f32⟩ : BufTy).Contents (Elt F)),
    nullary main_cst_2 (constant S_ .f32 0x3F800000#32),
    unary main_cst_2 main_v42 (broadcastInDim S1x2048 ![] bcast_S_S1x2048 : (⟨S_, .f32⟩ : BufTy).Contents (Elt F) → (⟨S1x2048, .f32⟩ : BufTy).Contents (Elt F)),
    binary main_v42 main_v41 main_v43 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v44 (broadcastInDim S1x2048 ![] bcast_S_S1x2048 : (⟨S_, .f32⟩ : BufTy).Contents (Elt F) → (⟨S1x2048, .f32⟩ : BufTy).Contents (Elt F)),
    binary main_v44 main_v43 main_v45 (Host.divf : (⟨S1x2048, .f32⟩ : BufTy).Contents (Elt F) → (⟨S1x2048, .f32⟩ : BufTy).Contents (Elt F) → (⟨S1x2048, .f32⟩ : BufTy).Contents (Elt F)),
    binary main_v34 main_v37 main_v46 (addf : (⟨S1x2048, .f32⟩ : BufTy).Contents (Elt F) → (⟨S1x2048, .f32⟩ : BufTy).Contents (Elt F) → (⟨S1x2048, .f32⟩ : BufTy).Contents (Elt F)),
    unary main_v46 main_v47 (Host.negf : (⟨S1x2048, .f32⟩ : BufTy).Contents (Elt F) → (⟨S1x2048, .f32⟩ : BufTy).Contents (Elt F)),
    unary main_v47 main_v48 (Host.exp : (⟨S1x2048, .f32⟩ : BufTy).Contents (Elt F) → (⟨S1x2048, .f32⟩ : BufTy).Contents (Elt F)),
    nullary main_cst_4 (constant S_ .f32 0x3F800000#32),
    unary main_cst_4 main_v49 (broadcastInDim S1x2048 ![] bcast_S_S1x2048 : (⟨S_, .f32⟩ : BufTy).Contents (Elt F) → (⟨S1x2048, .f32⟩ : BufTy).Contents (Elt F)),
    binary main_v49 main_v48 main_v50 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v51 (broadcastInDim S1x2048 ![] bcast_S_S1x2048 : (⟨S_, .f32⟩ : BufTy).Contents (Elt F) → (⟨S1x2048, .f32⟩ : BufTy).Contents (Elt F)),
    binary main_v51 main_v50 main_v52 (Host.divf : (⟨S1x2048, .f32⟩ : BufTy).Contents (Elt F) → (⟨S1x2048, .f32⟩ : BufTy).Contents (Elt F) → (⟨S1x2048, .f32⟩ : BufTy).Contents (Elt F)),
    binary main_v45 main_v38 main_v53 (mulf : (⟨S1x2048, .f32⟩ : BufTy).Contents (Elt F) → (⟨S1x2048, .f32⟩ : BufTy).Contents (Elt F) → (⟨S1x2048, .f32⟩ : BufTy).Contents (Elt F)),
    binary main_v35 main_v53 main_v54 (addf : (⟨S1x2048, .f32⟩ : BufTy).Contents (Elt F) → (⟨S1x2048, .f32⟩ : BufTy).Contents (Elt F) → (⟨S1x2048, .f32⟩ : BufTy).Contents (Elt F)),
    unary main_v54 main_v55 (Host.tanh : (⟨S1x2048, .f32⟩ : BufTy).Contents (Elt F) → (⟨S1x2048, .f32⟩ : BufTy).Contents (Elt F)),
    nullary main_cst_6 (constant S_ .f32 0x3F800000#32),
    unary main_cst_6 main_v56 (broadcastInDim S1x2048 ![] bcast_S_S1x2048 : (⟨S_, .f32⟩ : BufTy).Contents (Elt F) → (⟨S1x2048, .f32⟩ : BufTy).Contents (Elt F)),
    binary main_v56 main_v52 main_v57 (subf : (⟨S1x2048, .f32⟩ : BufTy).Contents (Elt F) → (⟨S1x2048, .f32⟩ : BufTy).Contents (Elt F) → (⟨S1x2048, .f32⟩ : BufTy).Contents (Elt F)),
    binary main_v57 main_v55 main_v58 (mulf : (⟨S1x2048, .f32⟩ : BufTy).Contents (Elt F) → (⟨S1x2048, .f32⟩ : BufTy).Contents (Elt F) → (⟨S1x2048, .f32⟩ : BufTy).Contents (Elt F)),
    binary main_v52 main_v1 main_v59 (mulf : (⟨S1x2048, .f32⟩ : BufTy).Contents (Elt F) → (⟨S1x2048, .f32⟩ : BufTy).Contents (Elt F) → (⟨S1x2048, .f32⟩ : BufTy).Contents (Elt F)),
    binary main_v58 main_v59 main_v60 (addf : (⟨S1x2048, .f32⟩ : BufTy).Contents (Elt F) → (⟨S1x2048, .f32⟩ : BufTy).Contents (Elt F) → (⟨S1x2048, .f32⟩ : BufTy).Contents (Elt F)),
    unary main_v60 main_v61 (broadcastInDim S1x1x2048 ![1, 2] bcast_S1x2048_S1x1x2048_1_2 : (⟨S1x2048, .f32⟩ : BufTy).Contents (Elt F) → (⟨S1x1x2048, .f32⟩ : BufTy).Contents (Elt F)),
    unary main_v60 main_v62 (broadcastInDim S1x1x2048 ![1, 2] bcast_S1x2048_S1x1x2048_1_2 : (⟨S1x2048, .f32⟩ : BufTy).Contents (Elt F) → (⟨S1x1x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., unary_bufs_sub ..⟩

/-! ## The four stretches -/

/-- Through the context: reshapes, scores, softmax, weighted sum. -/
abbrev stretch1 : List (HloOp τ sig (Elt F)) :=
  [ reshape main_arg0 main_v0 rfl shapeCasts_S1x1x2048_S1x2048,
    reshape main_arg1 main_v1 rfl shapeCasts_S1x1x2048_S1x2048,
    binary main_v0 main_v1 main_v2 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg3 main_v3 ((transpose S4096x350 [1, 0] · transposes_S350x4096_S4096x350_1_0) : (⟨S350x4096, .f32⟩ : BufTy).Contents (Elt F) → (⟨S4096x350, .f32⟩ : BufTy).Contents (Elt F)),
    binary main_v2 main_v3 main_v4 ((fun l r => Host.dotGeneral dot_S1x4096_S4096x350_S1x350_1_0_0_1_n_n none l r) : (⟨S1x4096, .f32⟩ : BufTy).Contents (Elt F) → (⟨S4096x350, .f32⟩ : BufTy).Contents (Elt F) → (⟨S1x350, .f32⟩ : BufTy).Contents (Elt F)),
    unary main_arg4 main_v5 (broadcastInDim S1x350 ![1] bcast_S350_S1x350_1 : (⟨S350, .f32⟩ : BufTy).Contents (Elt F) → (⟨S1x350, .f32⟩ : BufTy).Contents (Elt F)),
    binary main_v4 main_v5 main_v6 (addf : (⟨S1x350, .f32⟩ : BufTy).Contents (Elt F) → (⟨S1x350, .f32⟩ : BufTy).Contents (Elt F) → (⟨S1x350, .f32⟩ : BufTy).Contents (Elt F)),
    nullary main_cst (constant S_ .f32 0xFF800000#32),
    binary main_v6 main_cst main_v7 ((fun x v => Host.reduce FloatOps.maximumf x v reducesTo_S1x350_S1_d1 h_S_) : (⟨S1x350, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v8 (broadcastInDim S1 ![] bcast_S_S1 : (⟨S_, .f32⟩ : BufTy).Contents (Elt F) → (⟨S1, .f32⟩ : BufTy).Contents (Elt F)),
    binary main_v8 main_v7 main_v9 (maximumf : (⟨S1, .f32⟩ : BufTy).Contents (Elt F) → (⟨S1, .f32⟩ : BufTy).Contents (Elt F) → (⟨S1, .f32⟩ : BufTy).Contents (Elt F)),
    unary main_v9 main_v10 (broadcastInDim S1x1 ![0] bcast_S1_S1x1_0 : (⟨S1, .f32⟩ : BufTy).Contents (Elt F) → (⟨S1x1, .f32⟩ : BufTy).Contents (Elt F)),
    unary main_v10 main_v11 (broadcastInDim S1x350 ![0, 1] bcast_S1x1_S1x350_0_1 : (⟨S1x1, .f32⟩ : BufTy).Contents (Elt F) → (⟨S1x350, .f32⟩ : BufTy).Contents (Elt F)),
    binary main_v6 main_v11 main_v12 (subf : (⟨S1x350, .f32⟩ : BufTy).Contents (Elt F) → (⟨S1x350, .f32⟩ : BufTy).Contents (Elt F) → (⟨S1x350, .f32⟩ : BufTy).Contents (Elt F)),
    unary main_v12 main_v13 (Host.exp : (⟨S1x350, .f32⟩ : BufTy).Contents (Elt F) → (⟨S1x350, .f32⟩ : BufTy).Contents (Elt F)),
    nullary main_cst_1 (constant S_ .f32 0x00000000#32),
    binary main_v13 main_cst_1 main_v14 ((fun x v => Host.reduceAdd x v reducesTo_S1x350_S1_d1 h_S_) : (⟨S1x350, .f32⟩ : BufTy).Contents (Elt F) → (⟨S_, .f32⟩ : BufTy).Contents (Elt F) → (⟨S1, .f32⟩ : BufTy).Contents (Elt F)),
    unary main_v14 main_v15 (broadcastInDim S1x1 ![0] bcast_S1_S1x1_0 : (⟨S1, .f32⟩ : BufTy).Contents (Elt F) → (⟨S1x1, .f32⟩ : BufTy).Contents (Elt F)),
    unary main_v15 main_v16 (broadcastInDim S1x350 ![0, 1] bcast_S1x1_S1x350_0_1 : (⟨S1x1, .f32⟩ : BufTy).Contents (Elt F) → (⟨S1x350, .f32⟩ : BufTy).Contents (Elt F)),
    binary main_v13 main_v16 main_v17 (Host.divf : (⟨S1x350, .f32⟩ : BufTy).Contents (Elt F) → (⟨S1x350, .f32⟩ : BufTy).Contents (Elt F) → (⟨S1x350, .f32⟩ : BufTy).Contents (Elt F)),
    binary main_v17 main_arg2 main_v18 ((fun l r => Host.dotGeneral dot_S1x350_S350x2048_S1x2048_1_0_0_1_n_n none l r) : (⟨S1x350, .f32⟩ : BufTy).Contents (Elt F) → (⟨S350x2048, .f32⟩ : BufTy).Contents (Elt F) → (⟨S1x2048, .f32⟩ : BufTy).Contents (Elt F)) ]
/-- The combine stage, with the clamp's three operations. -/
abbrev stretch2 : List (HloOp τ sig (Elt F)) :=
  [ binary main_v0 main_v18 main_v19 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg5 main_v20 ((transpose S4096x2048 [1, 0] · transposes_S2048x4096_S4096x2048_1_0) : (⟨S2048x4096, .f32⟩ : BufTy).Contents (Elt F) → (⟨S4096x2048, .f32⟩ : BufTy).Contents (Elt F)),
    binary main_v19 main_v20 main_v21 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg6 main_v22 (broadcastInDim S1x2048 ![1] bcast_S2048_S1x2048_1 : (⟨S2048, .f32⟩ : BufTy).Contents (Elt F) → (⟨S1x2048, .f32⟩ : BufTy).Contents (Elt F)),
    binary main_v21 main_v22 main_v23 (addf : (⟨S1x2048, .f32⟩ : BufTy).Contents (Elt F) → (⟨S1x2048, .f32⟩ : BufTy).Contents (Elt F) → (⟨S1x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048, .f32⟩) main_call0_v0) (broadcastInDim S1x2048 ![] bcast_S_S1x2048),
    TRef.binary (TRef.of (T := ⟨S1x2048, .f32⟩) main_v23) (TRef.of (T := ⟨S1x2048, .f32⟩) main_call0_v0) (TRef.of (T := ⟨S1x2048, .f32⟩) main_v24) maximumf ]
/-- The two affine images. -/
abbrev stretch3 : List (HloOp τ sig (Elt F)) :=
  [ unary main_arg7 main_v25 ((transpose S2048x6144 [1, 0] · transposes_S6144x2048_S2048x6144_1_0) : (⟨S6144x2048, .f32⟩ : BufTy).Contents (Elt F) → (⟨S2048x6144, .f32⟩ : BufTy).Contents (Elt F)),
    binary main_v24 main_v25 main_v26 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg9 main_v27 (broadcastInDim S1x6144 ![1] bcast_S6144_S1x6144_1 : (⟨S6144, .f32⟩ : BufTy).Contents (Elt F) → (⟨S1x6144, .f32⟩ : BufTy).Contents (Elt F)),
    binary main_v26 main_v27 main_v28 (addf : (⟨S1x6144, .f32⟩ : BufTy).Contents (Elt F) → (⟨S1x6144, .f32⟩ : BufTy).Contents (Elt F) → (⟨S1x6144, .f32⟩ : BufTy).Contents (Elt F)),
    unary main_arg8 main_v29 ((transpose S2048x6144 [1, 0] · transposes_S6144x2048_S2048x6144_1_0) : (⟨S6144x2048, .f32⟩ : BufTy).Contents (Elt F) → (⟨S2048x6144, .f32⟩ : BufTy).Contents (Elt F)),
    binary main_v1 main_v29 main_v30 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg10 main_v31 (broadcastInDim S1x6144 ![1] bcast_S6144_S1x6144_1 : (⟨S6144, .f32⟩ : BufTy).Contents (Elt F) → (⟨S1x6144, .f32⟩ : BufTy).Contents (Elt F)),
    binary main_v30 main_v31 main_v32 (addf : (⟨S1x6144, .f32⟩ : BufTy).Contents (Elt F) → (⟨S1x6144, .f32⟩ : BufTy).Contents (Elt F) → (⟨S1x6144, .f32⟩ : BufTy).Contents (Elt F)) ]
/-- The thirds, the gates, the new hidden row and its two re-lays. -/
abbrev stretch4 : List (HloOp τ sig (Elt F)) :=
  [ unary main_v28 main_v33 ((extractStridedSlice S1x2048 ![0, 0] · slices_S1x6144_S1x2048_0_0) : (⟨S1x6144, .f32⟩ : BufTy).Contents (Elt F) → (⟨S1x2048, .f32⟩ : BufTy).Contents (Elt F)),
    unary main_v28 main_v34 ((extractStridedSlice S1x2048 ![0, 2048] · slices_S1x6144_S1x2048_0_2048) : (⟨S1x6144, .f32⟩ : BufTy).Contents (Elt F) → (⟨S1x2048, .f32⟩ : BufTy).Contents (Elt F)),
    unary main_v28 main_v35 ((extractStridedSlice S1x2048 ![0, 4096] · slices_S1x6144_S1x2048_0_4096) : (⟨S1x6144, .f32⟩ : BufTy).Contents (Elt F) → (⟨S1x2048, .f32⟩ : BufTy).Contents (Elt F)),
    unary main_v32 main_v36 ((extractStridedSlice S1x2048 ![0, 0] · slices_S1x6144_S1x2048_0_0) : (⟨S1x6144, .f32⟩ : BufTy).Contents (Elt F) → (⟨S1x2048, .f32⟩ : BufTy).Contents (Elt F)),
    unary main_v32 main_v37 ((extractStridedSlice S1x2048 ![0, 2048] · slices_S1x6144_S1x2048_0_2048) : (⟨S1x6144, .f32⟩ : BufTy).Contents (Elt F) → (⟨S1x2048, .f32⟩ : BufTy).Contents (Elt F)),
    unary main_v32 main_v38 ((extractStridedSlice S1x2048 ![0, 4096] · slices_S1x6144_S1x2048_0_4096) : (⟨S1x6144, .f32⟩ : BufTy).Contents (Elt F) → (⟨S1x2048, .f32⟩ : BufTy).Contents (Elt F)),
    binary main_v33 main_v36 main_v39 (addf : (⟨S1x2048, .f32⟩ : BufTy).Contents (Elt F) → (⟨S1x2048, .f32⟩ : BufTy).Contents (Elt F) → (⟨S1x2048, .f32⟩ : BufTy).Contents (Elt F)),
    unary main_v39 main_v40 (Host.negf : (⟨S1x2048, .f32⟩ : BufTy).Contents (Elt F) → (⟨S1x2048, .f32⟩ : BufTy).Contents (Elt F)),
    unary main_v40 main_v41 (Host.exp : (⟨S1x2048, .f32⟩ : BufTy).Contents (Elt F) → (⟨S1x2048, .f32⟩ : BufTy).Contents (Elt F)),
    nullary main_cst_2 (constant S_ .f32 0x3F800000#32),
    unary main_cst_2 main_v42 (broadcastInDim S1x2048 ![] bcast_S_S1x2048 : (⟨S_, .f32⟩ : BufTy).Contents (Elt F) → (⟨S1x2048, .f32⟩ : BufTy).Contents (Elt F)),
    binary main_v42 main_v41 main_v43 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v44 (broadcastInDim S1x2048 ![] bcast_S_S1x2048 : (⟨S_, .f32⟩ : BufTy).Contents (Elt F) → (⟨S1x2048, .f32⟩ : BufTy).Contents (Elt F)),
    binary main_v44 main_v43 main_v45 (Host.divf : (⟨S1x2048, .f32⟩ : BufTy).Contents (Elt F) → (⟨S1x2048, .f32⟩ : BufTy).Contents (Elt F) → (⟨S1x2048, .f32⟩ : BufTy).Contents (Elt F)),
    binary main_v34 main_v37 main_v46 (addf : (⟨S1x2048, .f32⟩ : BufTy).Contents (Elt F) → (⟨S1x2048, .f32⟩ : BufTy).Contents (Elt F) → (⟨S1x2048, .f32⟩ : BufTy).Contents (Elt F)),
    unary main_v46 main_v47 (Host.negf : (⟨S1x2048, .f32⟩ : BufTy).Contents (Elt F) → (⟨S1x2048, .f32⟩ : BufTy).Contents (Elt F)),
    unary main_v47 main_v48 (Host.exp : (⟨S1x2048, .f32⟩ : BufTy).Contents (Elt F) → (⟨S1x2048, .f32⟩ : BufTy).Contents (Elt F)),
    nullary main_cst_4 (constant S_ .f32 0x3F800000#32),
    unary main_cst_4 main_v49 (broadcastInDim S1x2048 ![] bcast_S_S1x2048 : (⟨S_, .f32⟩ : BufTy).Contents (Elt F) → (⟨S1x2048, .f32⟩ : BufTy).Contents (Elt F)),
    binary main_v49 main_v48 main_v50 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v51 (broadcastInDim S1x2048 ![] bcast_S_S1x2048 : (⟨S_, .f32⟩ : BufTy).Contents (Elt F) → (⟨S1x2048, .f32⟩ : BufTy).Contents (Elt F)),
    binary main_v51 main_v50 main_v52 (Host.divf : (⟨S1x2048, .f32⟩ : BufTy).Contents (Elt F) → (⟨S1x2048, .f32⟩ : BufTy).Contents (Elt F) → (⟨S1x2048, .f32⟩ : BufTy).Contents (Elt F)),
    binary main_v45 main_v38 main_v53 (mulf : (⟨S1x2048, .f32⟩ : BufTy).Contents (Elt F) → (⟨S1x2048, .f32⟩ : BufTy).Contents (Elt F) → (⟨S1x2048, .f32⟩ : BufTy).Contents (Elt F)),
    binary main_v35 main_v53 main_v54 (addf : (⟨S1x2048, .f32⟩ : BufTy).Contents (Elt F) → (⟨S1x2048, .f32⟩ : BufTy).Contents (Elt F) → (⟨S1x2048, .f32⟩ : BufTy).Contents (Elt F)),
    unary main_v54 main_v55 (Host.tanh : (⟨S1x2048, .f32⟩ : BufTy).Contents (Elt F) → (⟨S1x2048, .f32⟩ : BufTy).Contents (Elt F)),
    nullary main_cst_6 (constant S_ .f32 0x3F800000#32),
    unary main_cst_6 main_v56 (broadcastInDim S1x2048 ![] bcast_S_S1x2048 : (⟨S_, .f32⟩ : BufTy).Contents (Elt F) → (⟨S1x2048, .f32⟩ : BufTy).Contents (Elt F)),
    binary main_v56 main_v52 main_v57 (subf : (⟨S1x2048, .f32⟩ : BufTy).Contents (Elt F) → (⟨S1x2048, .f32⟩ : BufTy).Contents (Elt F) → (⟨S1x2048, .f32⟩ : BufTy).Contents (Elt F)),
    binary main_v57 main_v55 main_v58 (mulf : (⟨S1x2048, .f32⟩ : BufTy).Contents (Elt F) → (⟨S1x2048, .f32⟩ : BufTy).Contents (Elt F) → (⟨S1x2048, .f32⟩ : BufTy).Contents (Elt F)),
    binary main_v52 main_v1 main_v59 (mulf : (⟨S1x2048, .f32⟩ : BufTy).Contents (Elt F) → (⟨S1x2048, .f32⟩ : BufTy).Contents (Elt F) → (⟨S1x2048, .f32⟩ : BufTy).Contents (Elt F)),
    binary main_v58 main_v59 main_v60 (addf : (⟨S1x2048, .f32⟩ : BufTy).Contents (Elt F) → (⟨S1x2048, .f32⟩ : BufTy).Contents (Elt F) → (⟨S1x2048, .f32⟩ : BufTy).Contents (Elt F)),
    unary main_v60 main_v61 (broadcastInDim S1x1x2048 ![1, 2] bcast_S1x2048_S1x1x2048_1_2 : (⟨S1x2048, .f32⟩ : BufTy).Contents (Elt F) → (⟨S1x1x2048, .f32⟩ : BufTy).Contents (Elt F)),
    unary main_v60 main_v62 (broadcastInDim S1x1x2048 ![1, 2] bcast_S1x2048_S1x1x2048_1_2 : (⟨S1x2048, .f32⟩ : BufTy).Contents (Elt F) → (⟨S1x1x2048, .f32⟩ : BufTy).Contents (Elt F)) ]

/-- The line is its four stretches in order. -/
theorem ops_split : (ops : List (HloOp τ sig (Elt F))) = stretch1 ++ (stretch2 ++ (stretch3 ++ stretch4)) := rfl

/-- Running a list then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first stretch, from any contents -/

theorem s1_v0 (V : Valuation τ sig (Elt F)) : after stretch1 V (Proc.devRef .tc main_v0) = val_main_v0 (F := F) (V (Proc.devRef .tc main_arg0)) := by
  after_results_simp <;> rfl
theorem s1_v1 (V : Valuation τ sig (Elt F)) : after stretch1 V (Proc.devRef .tc main_v1) = val_main_v1 (F := F) (V (Proc.devRef .tc main_arg1)) := by
  after_results_simp <;> rfl
theorem s1_v18 (V : Valuation τ sig (Elt F)) : after stretch1 V (Proc.devRef .tc main_v18)
    = val_main_v18 (F := F) (V (Proc.devRef .tc main_arg0)) (V (Proc.devRef .tc main_arg1)) (V (Proc.devRef .tc main_arg2)) (V (Proc.devRef .tc main_arg3)) (V (Proc.devRef .tc main_arg4)) := by
  after_results_simp <;> rfl
theorem keep1_arg5 (V : Valuation τ sig (Elt F)) : after stretch1 V (Proc.devRef .tc main_arg5) = V (Proc.devRef .tc main_arg5) := by
  after_results_simp
theorem keep1_arg6 (V : Valuation τ sig (Elt F)) : after stretch1 V (Proc.devRef .tc main_arg6) = V (Proc.devRef .tc main_arg6) := by
  after_results_simp
theorem keep1_arg7 (V : Valuation τ sig (Elt F)) : after stretch1 V (Proc.devRef .tc main_arg7) = V (Proc.devRef .tc main_arg7) := by
  after_results_simp
theorem keep1_arg8 (V : Valuation τ sig (Elt F)) : after stretch1 V (Proc.devRef .tc main_arg8) = V (Proc.devRef .tc main_arg8) := by
  after_results_simp
theorem keep1_arg9 (V : Valuation τ sig (Elt F)) : after stretch1 V (Proc.devRef .tc main_arg9) = V (Proc.devRef .tc main_arg9) := by
  after_results_simp
theorem keep1_arg10 (V : Valuation τ sig (Elt F)) : after stretch1 V (Proc.devRef .tc main_arg10) = V (Proc.devRef .tc main_arg10) := by
  after_results_simp

/-! ## The second stretch -/

/-- The combined input, when the stretch finds the input row, the context and the combine weights and bias. -/
theorem s2_v24 (V : Valuation τ sig (Elt F)) (a0 a1 : (⟨S1x1x2048, .f32⟩ : BufTy).Contents (Elt F)) (a2 : (⟨S350x2048, .f32⟩ : BufTy).Contents (Elt F)) (a3 : (⟨S350x4096, .f32⟩ : BufTy).Contents (Elt F)) (a4 : (⟨S350, .f32⟩ : BufTy).Contents (Elt F))
    (a5 : (⟨S2048x4096, .f32⟩ : BufTy).Contents (Elt F)) (a6 : (⟨S2048, .f32⟩ : BufTy).Contents (Elt F))
    (h0 : V (Proc.devRef .tc main_v0) = val_main_v0 (F := F) a0) (h18 : V (Proc.devRef .tc main_v18) = val_main_v18 (F := F) a0 a1 a2 a3 a4)
    (h5 : V (Proc.devRef .tc main_arg5) = a5) (h6 : V (Proc.devRef .tc main_arg6) = a6) :
    after stretch2 V (Proc.devRef .tc main_v24) = val_main_v24 (F := F) a0 a1 a2 a3 a4 a5 a6 := by
  after_results_simp
  rw [h0, h18, h5, h6]
  rfl
theorem keep2_v1 (V : Valuation τ sig (Elt F)) : after stretch2 V (Proc.devRef .tc main_v1) = V (Proc.devRef .tc main_v1) := by
  after_results_simp
theorem keep2_arg7 (V : Valuation τ sig (Elt F)) : after stretch2 V (Proc.devRef .tc main_arg7) = V (Proc.devRef .tc main_arg7) := by
  after_results_simp
theorem keep2_arg8 (V : Valuation τ sig (Elt F)) : after stretch2 V (Proc.devRef .tc main_arg8) = V (Proc.devRef .tc main_arg8) := by
  after_results_simp
theorem keep2_arg9 (V : Valuation τ sig (Elt F)) : after stretch2 V (Proc.devRef .tc main_arg9) = V (Proc.devRef .tc main_arg9) := by
  after_results_simp
theorem keep2_arg10 (V : Valuation τ sig (Elt F)) : after stretch2 V (Proc.devRef .tc main_arg10) = V (Proc.devRef .tc main_arg10) := by
  after_results_simp

/-! ## The third stretch -/

/-- The affine image of the combined input. -/
theorem s3_v28 (V : Valuation τ sig (Elt F)) (a0 a1 : (⟨S1x1x2048, .f32⟩ : BufTy).Contents (Elt F)) (a2 : (⟨S350x2048, .f32⟩ : BufTy).Contents (Elt F)) (a3 : (⟨S350x4096, .f32⟩ : BufTy).Contents (Elt F)) (a4 : (⟨S350, .f32⟩ : BufTy).Contents (Elt F))
    (a5 : (⟨S2048x4096, .f32⟩ : BufTy).Contents (Elt F)) (a6 : (⟨S2048, .f32⟩ : BufTy).Contents (Elt F)) (a7 : (⟨S6144x2048, .f32⟩ : BufTy).Contents (Elt F)) (a9 : (⟨S6144, .f32⟩ : BufTy).Contents (Elt F))
    (h24 : V (Proc.devRef .tc main_v24) = val_main_v24 (F := F) a0 a1 a2 a3 a4 a5 a6) (h7 : V (Proc.devRef .tc main_arg7) = a7) (h9 : V (Proc.devRef .tc main_arg9) = a9) :
    after stretch3 V (Proc.devRef .tc main_v28) = val_main_v28 (F := F) a0 a1 a2 a3 a4 a5 a6 a7 a9 := by
  after_results_simp
  rw [h24, h7, h9]
  rfl
/-- The affine image of the previous hidden row. -/
theorem s3_v32 (V : Valuation τ sig (Elt F)) (a1 : (⟨S1x1x2048, .f32⟩ : BufTy).Contents (Elt F)) (a8 : (⟨S6144x2048, .f32⟩ : BufTy).Contents (Elt F)) (a10 : (⟨S6144, .f32⟩ : BufTy).Contents (Elt F))
    (h1 : V (Proc.devRef .tc main_v1) = val_main_v1 (F := F) a1) (h8 : V (Proc.devRef .tc main_arg8) = a8) (h10 : V (Proc.devRef .tc main_arg10) = a10) :
    after stretch3 V (Proc.devRef .tc main_v32) = val_main_v32 (F := F) a1 a8 a10 := by
  after_results_simp
  rw [h1, h8, h10]
  rfl
theorem keep3_v1 (V : Valuation τ sig (Elt F)) : after stretch3 V (Proc.devRef .tc main_v1) = V (Proc.devRef .tc main_v1) := by
  after_results_simp

/-! ## The fourth stretch -/

/-- The first returned buffer, when the stretch finds the two affine images and the hidden row. -/
theorem s4_v61 (V : Valuation τ sig (Elt F)) (a0 a1 : (⟨S1x1x2048, .f32⟩ : BufTy).Contents (Elt F)) (a2 : (⟨S350x2048, .f32⟩ : BufTy).Contents (Elt F)) (a3 : (⟨S350x4096, .f32⟩ : BufTy).Contents (Elt F)) (a4 : (⟨S350, .f32⟩ : BufTy).Contents (Elt F))
    (a5 : (⟨S2048x4096, .f32⟩ : BufTy).Contents (Elt F)) (a6 : (⟨S2048, .f32⟩ : BufTy).Contents (Elt F)) (a7 a8 : (⟨S6144x2048, .f32⟩ : BufTy).Contents (Elt F)) (a9 a10 : (⟨S6144, .f32⟩ : BufTy).Contents (Elt F))
    (h28 : V (Proc.devRef .tc main_v28) = val_main_v28 (F := F) a0 a1 a2 a3 a4 a5 a6 a7 a9) (h32 : V (Proc.devRef .tc main_v32) = val_main_v32 (F := F) a1 a8 a10)
    (h1 : V (Proc.devRef .tc main_v1) = val_main_v1 (F := F) a1) :
    after stretch4 V (Proc.devRef .tc main_v61) = val_main_v61 (F := F) a0 a1 a2 a3 a4 a5 a6 a7 a8 a9 a10 := by
  after_results_simp
  rw [h28, h32, h1]
  rfl
/-- The second returned buffer. -/
theorem s4_v62 (V : Valuation τ sig (Elt F)) (a0 a1 : (⟨S1x1x2048, .f32⟩ : BufTy).Contents (Elt F)) (a2 : (⟨S350x2048, .f32⟩ : BufTy).Contents (Elt F)) (a3 : (⟨S350x4096, .f32⟩ : BufTy).Contents (Elt F)) (a4 : (⟨S350, .f32⟩ : BufTy).Contents (Elt F))
    (a5 : (⟨S2048x4096, .f32⟩ : BufTy).Contents (Elt F)) (a6 : (⟨S2048, .f32⟩ : BufTy).Contents (Elt F)) (a7 a8 : (⟨S6144x2048, .f32⟩ : BufTy).Contents (Elt F)) (a9 a10 : (⟨S6144, .f32⟩ : BufTy).Contents (Elt F))
    (h28 : V (Proc.devRef .tc main_v28) = val_main_v28 (F := F) a0 a1 a2 a3 a4 a5 a6 a7 a9) (h32 : V (Proc.devRef .tc main_v32) = val_main_v32 (F := F) a1 a8 a10)
    (h1 : V (Proc.devRef .tc main_v1) = val_main_v1 (F := F) a1) :
    after stretch4 V (Proc.devRef .tc main_v62) = val_main_v62 (F := F) a0 a1 a2 a3 a4 a5 a6 a7 a8 a9 a10 := by
  after_results_simp
  rw [h28, h32, h1]
  rfl

/-! ## The whole line -/

section Chain
variable (V₀ : Valuation τ sig (Elt F))

/-- What the fourth stretch finds: the two affine images and the hidden row, as stages of the launch contents. -/
theorem found28 : after stretch3 (after stretch2 (after stretch1 V₀)) (Proc.devRef .tc main_v28) = val_main_v28 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg9)) :=
  s3_v28 _ _ _ _ _ _ _ _ _ _
    (s2_v24 _ _ _ _ _ _ _ _ (s1_v0 V₀) (s1_v18 V₀) (keep1_arg5 V₀) (keep1_arg6 V₀))
    ((keep2_arg7 _).trans (keep1_arg7 V₀)) ((keep2_arg9 _).trans (keep1_arg9 V₀))
theorem found32 : after stretch3 (after stretch2 (after stretch1 V₀)) (Proc.devRef .tc main_v32) = val_main_v32 (F := F) (V₀ (Proc.devRef .tc main_arg1)) (V₀ (Proc.devRef .tc main_arg8)) (V₀ (Proc.devRef .tc main_arg10)) :=
  s3_v32 _ _ _ _
    ((keep2_v1 _).trans (s1_v1 V₀)) ((keep2_arg8 _).trans (keep1_arg8 V₀)) ((keep2_arg10 _).trans (keep1_arg10 V₀))
theorem found1 : after stretch3 (after stretch2 (after stretch1 V₀)) (Proc.devRef .tc main_v1) = val_main_v1 (F := F) (V₀ (Proc.devRef .tc main_arg1)) :=
  (keep3_v1 _).trans ((keep2_v1 _).trans (s1_v1 V₀))

/-- The first returned buffer at the end of the line. -/
theorem read_v61 : after ops V₀ (Proc.devRef .tc main_v61) = val_main_v61 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) := by
  rw [ops_split, after_append, after_append, after_append]
  exact s4_v61 _ _ _ _ _ _ _ _ _ _ _ _ (found28 V₀) (found32 V₀) (found1 V₀)
/-- The second returned buffer at the end of the line. -/
theorem read_v62 : after ops V₀ (Proc.devRef .tc main_v62) = val_main_v62 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) := by
  rw [ops_split, after_append, after_append, after_append]
  exact s4_v62 _ _ _ _ _ _ _ _ _ _ _ _ (found28 V₀) (found32 V₀) (found1 V₀)
/-- The attention weights at the end of the line. -/
theorem read_v17 : after ops V₀ (Proc.devRef .tc main_v17) = val_main_v17 (F := F) (V₀ (Proc.devRef .tc main_arg0)) (V₀ (Proc.devRef .tc main_arg1)) (V₀ (Proc.devRef .tc main_arg3)) (V₀ (Proc.devRef .tc main_arg4)) := by
  after_results_simp <;> rfl
theorem read_arg0 : after ops V₀ (Proc.devRef .tc main_arg0) = V₀ (Proc.devRef .tc main_arg0) := by
  after_results_simp
theorem read_arg1 : after ops V₀ (Proc.devRef .tc main_arg1) = V₀ (Proc.devRef .tc main_arg1) := by
  after_results_simp
theorem read_arg2 : after ops V₀ (Proc.devRef .tc main_arg2) = V₀ (Proc.devRef .tc main_arg2) := by
  after_results_simp
theorem read_arg3 : after ops V₀ (Proc.devRef .tc main_arg3) = V₀ (Proc.devRef .tc main_arg3) := by
  after_results_simp
theorem read_arg4 : after ops V₀ (Proc.devRef .tc main_arg4) = V₀ (Proc.devRef .tc main_arg4) := by
  after_results_simp
theorem read_arg5 : after ops V₀ (Proc.devRef .tc main_arg5) = V₀ (Proc.devRef .tc main_arg5) := by
  after_results_simp
theorem read_arg6 : after ops V₀ (Proc.devRef .tc main_arg6) = V₀ (Proc.devRef .tc main_arg6) := by
  after_results_simp
theorem read_arg7 : after ops V₀ (Proc.devRef .tc main_arg7) = V₀ (Proc.devRef .tc main_arg7) := by
  after_results_simp
theorem read_arg8 : after ops V₀ (Proc.devRef .tc main_arg8) = V₀ (Proc.devRef .tc main_arg8) := by
  after_results_simp
theorem read_arg9 : after ops V₀ (Proc.devRef .tc main_arg9) = V₀ (Proc.devRef .tc main_arg9) := by
  after_results_simp
theorem read_arg10 : after ops V₀ (Proc.devRef .tc main_arg10) = V₀ (Proc.devRef .tc main_arg10) := by
  after_results_simp

end Chain

/-- On every device, from any memory with zero counters: every weakly fair execution of the reference terminates with the
    two returned buffers and the attention weights at their stages of the launch arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v62) = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v17) = val_main_v17 (F := F) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v61).trans (read_v61 _), (h c main_v62).trans (read_v62 _),
      (h c main_v17).trans (read_v17 _),
      (h c main_arg0).trans (read_arg0 _),
      (h c main_arg1).trans (read_arg1 _),
      (h c main_arg2).trans (read_arg2 _),
      (h c main_arg3).trans (read_arg3 _),
      (h c main_arg4).trans (read_arg4 _),
      (h c main_arg5).trans (read_arg5 _),
      (h c main_arg6).trans (read_arg6 _),
      (h c main_arg7).trans (read_arg7 _),
      (h c main_arg8).trans (read_arg8 _),
      (h c main_arg9).trans (read_arg9 _),
      (h c main_arg10).trans (read_arg10 _)⟩)
    (run_seq scopedRefs_eq scopedSems_eq defs main (fun _ => ops) main_eq (fun _ => ops_sub) m ρ)

end Cert.ReferenceIdeal.RunH

end
-- ==== Proof.Walk.lean ====
/-
  What each call finds in the buffers it reads, and where the three results end.

  The buffer contents at the seven boundaries of the program form a fold from the launch memory.  A reshape writes its
  result buffer and nothing else; a call changes only its result arrays.  Walking each buffer back through the fold to
  the last operation that wrote it: the rows the calls read are the reshaped arguments, the weight matrices are the
  arguments themselves or their reshapes, each later call reads the previous call's result array, and the three results
  are the attention call's first array and two reshapes of the recurrent-cell call's array.
-/
import proofs.«100843_j15350213116625_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## Arguments, at the boundary where a call or a reshape reads them -/

/-- The attention weights as the attention call finds them. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by
          show StableHlo.after hostOps0 (W0 m ρ c) (Proc.devRef .tc main_arg3) = _
          after_results
    _ = m ((c : Thread nD τ).loc main_arg3) := rfl

/-- The encoder outputs as the attention call finds them. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by
          show StableHlo.after hostOps0 (W0 m ρ c) (Proc.devRef .tc main_arg2) = _
          after_results
    _ = m ((c : Thread nD τ).loc main_arg2) := rfl

/-- The combine weights as the combine call finds them. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by
          show StableHlo.after hostOps1 (W2 m ρ c) (Proc.devRef .tc main_arg5) = _
          after_results
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          after_results
    _ = m ((c : Thread nD τ).loc main_arg5) := rfl

/-- The combine bias as the reshape in front of the combine call finds it. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _
          after_results
    _ = m ((c : Thread nD τ).loc main_arg6) := rfl

/-- The input-side cell weights as the reshapes in front of the cell call find them. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by
          show StableHlo.after hostOps1 (W2 m ρ c) (Proc.devRef .tc main_arg7) = _
          after_results
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          after_results
    _ = m ((c : Thread nD τ).loc main_arg7) := rfl

/-- The hidden-side cell weights as the reshapes in front of the cell call find them. -/
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by
          show StableHlo.after hostOps1 (W2 m ρ c) (Proc.devRef .tc main_arg8) = _
          after_results
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _
          after_results
    _ = m ((c : Thread nD τ).loc main_arg8) := rfl

/-- The input-side cell bias as the reshapes in front of the cell call find it. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _
          after_results
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          after_results
    _ = m ((c : Thread nD τ).loc main_arg9) := rfl

/-- The hidden-side cell bias as the reshapes in front of the cell call find it. -/
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by
          show StableHlo.after hostOps1 (W2 m ρ c) (Proc.devRef .tc main_arg10) = _
          after_results
    _ = W1 m ρ c (Proc.devRef .tc main_arg10) := W2_of_ne m ρ c main_arg10 (by decide)
    _ = W0 m ρ c (Proc.devRef .tc main_arg10) := by
          show StableHlo.after hostOps0 (W0 m ρ c) (Proc.devRef .tc main_arg10) = _
          after_results
    _ = m ((c : Thread nD τ).loc main_arg10) := rfl

/-! ## The reshaped rows and matrices -/

/-- The input row as the attention call finds it: the `1 × 1 × 2048` argument read as `1 × 2048`. -/
theorem W1_v0 (c : Dev nD) : W1 m ρ c (Proc.devRef .tc main_v0)
    = shapeCast S1x2048 (m ((c : Thread nD τ).loc main_arg0)) shapeCasts_S1x1x2048_S1x2048 := by
  show StableHlo.after hostOps0 (W0 m ρ c) (Proc.devRef .tc main_v0) = _
  after_results
  rfl

/-- The hidden row as the attention call finds it: the `1 × 1 × 2048` argument read as `1 × 2048`. -/
theorem W1_v1 (c : Dev nD) : W1 m ρ c (Proc.devRef .tc main_v1)
    = shapeCast S1x2048 (m ((c : Thread nD τ).loc main_arg1)) shapeCasts_S1x1x2048_S1x2048 := by
  show StableHlo.after hostOps0 (W0 m ρ c) (Proc.devRef .tc main_v1) = _
  after_results
  rfl

/-- The attention bias as the attention call finds it: the 350 entries read as a `1 × 350` row. -/
theorem W1_v2 (c : Dev nD) : W1 m ρ c (Proc.devRef .tc main_v2)
    = shapeCast S1x350 (m ((c : Thread nD τ).loc main_arg4)) shapeCasts_S350_S1x350 := by
  show StableHlo.after hostOps0 (W0 m ρ c) (Proc.devRef .tc main_v2) = _
  after_results
  rfl

/-- The input row as the combine call finds it: untouched since the attention call read it. -/
theorem W3_v0 (c : Dev nD) : W3 m ρ c (Proc.devRef .tc main_v0)
    = shapeCast S1x2048 (m ((c : Thread nD τ).loc main_arg0)) shapeCasts_S1x1x2048_S1x2048 :=
  calc W3 m ρ c (Proc.devRef .tc main_v0)
    _ = W2 m ρ c (Proc.devRef .tc main_v0) := by
          show StableHlo.after hostOps1 (W2 m ρ c) (Proc.devRef .tc main_v0) = _
          after_results
    _ = W1 m ρ c (Proc.devRef .tc main_v0) :=
          (W2_arr m ρ c 0).trans (((dat0 (V1 m ρ) c).arrAt_in 0 rfl _).trans (A_eq0 (V1 m ρ) c 0))
    _ = _ := W1_v0 m ρ c

/-- The context row as the combine call finds it: what the attention call left in its second result array. -/
theorem W3_v3_1 (c : Dev nD) : W3 m ρ c (Proc.devRef .tc main_v3_1) = (dat0 (V1 m ρ) c).arrAt 6 cfg0.N :=
  calc W3 m ρ c (Proc.devRef .tc main_v3_1)
    _ = W2 m ρ c (Proc.devRef .tc main_v3_1) := by
          show StableHlo.after hostOps1 (W2 m ρ c) (Proc.devRef .tc main_v3_1) = _
          after_results
    _ = _ := W2_arr m ρ c 6

/-- The combine bias as the combine call finds it: the 2048 entries read as a `1 × 2048` row. -/
theorem W3_v4 (c : Dev nD) : W3 m ρ c (Proc.devRef .tc main_v4)
    = shapeCast S1x2048 (m ((c : Thread nD τ).loc main_arg6)) shapeCasts_S2048_S1x2048 := by
  have h : W3 m ρ c (Proc.devRef .tc main_v4) = shapeCast S1x2048 (W2 m ρ c (Proc.devRef .tc main_arg6)) shapeCasts_S2048_S1x2048 := by
    show StableHlo.after hostOps1 (W2 m ρ c) (Proc.devRef .tc main_v4) = _
    after_results
    rfl
  rw [h, W2_arg6]

/-- The combined input as the cell call finds it: what the combine call left in its result array. -/
theorem W5_v5 (c : Dev nD) : W5 m ρ c (Proc.devRef .tc main_v5) = (dat1 (V3 m ρ) c).arrAt 4 cfg1.N :=
  calc W5 m ρ c (Proc.devRef .tc main_v5)
    _ = W4 m ρ c (Proc.devRef .tc main_v5) := by
          show StableHlo.after hostOps2 (W4 m ρ c) (Proc.devRef .tc main_v5) = _
          after_results
    _ = _ := W4_arr m ρ c 4

/-- The hidden row as the cell call finds it: untouched since the attention call read it. -/
theorem W5_v1 (c : Dev nD) : W5 m ρ c (Proc.devRef .tc main_v1)
    = shapeCast S1x2048 (m ((c : Thread nD τ).loc main_arg1)) shapeCasts_S1x1x2048_S1x2048 :=
  calc W5 m ρ c (Proc.devRef .tc main_v1)
    _ = W4 m ρ c (Proc.devRef .tc main_v1) := by
          show StableHlo.after hostOps2 (W4 m ρ c) (Proc.devRef .tc main_v1) = _
          after_results
    _ = W3 m ρ c (Proc.devRef .tc main_v1) := W4_of_ne m ρ c main_v1 (by decide)
    _ = W2 m ρ c (Proc.devRef .tc main_v1) := by
          show StableHlo.after hostOps1 (W2 m ρ c) (Proc.devRef .tc main_v1) = _
          after_results
    _ = W1 m ρ c (Proc.devRef .tc main_v1) :=
          (W2_arr m ρ c 1).trans (((dat0 (V1 m ρ) c).arrAt_in 1 rfl _).trans (A_eq0 (V1 m ρ) c 1))
    _ = _ := W1_v1 m ρ c

/-- The input-side cell weights as the cell call finds them: the 6144 rows read as three slabs of 2048. -/
theorem W5_v6 (c : Dev nD) : W5 m ρ c (Proc.devRef .tc main_v6)
    = shapeCast S3x2048x2048 (m ((c : Thread nD τ).loc main_arg7)) shapeCasts_S6144x2048_S3x2048x2048 := by
  have h : W5 m ρ c (Proc.devRef .tc main_v6) = shapeCast S3x2048x2048 (W4 m ρ c (Proc.devRef .tc main_arg7)) shapeCasts_S6144x2048_S3x2048x2048 := by
    show StableHlo.after hostOps2 (W4 m ρ c) (Proc.devRef .tc main_v6) = _
    after_results
    rfl
  rw [h, W4_arg7]

/-- The hidden-side cell weights as the cell call finds them: the 6144 rows read as three slabs of 2048. -/
theorem W5_v7 (c : Dev nD) : W5 m ρ c (Proc.devRef .tc main_v7)
    = shapeCast S3x2048x2048 (m ((c : Thread nD τ).loc main_arg8)) shapeCasts_S6144x2048_S3x2048x2048 := by
  have h : W5 m ρ c (Proc.devRef .tc main_v7) = shapeCast S3x2048x2048 (W4 m ρ c (Proc.devRef .tc main_arg8)) shapeCasts_S6144x2048_S3x2048x2048 := by
    show StableHlo.after hostOps2 (W4 m ρ c) (Proc.devRef .tc main_v7) = _
    after_results
    rfl
  rw [h, W4_arg8]

/-- The input-side cell bias as the cell call finds it: the 6144 entries read as three rows of 2048. -/
theorem W5_v8 (c : Dev nD) : W5 m ρ c (Proc.devRef .tc main_v8)
    = shapeCast S3x1x2048 (m ((c : Thread nD τ).loc main_arg9)) shapeCasts_S6144_S3x1x2048 := by
  have h : W5 m ρ c (Proc.devRef .tc main_v8) = shapeCast S3x1x2048 (W4 m ρ c (Proc.devRef .tc main_arg9)) shapeCasts_S6144_S3x1x2048 := by
    show StableHlo.after hostOps2 (W4 m ρ c) (Proc.devRef .tc main_v8) = _
    after_results
    rfl
  rw [h, W4_arg9]

/-- The hidden-side cell bias as the cell call finds it: the 6144 entries read as three rows of 2048. -/
theorem W5_v9 (c : Dev nD) : W5 m ρ c (Proc.devRef .tc main_v9)
    = shapeCast S3x1x2048 (m ((c : Thread nD τ).loc main_arg10)) shapeCasts_S6144_S3x1x2048 := by
  have h : W5 m ρ c (Proc.devRef .tc main_v9) = shapeCast S3x1x2048 (W4 m ρ c (Proc.devRef .tc main_arg10)) shapeCasts_S6144_S3x1x2048 := by
    show StableHlo.after hostOps2 (W4 m ρ c) (Proc.devRef .tc main_v9) = _
    after_results
    rfl
  rw [h, W4_arg10]

/-! ## The results -/

/-- The attention weights' array is not touched after the attention call: it ends as that call left it. -/
theorem W7_v3_0 (c : Dev nD) : W7 m ρ c (Proc.devRef .tc main_v3_0) = (dat0 (V1 m ρ) c).arrAt 5 cfg0.N :=
  calc W7 m ρ c (Proc.devRef .tc main_v3_0)
    _ = W6 m ρ c (Proc.devRef .tc main_v3_0) := by
          show StableHlo.after hostOps3 (W6 m ρ c) (Proc.devRef .tc main_v3_0) = _
          after_results
    _ = W5 m ρ c (Proc.devRef .tc main_v3_0) := W6_of_ne m ρ c main_v3_0 (by decide)
    _ = W4 m ρ c (Proc.devRef .tc main_v3_0) := by
          show StableHlo.after hostOps2 (W4 m ρ c) (Proc.devRef .tc main_v3_0) = _
          after_results
    _ = W3 m ρ c (Proc.devRef .tc main_v3_0) := W4_of_ne m ρ c main_v3_0 (by decide)
    _ = W2 m ρ c (Proc.devRef .tc main_v3_0) := by
          show StableHlo.after hostOps1 (W2 m ρ c) (Proc.devRef .tc main_v3_0) = _
          after_results
    _ = (dat0 (V1 m ρ) c).arrAt 5 cfg0.N := W2_arr m ρ c 5

/-- The first result: the cell call's result row read as `1 × 1 × 2048`. -/
theorem W7_v11 (c : Dev nD) : W7 m ρ c (Proc.devRef .tc main_v11)
    = shapeCast S1x1x2048 ((dat2 (V5 m ρ) c).arrAt 6 cfg2.N) shapeCasts_S1x2048_S1x1x2048 := by
  have h : W7 m ρ c (Proc.devRef .tc main_v11) = shapeCast S1x1x2048 (W6 m ρ c (Proc.devRef .tc main_v10)) shapeCasts_S1x2048_S1x1x2048 := by
    show StableHlo.after hostOps3 (W6 m ρ c) (Proc.devRef .tc main_v11) = _
    after_results
    rfl
  rw [h, W6_arr m ρ c 6]

/-- The second result: the same row read as `1 × 1 × 2048` once more. -/
theorem W7_v12 (c : Dev nD) : W7 m ρ c (Proc.devRef .tc main_v12)
    = shapeCast S1x1x2048 ((dat2 (V5 m ρ) c).arrAt 6 cfg2.N) shapeCasts_S1x2048_S1x1x2048 := by
  have h : W7 m ρ c (Proc.devRef .tc main_v12) = shapeCast S1x1x2048 (W6 m ρ c (Proc.devRef .tc main_v10)) shapeCasts_S1x2048_S1x1x2048 := by
    show StableHlo.after hostOps3 (W6 m ρ c) (Proc.devRef .tc main_v12) = _
    after_results
    rfl
  rw [h, W6_arr m ρ c 6]

end Cert.KernelIdeal.Bridge

end
-- ==== Proof.RowDot.lean ====
/-
  A row vector times a matrix, read at one output entry.

  Every matrix product in the three kernel bodies has a single row on the left (the decoder step has batch size one) and
  contracts one axis, into a zero accumulator.  Over the extended reals such a product at output column `n` is the plain
  finite sum over the contraction index `k` of left entry `k` times the right entry that pairs row/column `n` with `k`:
  `∑ k, a[0,k] · B[n,k]` when the right operand is contracted along its second axis (a product with the transpose), and
  `∑ k, a[0,k] · B[k,n]` when it is contracted along its first.  No rounding and no chunk order is left in it.
-/
import proofs.«100843_j15350213116625_2_alg».proof.Proof.Gen.KernelIdeal.Skeleton
import Idealize.ShloMosaic.Lib.ValueIdx
import Idealize.ShloMosaic.PureOps.Ideal.Laws

noncomputable section

namespace Cert.KernelIdeal.Bridge

open Cert.KernelIdeal Idealize.ShloMosaic Idealize.ShloMosaic.ValueIdx

/-! ### `1 × 4096` against `350 × 4096`, contracted along the second axis of both -/

/-- The left operand's row coordinate is the output's. -/
theorem rowDotT_4096_350_l0 (i : S1x350.Idx) (q : dot_S1x4096_S350x4096_S1x350_1_1_0_0_n_n.contr.Idx) : (dot_S1x4096_S350x4096_S1x350_1_1_0_0_n_n.lhsIdx i q 0).val = (i 0).val := by
  unfold DotDims.lhsIdx
  rw [dif_neg (show ¬(0 : Fin S1x4096.rank) ∈ dot_S1x4096_S350x4096_S1x350_1_1_0_0_n_n.lhsBatch by decide),
    dif_pos (show (0 : Fin S1x4096.rank) ∈ dot_S1x4096_S350x4096_S1x350_1_1_0_0_n_n.lhsNonContracting by decide)]
  rfl
/-- The left operand's column coordinate is the contraction index. -/
theorem rowDotT_4096_350_l1 (i : S1x350.Idx) (q : dot_S1x4096_S350x4096_S1x350_1_1_0_0_n_n.contr.Idx) : (dot_S1x4096_S350x4096_S1x350_1_1_0_0_n_n.lhsIdx i q 1).val = (q ⟨0, by decide⟩).val :=
  dot_S1x4096_S350x4096_S1x350_1_1_0_0_n_n.lhsIdx_val_of_single rfl i q
/-- The right operand's kept coordinate is the output's column. -/
theorem rowDotT_4096_350_r0 (i : S1x350.Idx) (q : dot_S1x4096_S350x4096_S1x350_1_1_0_0_n_n.contr.Idx) : (dot_S1x4096_S350x4096_S1x350_1_1_0_0_n_n.rhsIdx i q 0).val = (i 1).val := by
  unfold DotDims.rhsIdx
  rw [dif_neg (show ¬(0 : Fin S350x4096.rank) ∈ dot_S1x4096_S350x4096_S1x350_1_1_0_0_n_n.rhsBatch by decide),
    dif_pos (show (0 : Fin S350x4096.rank) ∈ dot_S1x4096_S350x4096_S1x350_1_1_0_0_n_n.rhsNonContracting by decide)]
  rfl
/-- The right operand's contracted coordinate is the contraction index. -/
theorem rowDotT_4096_350_r1 (i : S1x350.Idx) (q : dot_S1x4096_S350x4096_S1x350_1_1_0_0_n_n.contr.Idx) : (dot_S1x4096_S350x4096_S1x350_1_1_0_0_n_n.rhsIdx i q 1).val = (q ⟨0, by decide⟩).val :=
  dot_S1x4096_S350x4096_S1x350_1_1_0_0_n_n.rhsIdx_val_of_single rfl i q

/-- Entry `(p, n)` of the product. -/
theorem rowDotT_4096_350 (a : FVec Ideal S1x4096 .bf16) (B : FVec Ideal S350x4096 .bf16) (p : Fin 1) (n : Fin 350) :
    matmul dot_S1x4096_S350x4096_S1x350_1_1_0_0_n_n none a B (constant S1x350 .f32 0x00000000#32) (ix2 p n)
      = ∑ k : Fin 4096, a (ix2 p k) * B (ix2 n k) := by
  refine (Ideal.matmul_constant_zero_apply dot_S1x4096_S350x4096_S1x350_1_1_0_0_n_n none a B (ix2 p n)).trans ?_
  rw [← Equiv.sum_comp (contrEquiv1 dot_S1x4096_S350x4096_S1x350_1_1_0_0_n_n 4096 rfl rfl).symm]
  refine Finset.sum_congr rfl fun k _ => ?_
  have hk := contrEquiv1_symm_val dot_S1x4096_S350x4096_S1x350_1_1_0_0_n_n 4096 rfl rfl k
  have el : dot_S1x4096_S350x4096_S1x350_1_1_0_0_n_n.lhsIdx (ix2 p n) ((contrEquiv1 dot_S1x4096_S350x4096_S1x350_1_1_0_0_n_n 4096 rfl rfl).symm k) = ix2 p k :=
    funext fun x => Fin.ext (by
      match x with
      | ⟨0, _⟩ => exact rowDotT_4096_350_l0 _ _
      | ⟨1, _⟩ => exact (rowDotT_4096_350_l1 _ _).trans hk)
  have er : dot_S1x4096_S350x4096_S1x350_1_1_0_0_n_n.rhsIdx (ix2 p n) ((contrEquiv1 dot_S1x4096_S350x4096_S1x350_1_1_0_0_n_n 4096 rfl rfl).symm k) = ix2 n k :=
    funext fun x => Fin.ext (by
      match x with
      | ⟨0, _⟩ => exact rowDotT_4096_350_r0 _ _
      | ⟨1, _⟩ => exact (rowDotT_4096_350_r1 _ _).trans hk)
  rw [el, er]

/-! ### `1 × 350` against `350 × 2048` -/

/-- The left operand's row coordinate is the output's. -/
theorem rowDot_350_2048_l0 (i : S1x2048.Idx) (q : dot_S1x350_S350x2048_S1x2048_1_0_0_1_n_n.contr.Idx) : (dot_S1x350_S350x2048_S1x2048_1_0_0_1_n_n.lhsIdx i q 0).val = (i 0).val := by
  unfold DotDims.lhsIdx
  rw [dif_neg (show ¬(0 : Fin S1x350.rank) ∈ dot_S1x350_S350x2048_S1x2048_1_0_0_1_n_n.lhsBatch by decide),
    dif_pos (show (0 : Fin S1x350.rank) ∈ dot_S1x350_S350x2048_S1x2048_1_0_0_1_n_n.lhsNonContracting by decide)]
  rfl
/-- The left operand's column coordinate is the contraction index. -/
theorem rowDot_350_2048_l1 (i : S1x2048.Idx) (q : dot_S1x350_S350x2048_S1x2048_1_0_0_1_n_n.contr.Idx) : (dot_S1x350_S350x2048_S1x2048_1_0_0_1_n_n.lhsIdx i q 1).val = (q ⟨0, by decide⟩).val :=
  dot_S1x350_S350x2048_S1x2048_1_0_0_1_n_n.lhsIdx_val_of_single rfl i q
/-- The right operand's kept coordinate is the output's column. -/
theorem rowDot_350_2048_r1 (i : S1x2048.Idx) (q : dot_S1x350_S350x2048_S1x2048_1_0_0_1_n_n.contr.Idx) : (dot_S1x350_S350x2048_S1x2048_1_0_0_1_n_n.rhsIdx i q 1).val = (i 1).val := by
  unfold DotDims.rhsIdx
  rw [dif_neg (show ¬(1 : Fin S350x2048.rank) ∈ dot_S1x350_S350x2048_S1x2048_1_0_0_1_n_n.rhsBatch by decide),
    dif_pos (show (1 : Fin S350x2048.rank) ∈ dot_S1x350_S350x2048_S1x2048_1_0_0_1_n_n.rhsNonContracting by decide)]
  rfl
/-- The right operand's contracted coordinate is the contraction index. -/
theorem rowDot_350_2048_r0 (i : S1x2048.Idx) (q : dot_S1x350_S350x2048_S1x2048_1_0_0_1_n_n.contr.Idx) : (dot_S1x350_S350x2048_S1x2048_1_0_0_1_n_n.rhsIdx i q 0).val = (q ⟨0, by decide⟩).val :=
  dot_S1x350_S350x2048_S1x2048_1_0_0_1_n_n.rhsIdx_val_of_single rfl i q

/-- Entry `(p, n)` of the product. -/
theorem rowDot_350_2048 (a : FVec Ideal S1x350 .bf16) (B : FVec Ideal S350x2048 .bf16) (p : Fin 1) (n : Fin 2048) :
    matmul dot_S1x350_S350x2048_S1x2048_1_0_0_1_n_n none a B (constant S1x2048 .f32 0x00000000#32) (ix2 p n)
      = ∑ k : Fin 350, a (ix2 p k) * B (ix2 k n) := by
  refine (Ideal.matmul_constant_zero_apply dot_S1x350_S350x2048_S1x2048_1_0_0_1_n_n none a B (ix2 p n)).trans ?_
  rw [← Equiv.sum_comp (contrEquiv1 dot_S1x350_S350x2048_S1x2048_1_0_0_1_n_n 350 rfl rfl).symm]
  refine Finset.sum_congr rfl fun k _ => ?_
  have hk := contrEquiv1_symm_val dot_S1x350_S350x2048_S1x2048_1_0_0_1_n_n 350 rfl rfl k
  have el : dot_S1x350_S350x2048_S1x2048_1_0_0_1_n_n.lhsIdx (ix2 p n) ((contrEquiv1 dot_S1x350_S350x2048_S1x2048_1_0_0_1_n_n 350 rfl rfl).symm k) = ix2 p k :=
    funext fun x => Fin.ext (by
      match x with
      | ⟨0, _⟩ => exact rowDot_350_2048_l0 _ _
      | ⟨1, _⟩ => exact (rowDot_350_2048_l1 _ _).trans hk)
  have er : dot_S1x350_S350x2048_S1x2048_1_0_0_1_n_n.rhsIdx (ix2 p n) ((contrEquiv1 dot_S1x350_S350x2048_S1x2048_1_0_0_1_n_n 350 rfl rfl).symm k) = ix2 k n :=
    funext fun x => Fin.ext (by
      match x with
      | ⟨1, _⟩ => exact rowDot_350_2048_r1 _ _
      | ⟨0, _⟩ => exact (rowDot_350_2048_r0 _ _).trans hk)
  rw [el, er]

/-! ### `1 × 4096` against `512 × 4096`, contracted along the second axis of both -/

/-- The left operand's row coordinate is the output's. -/
theorem rowDotT_4096_512_l0 (i : S1x512.Idx) (q : dot_S1x4096_S512x4096_S1x512_1_1_0_0_n_n.contr.Idx) : (dot_S1x4096_S512x4096_S1x512_1_1_0_0_n_n.lhsIdx i q 0).val = (i 0).val := by
  unfold DotDims.lhsIdx
  rw [dif_neg (show ¬(0 : Fin S1x4096.rank) ∈ dot_S1x4096_S512x4096_S1x512_1_1_0_0_n_n.lhsBatch by decide),
    dif_pos (show (0 : Fin S1x4096.rank) ∈ dot_S1x4096_S512x4096_S1x512_1_1_0_0_n_n.lhsNonContracting by decide)]
  rfl
/-- The left operand's column coordinate is the contraction index. -/
theorem rowDotT_4096_512_l1 (i : S1x512.Idx) (q : dot_S1x4096_S512x4096_S1x512_1_1_0_0_n_n.contr.Idx) : (dot_S1x4096_S512x4096_S1x512_1_1_0_0_n_n.lhsIdx i q 1).val = (q ⟨0, by decide⟩).val :=
  dot_S1x4096_S512x4096_S1x512_1_1_0_0_n_n.lhsIdx_val_of_single rfl i q
/-- The right operand's kept coordinate is the output's column. -/
theorem rowDotT_4096_512_r0 (i : S1x512.Idx) (q : dot_S1x4096_S512x4096_S1x512_1_1_0_0_n_n.contr.Idx) : (dot_S1x4096_S512x4096_S1x512_1_1_0_0_n_n.rhsIdx i q 0).val = (i 1).val := by
  unfold DotDims.rhsIdx
  rw [dif_neg (show ¬(0 : Fin S512x4096.rank) ∈ dot_S1x4096_S512x4096_S1x512_1_1_0_0_n_n.rhsBatch by decide),
    dif_pos (show (0 : Fin S512x4096.rank) ∈ dot_S1x4096_S512x4096_S1x512_1_1_0_0_n_n.rhsNonContracting by decide)]
  rfl
/-- The right operand's contracted coordinate is the contraction index. -/
theorem rowDotT_4096_512_r1 (i : S1x512.Idx) (q : dot_S1x4096_S512x4096_S1x512_1_1_0_0_n_n.contr.Idx) : (dot_S1x4096_S512x4096_S1x512_1_1_0_0_n_n.rhsIdx i q 1).val = (q ⟨0, by decide⟩).val :=
  dot_S1x4096_S512x4096_S1x512_1_1_0_0_n_n.rhsIdx_val_of_single rfl i q

/-- Entry `(p, n)` of the product. -/
theorem rowDotT_4096_512 (a : FVec Ideal S1x4096 .bf16) (B : FVec Ideal S512x4096 .bf16) (p : Fin 1) (n : Fin 512) :
    matmul dot_S1x4096_S512x4096_S1x512_1_1_0_0_n_n none a B (constant S1x512 .f32 0x00000000#32) (ix2 p n)
      = ∑ k : Fin 4096, a (ix2 p k) * B (ix2 n k) := by
  refine (Ideal.matmul_constant_zero_apply dot_S1x4096_S512x4096_S1x512_1_1_0_0_n_n none a B (ix2 p n)).trans ?_
  rw [← Equiv.sum_comp (contrEquiv1 dot_S1x4096_S512x4096_S1x512_1_1_0_0_n_n 4096 rfl rfl).symm]
  refine Finset.sum_congr rfl fun k _ => ?_
  have hk := contrEquiv1_symm_val dot_S1x4096_S512x4096_S1x512_1_1_0_0_n_n 4096 rfl rfl k
  have el : dot_S1x4096_S512x4096_S1x512_1_1_0_0_n_n.lhsIdx (ix2 p n) ((contrEquiv1 dot_S1x4096_S512x4096_S1x512_1_1_0_0_n_n 4096 rfl rfl).symm k) = ix2 p k :=
    funext fun x => Fin.ext (by
      match x with
      | ⟨0, _⟩ => exact rowDotT_4096_512_l0 _ _
      | ⟨1, _⟩ => exact (rowDotT_4096_512_l1 _ _).trans hk)
  have er : dot_S1x4096_S512x4096_S1x512_1_1_0_0_n_n.rhsIdx (ix2 p n) ((contrEquiv1 dot_S1x4096_S512x4096_S1x512_1_1_0_0_n_n 4096 rfl rfl).symm k) = ix2 n k :=
    funext fun x => Fin.ext (by
      match x with
      | ⟨0, _⟩ => exact rowDotT_4096_512_r0 _ _
      | ⟨1, _⟩ => exact (rowDotT_4096_512_r1 _ _).trans hk)
  rw [el, er]

/-! ### `1 × 2048` against `256 × 2048`, contracted along the second axis of both -/

/-- The left operand's row coordinate is the output's. -/
theorem rowDotT_2048_256_l0 (i : S1x256.Idx) (q : dot_S1x2048_S256x2048_S1x256_1_1_0_0_n_n.contr.Idx) : (dot_S1x2048_S256x2048_S1x256_1_1_0_0_n_n.lhsIdx i q 0).val = (i 0).val := by
  unfold DotDims.lhsIdx
  rw [dif_neg (show ¬(0 : Fin S1x2048.rank) ∈ dot_S1x2048_S256x2048_S1x256_1_1_0_0_n_n.lhsBatch by decide),
    dif_pos (show (0 : Fin S1x2048.rank) ∈ dot_S1x2048_S256x2048_S1x256_1_1_0_0_n_n.lhsNonContracting by decide)]
  rfl
/-- The left operand's column coordinate is the contraction index. -/
theorem rowDotT_2048_256_l1 (i : S1x256.Idx) (q : dot_S1x2048_S256x2048_S1x256_1_1_0_0_n_n.contr.Idx) : (dot_S1x2048_S256x2048_S1x256_1_1_0_0_n_n.lhsIdx i q 1).val = (q ⟨0, by decide⟩).val :=
  dot_S1x2048_S256x2048_S1x256_1_1_0_0_n_n.lhsIdx_val_of_single rfl i q
/-- The right operand's kept coordinate is the output's column. -/
theorem rowDotT_2048_256_r0 (i : S1x256.Idx) (q : dot_S1x2048_S256x2048_S1x256_1_1_0_0_n_n.contr.Idx) : (dot_S1x2048_S256x2048_S1x256_1_1_0_0_n_n.rhsIdx i q 0).val = (i 1).val := by
  unfold DotDims.rhsIdx
  rw [dif_neg (show ¬(0 : Fin S256x2048.rank) ∈ dot_S1x2048_S256x2048_S1x256_1_1_0_0_n_n.rhsBatch by decide),
    dif_pos (show (0 : Fin S256x2048.rank) ∈ dot_S1x2048_S256x2048_S1x256_1_1_0_0_n_n.rhsNonContracting by decide)]
  rfl
/-- The right operand's contracted coordinate is the contraction index. -/
theorem rowDotT_2048_256_r1 (i : S1x256.Idx) (q : dot_S1x2048_S256x2048_S1x256_1_1_0_0_n_n.contr.Idx) : (dot_S1x2048_S256x2048_S1x256_1_1_0_0_n_n.rhsIdx i q 1).val = (q ⟨0, by decide⟩).val :=
  dot_S1x2048_S256x2048_S1x256_1_1_0_0_n_n.rhsIdx_val_of_single rfl i q

/-- Entry `(p, n)` of the product. -/
theorem rowDotT_2048_256 (a : FVec Ideal S1x2048 .bf16) (B : FVec Ideal S256x2048 .bf16) (p : Fin 1) (n : Fin 256) :
    matmul dot_S1x2048_S256x2048_S1x256_1_1_0_0_n_n none a B (constant S1x256 .f32 0x00000000#32) (ix2 p n)
      = ∑ k : Fin 2048, a (ix2 p k) * B (ix2 n k) := by
  refine (Ideal.matmul_constant_zero_apply dot_S1x2048_S256x2048_S1x256_1_1_0_0_n_n none a B (ix2 p n)).trans ?_
  rw [← Equiv.sum_comp (contrEquiv1 dot_S1x2048_S256x2048_S1x256_1_1_0_0_n_n 2048 rfl rfl).symm]
  refine Finset.sum_congr rfl fun k _ => ?_
  have hk := contrEquiv1_symm_val dot_S1x2048_S256x2048_S1x256_1_1_0_0_n_n 2048 rfl rfl k
  have el : dot_S1x2048_S256x2048_S1x256_1_1_0_0_n_n.lhsIdx (ix2 p n) ((contrEquiv1 dot_S1x2048_S256x2048_S1x256_1_1_0_0_n_n 2048 rfl rfl).symm k) = ix2 p k :=
    funext fun x => Fin.ext (by
      match x with
      | ⟨0, _⟩ => exact rowDotT_2048_256_l0 _ _
      | ⟨1, _⟩ => exact (rowDotT_2048_256_l1 _ _).trans hk)
  have er : dot_S1x2048_S256x2048_S1x256_1_1_0_0_n_n.rhsIdx (ix2 p n) ((contrEquiv1 dot_S1x2048_S256x2048_S1x256_1_1_0_0_n_n 2048 rfl rfl).symm k) = ix2 n k :=
    funext fun x => Fin.ext (by
      match x with
      | ⟨0, _⟩ => exact rowDotT_2048_256_r0 _ _
      | ⟨1, _⟩ => exact (rowDotT_2048_256_r1 _ _).trans hk)
  rw [el, er]

end Cert.KernelIdeal.Bridge

end
-- ==== Proof.Spec.lean ====
/-
  What one decoder step computes, as plain mathematics over the extended reals.

  Write `x` for the input row, `h` for the previous hidden row (both of length 2048), and `[x ; h]` for the two laid end
  to end (length 4096).

  * Attention.  Slot `l` of 350 scores `s_l = ⟨[x ; h], W_l⟩ + b_l`; the weights are the softmax of the scores,
    `a_l = exp (s_l − M) / ∑_k exp (s_k − M)` with `M` the largest score (taken from `−∞`, and once more against `−∞`, which
    changes nothing); the context is the weighted sum of the encoder rows, `c_n = ∑_l a_l · E_{l n}`.
  * Combine.  `g_n = max (⟨[x ; c], U_n⟩ + d_n, 0)`.
  * Recurrent cell.  With the affine maps `A(v)_r = ⟨v, W_r⟩ + b_r` over 3 · 2048 rows, rows `n`, `2048 + n` and `4096 + n`
    being the reset, update and candidate rows of unit `n`:
    `r = σ (A_i(g)_n + A_h(h)_n)`, `z = σ (A_i(g)_{2048+n} + A_h(h)_{2048+n})`,
    `ĥ = tanh (A_i(g)_{4096+n} + r · A_h(h)_{4096+n})`, and the new hidden entry is `(1 − z) · ĥ + z · h_n`,
    where `σ t = 1 / (1 + exp (−t))`.

  Vectors are functions on `Fin n`, matrices functions of a row and a column.  The three float constants that occur are
  kept as the words the programs print (`0`, `1`, `−∞`): both programs print the same words, so their values are never
  needed, except that the word for `1` is the number one (the reference spells the sigmoid out with it).
-/
import Idealize.ShloMosaic.PureOps.Ideal

noncomputable section

namespace Cert.Spec

open Idealize.ShloMosaic

/-- The word both programs print for `0.0`. -/
def zeroW : EReal := Ideal.ofBits .f32 0x00000000#32
/-- The word both programs print for `1.0`. -/
def oneW : EReal := Ideal.ofBits .f32 0x3F800000#32
/-- The word both programs print for `−∞`. -/
def ninfW : EReal := Ideal.ofBits .f32 0xFF800000#32

/-- The word for `1.0` is the number one. -/
theorem oneW_eq : oneW = 1 := by
  unfold oneW
  simp [Ideal.ofBits, Ideal.ieee, -EReal.coe_mul]; norm_num

/-- Score of attention slot `l`: the inner product of `[x ; h]` with row `l` of the weights, plus the bias. -/
def score (xh : Fin 4096 → EReal) (W : Fin 350 → Fin 4096 → EReal) (b : Fin 350 → EReal) (l : Fin 350) : EReal :=
  (∑ k : Fin 4096, xh k * W l k) + b l

/-- The largest of 350 scores, folded from `−∞` and compared with `−∞` once more. -/
def top (s : Fin 350 → EReal) : EReal :=
  max ninfW ((Finset.univ : Finset (Fin 350)).fold max ninfW s)

/-- The shifted exponential of score `l`. -/
def expShift (s : Fin 350 → EReal) (l : Fin 350) : EReal := Ideal.exp (s l - top s)

/-- Softmax of the scores at slot `l`. -/
def softmax (s : Fin 350 → EReal) (l : Fin 350) : EReal :=
  Ideal.div (expShift s l) (∑ k : Fin 350, expShift s k)

/-- Entry `n` of the context: the attention-weighted sum of column `n` of the encoder outputs. -/
def context (a : Fin 350 → EReal) (E : Fin 350 → Fin 2048 → EReal) (n : Fin 2048) : EReal :=
  ∑ l : Fin 350, a l * E l n

/-- Entry `n` of the combined input: an affine map of `[x ; c]` followed by `max (·, 0)`. -/
def combine (xc : Fin 4096 → EReal) (U : Fin 2048 → Fin 4096 → EReal) (d : Fin 2048 → EReal) (n : Fin 2048) : EReal :=
  max ((∑ k : Fin 4096, xc k * U n k) + d n) zeroW

/-- Row `r` of an affine map of a length-2048 vector into 3 · 2048 rows. -/
def affine (v : Fin 2048 → EReal) (W : Fin 6144 → Fin 2048 → EReal) (b : Fin 6144 → EReal) (r : Fin 6144) : EReal :=
  (∑ k : Fin 2048, v k * W r k) + b r

/-- Row `a · 2048 + n`: gate `a` (reset, update, candidate) of unit `n`. -/
def gateRow (a : Fin 3) (n : Fin 2048) : Fin 6144 := ⟨a.val * 2048 + n.val, by have := a.isLt; have := n.isLt; omega⟩

/-- The reset gate of unit `n`. -/
def reset (gi gh : Fin 6144 → EReal) (n : Fin 2048) : EReal :=
  Ideal.logistic (gi (gateRow 0 n) + gh (gateRow 0 n))
/-- The update gate of unit `n`. -/
def update (gi gh : Fin 6144 → EReal) (n : Fin 2048) : EReal :=
  Ideal.logistic (gi (gateRow 1 n) + gh (gateRow 1 n))
/-- The candidate state of unit `n`. -/
def candidate (gi gh : Fin 6144 → EReal) (n : Fin 2048) : EReal :=
  Ideal.tanh (gi (gateRow 2 n) + reset gi gh n * gh (gateRow 2 n))
/-- The new hidden entry of unit `n` from the two affine images `gi` (of the combined input) and `gh` (of the previous
    hidden row) and the previous hidden entry. -/
def cell (gi gh : Fin 6144 → EReal) (h : Fin 2048 → EReal) (n : Fin 2048) : EReal :=
  (oneW - update gi gh n) * candidate gi gh n + update gi gh n * h n

end Cert.Spec

end
-- ==== Proof.AttnBody.lean ====
/-
  The attention kernel's two stored values, entry by entry.

  The body forms the scores as a row-times-transposed-matrix product plus the bias row, subtracts their maximum, takes
  exponentials, divides by their sum, and multiplies the resulting row into the encoder outputs.  A change of float
  format is the identity over the extended reals; a lane reduction over the one long axis is a fold (`max`) or a finite
  sum over that axis; and a `[1] → [1,1] → [1,350]` re-lay of a one-entry vector repeats that entry along the row.  So
  entry `l` of the first stored row is the softmax of the scores at `l`, and entry `n` of the second is the weighted sum
  of column `n` of the encoder outputs.
-/
import proofs.«100843_j15350213116625_2_alg».proof.Proof.RowDot
import proofs.«100843_j15350213116625_2_alg».proof.Proof.Spec
import Idealize.ShloMosaic.Lib.Pipeline.Value

noncomputable section

namespace Cert.KernelIdeal.Bridge

open Cert.KernelIdeal Cert.KernelIdeal.Gen
open Idealize.ShloMosaic Idealize.ShloMosaic.ValueIdx

/-- A one-entry vector re-laid as `[1,1]` and repeated along a row of 350 holds that entry everywhere. -/
theorem spread350 (u : FVec Ideal S1 .f32) (p : Fin 1) (l : Fin 350) :
    broadcastTo S1x350 (shapeCast S1x1 u shapeCasts_S1_S1x1) broadcasts_S1x1_S1x350 (ix2 p l) = u (ix1 p) := by
  refine (broadcastTo_apply (shapeCast S1x1 u shapeCasts_S1_S1x1) broadcasts_S1x1_S1x350 (ix2 p l) (ix2 (0 : Fin 1) (0 : Fin 1))
    (fun a => by
      match a with
      | ⟨0, _⟩ => show 0 = if (1 : Nat) = 1 then 0 else _; rw [if_pos rfl]
      | ⟨1, _⟩ => show 0 = if (1 : Nat) = 1 then 0 else _; rw [if_pos rfl])).trans ?_
  exact shapeCast_apply u shapeCasts_S1_S1x1 (ix2 (0 : Fin 1) (0 : Fin 1)) (ix1 p)
    (by rw [Shape.rowMajor_val_one, Shape.rowMajor_val_two]; have := p.isLt; show p.val = 0 * 1 + 0; omega)

/-- The lane maximum of a `1 × 350` row, from `−∞`: the fold of `max` over the row. -/
theorem laneMax350 (L : FVec Ideal S1x350 .f32) (hφ : FKind.Formats .f32)
    (hacc : (0xFF800000#32 : BitVec 32) = FKind.maximumf.neutral .f32 hφ) (p : Fin 1) :
    multiReduction .maximumf [1] S1 L 0xFF800000#32 reduces_S1x350_S1 hφ hacc (ix1 p)
      = (Finset.univ : Finset (Fin 350)).fold max Spec.ninfW (fun k => L (ix2 p k)) := by
  refine (Ideal.multiReduction_maximumf_single L 0xFF800000#32 reduces_S1x350_S1 hφ hacc (ix1 p)).trans ?_
  refine congrArg (fun f => (Finset.univ : Finset (Fin 350)).fold max Spec.ninfW f) (funext fun k => ?_)
  exact congrArg L (funext fun a => Fin.ext (by match a with | ⟨0, _⟩ => rfl | ⟨1, _⟩ => rfl))

/-- The lane sum of a `1 × 350` row: the finite sum over the row. -/
theorem laneSum350 (e : FVec Ideal S1x350 .f32) (hφ : FKind.Formats .f32)
    (hacc : (0x00000000#32 : BitVec 32) = FKind.add.neutral .f32 hφ) (p : Fin 1) :
    multiReduction .add [1] S1 e 0x00000000#32 reduces_S1x350_S1 hφ hacc (ix1 p) = ∑ k : Fin 350, e (ix2 p k) := by
  refine (Ideal.multiReduction_add_single e 0x00000000#32 reduces_S1x350_S1 hφ hacc (ix1 p)).trans ?_
  refine Finset.sum_congr rfl fun k _ => ?_
  exact congrArg e (funext fun a => Fin.ext (by match a with | ⟨0, _⟩ => rfl | ⟨1, _⟩ => rfl))

/-- The body's softmax of a score row, as the operations the kernel prints. -/
def bodySoftmax (L : FVec Ideal S1x350 .f32) : FVec Ideal S1x350 .f32 :=
  divf
    (exp (subf L (broadcastTo S1x350 (shapeCast S1x1 (maximumf (broadcast S1 (Scalar.ofBits .f32 0xFF800000#32))
      (multiReduction .maximumf [1] S1 L 0xFF800000#32 reduces_S1x350_S1 (.inl rfl) rfl)) shapeCasts_S1_S1x1) broadcasts_S1x1_S1x350)))
    (broadcastTo S1x350 (shapeCast S1x1 (multiReduction .add [1] S1
      (exp (subf L (broadcastTo S1x350 (shapeCast S1x1 (maximumf (broadcast S1 (Scalar.ofBits .f32 0xFF800000#32))
        (multiReduction .maximumf [1] S1 L 0xFF800000#32 reduces_S1x350_S1 (.inl rfl) rfl)) shapeCasts_S1_S1x1) broadcasts_S1x1_S1x350)))
      0x00000000#32 reduces_S1x350_S1 (.inl rfl) rfl) shapeCasts_S1_S1x1) broadcasts_S1x1_S1x350)

/-- The subtracted row holds the largest score at every entry. -/
theorem bodyTop (L : FVec Ideal S1x350 .f32) (p : Fin 1) (q : Fin 350) :
    broadcastTo S1x350 (shapeCast S1x1 (maximumf (broadcast S1 (Scalar.ofBits .f32 0xFF800000#32))
      (multiReduction .maximumf [1] S1 L 0xFF800000#32 reduces_S1x350_S1 (.inl rfl) rfl)) shapeCasts_S1_S1x1) broadcasts_S1x1_S1x350 (ix2 p q)
      = Spec.top (fun k => L (ix2 p k)) :=
  (spread350 _ p q).trans (congrArg (max Spec.ninfW) (laneMax350 L _ _ p))

/-- Entry `l` of the body's softmax is the softmax of the row at `l`. -/
theorem bodySoftmax_apply (L : FVec Ideal S1x350 .f32) (p : Fin 1) (l : Fin 350) :
    bodySoftmax L (ix2 p l) = Spec.softmax (fun k => L (ix2 p k)) l := by
  have hE : ∀ q : Fin 350, exp (subf L (broadcastTo S1x350 (shapeCast S1x1 (maximumf (broadcast S1 (Scalar.ofBits .f32 0xFF800000#32))
      (multiReduction .maximumf [1] S1 L 0xFF800000#32 reduces_S1x350_S1 (.inl rfl) rfl)) shapeCasts_S1_S1x1) broadcasts_S1x1_S1x350)) (ix2 p q)
      = Spec.expShift (fun k => L (ix2 p k)) q :=
    fun q => congrArg (fun t => Ideal.exp (L (ix2 p q) - t)) (bodyTop L p q)
  unfold bodySoftmax Spec.softmax
  refine (congrArg₂ Ideal.div (hE l) ?_ : _)
  refine (spread350 _ p l).trans ?_
  refine (laneSum350 _ _ _ p).trans ?_
  exact Finset.sum_congr rfl fun k _ => hE k

/-- The first stored row: entry `l` is the softmax of the scores of `[x ; h]` against the weight rows. -/
theorem attnWeights_apply (x h : Vec Ideal S1x2048 .f32) (W : Vec Ideal S350x4096 .f32) (b : Vec Ideal S1x350 .f32)
    (p : Fin 1) (l : Fin 350) :
    k0_pay1 (F := Ideal) x h W b (ix2 p l)
      = Spec.softmax (Spec.score
          (fun k => concatenate S1x4096 1 [⟨S1x2048, x⟩, ⟨S1x2048, h⟩] concatenates_S1x2048_S1x2048_S1x4096_d1 (ix2 p k))
          (fun r k => W (ix2 r k)) (fun r => b (ix2 p r))) l := by
  have hpay : k0_pay1 (F := Ideal) x h W b = bodySoftmax (addf
      (matmul dot_S1x4096_S350x4096_S1x350_1_1_0_0_n_n none
        (truncf .bf16 (concatenate S1x4096 1 [⟨S1x2048, shapeCast S1x2048 x shapeCasts_S1x2048_S1x2048⟩,
          ⟨S1x2048, shapeCast S1x2048 h shapeCasts_S1x2048_S1x2048⟩] concatenates_S1x2048_S1x2048_S1x4096_d1) bitsLt_bf16_f32)
        (truncf .bf16 W bitsLt_bf16_f32) (constant S1x350 .f32 0x00000000#32))
      (shapeCast S1x350 b shapeCasts_S1x350_S1x350)) := rfl
  rw [hpay, bodySoftmax_apply]
  refine congrArg (fun s => Spec.softmax s l) (funext fun q => ?_)
  refine (congrArg₂ (· + ·) (rowDotT_4096_350 _ _ p q) (congrFun (shapeCast_self b shapeCasts_S1x350_S1x350) (ix2 p q)) : _).trans ?_
  unfold Spec.score
  rw [shapeCast_self x, shapeCast_self h]
  rfl

/-- The second stored row: entry `n` is the sum over the slots of the attention weight times the encoder entry. -/
theorem attnContext_apply (x h : Vec Ideal S1x2048 .f32) (W : Vec Ideal S350x4096 .f32) (b : Vec Ideal S1x350 .f32)
    (E : Vec Ideal S350x2048 .f32) (p : Fin 1) (n : Fin 2048) :
    k0_pay2 (F := Ideal) x h W b E (ix2 p n)
      = Spec.context (fun l => k0_pay1 (F := Ideal) x h W b (ix2 p l)) (fun l c => E (ix2 l c)) n := by
  unfold k0_pay2
  exact rowDot_350_2048 _ _ p n

end Cert.KernelIdeal.Bridge

end
-- ==== Proof.CombBody.lean ====
/-
  The combine kernel's stored block, entry by entry.

  At a grid point the body sees the input row, the context row, 512 rows of the combine weights and the matching 512
  bias entries.  Entry `y` of what it stores is the inner product of `[x ; c]` with weight row `y` of the block, plus
  bias entry `y`, clamped below at zero.  Told which row `n` of the whole weight matrix that block row is, this is entry
  `n` of the combined input.
-/
import proofs.«100843_j15350213116625_2_alg».proof.Proof.RowDot
import proofs.«100843_j15350213116625_2_alg».proof.Proof.Spec
import Idealize.ShloMosaic.Lib.Pipeline.Value

noncomputable section

namespace Cert.KernelIdeal.Bridge

open Cert.KernelIdeal Cert.KernelIdeal.Gen
open Idealize.ShloMosaic Idealize.ShloMosaic.ValueIdx

/-- Entry `y` of the stored block is entry `n` of the combined input, when row `y` of the weight block is row `n` of the
    weights (`hU`) and bias entry `y` of the block is bias entry `n` (`hd`). -/
theorem combineBlock_apply (x c : Vec Ideal S1x2048 .f32) (U : Vec Ideal S512x4096 .f32) (d : Vec Ideal S1x512 .f32)
    (p : Fin 1) (y : Fin 512) (Uf : Fin 2048 → Fin 4096 → EReal) (df : Fin 2048 → EReal) (n : Fin 2048)
    (hU : ∀ k : Fin 4096, U (ix2 y k) = Uf n k) (hd : d (ix2 p y) = df n) :
    k1_pay1 (F := Ideal) x c U d (ix2 p y)
      = Spec.combine (fun k => concatenate S1x4096 1 [⟨S1x2048, x⟩, ⟨S1x2048, c⟩] concatenates_S1x2048_S1x2048_S1x4096_d1 (ix2 p k)) Uf df n := by
  have hpay : k1_pay1 (F := Ideal) x c U d = maximumf (addf
      (matmul dot_S1x4096_S512x4096_S1x512_1_1_0_0_n_n none
        (truncf .bf16 (concatenate S1x4096 1 [⟨S1x2048, shapeCast S1x2048 x shapeCasts_S1x2048_S1x2048⟩,
          ⟨S1x2048, shapeCast S1x2048 c shapeCasts_S1x2048_S1x2048⟩] concatenates_S1x2048_S1x2048_S1x4096_d1) bitsLt_bf16_f32)
        (truncf .bf16 U bitsLt_bf16_f32) (constant S1x512 .f32 0x00000000#32))
      (shapeCast S1x512 d shapeCasts_S1x512_S1x512)) (broadcast S1x512 (Scalar.ofBits .f32 0x00000000#32)) := rfl
  rw [hpay]
  unfold Spec.combine
  refine (congrArg₂ max (congrArg₂ (· + ·) ((rowDotT_4096_512 _ _ p y).trans (Finset.sum_congr rfl fun k _ => ?_))
    ((congrFun (shapeCast_self d shapeCasts_S1x512_S1x512) (ix2 p y)).trans hd)) rfl : _)
  rw [shapeCast_self x, shapeCast_self c]
  exact congrArg (_ * ·) (hU k)

end Cert.KernelIdeal.Bridge

end
-- ==== Proof.AttnArrays.lean ====
/-
  What the attention call leaves in its two result arrays.

  The call runs its body once, on blocks that are the whole arrays, and writes each result block back whole.  So each
  result array ends holding the body's stored value computed from the arrays as the call found them.
-/
import proofs.«100843_j15350213116625_2_alg».proof.Proof.Gen.KernelIdeal.Frame
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zeroOffsets2 : (![0, 0] : Fin 2 → Nat) = fun _ => 0 := funext fun a => by fin_cases a <;> rfl

/-- Every window of the call sits at block index zero on both axes, at its one grid point. -/
theorem attnIndex : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The input row's block is the whole row. -/
theorem attnBlock0 (c : Dev nD) (t : Fin cfg0.N) : (iblk0 V c 0 t : S1x2048.Idx → Elt F .f32) = V c main_v0 := by
  funext y
  show V c main_v0 (((cfg0.win 0).blk t).view.emb y) = V c main_v0 y
  refine congrArg _ (funext fun a => Fin.ext ?_)
  obtain ⟨e0, e1, -⟩ := attnIndex t
  match a with
  | ⟨0, _⟩ => show win0_0.index t (0 : Fin 2) * 1 + 1 * (y 0).val = (y 0).val; omega
  | ⟨1, _⟩ => show win0_0.index t (1 : Fin 2) * 2048 + 1 * (y 1).val = (y 1).val; omega

/-- The hidden row's block is the whole row. -/
theorem attnBlock1 (c : Dev nD) (t : Fin cfg0.N) : (iblk0 V c 1 t : S1x2048.Idx → Elt F .f32) = V c main_v1 := by
  funext y
  show V c main_v1 (((cfg0.win 1).blk t).view.emb y) = V c main_v1 y
  refine congrArg _ (funext fun a => Fin.ext ?_)
  obtain ⟨-, -, e0, e1, -⟩ := attnIndex t
  match a with
  | ⟨0, _⟩ => show win0_1.index t (0 : Fin 2) * 1 + 1 * (y 0).val = (y 0).val; omega
  | ⟨1, _⟩ => show win0_1.index t (1 : Fin 2) * 2048 + 1 * (y 1).val = (y 1).val; omega

/-- The attention weights' block is the whole matrix. -/
theorem attnBlock2 (c : Dev nD) (t : Fin cfg0.N) : (iblk0 V c 2 t : S350x4096.Idx → Elt F .f32) = V c main_arg3 := by
  funext y
  show V c main_arg3 (((cfg0.win 2).blk t).view.emb y) = V c main_arg3 y
  refine congrArg _ (funext fun a => Fin.ext ?_)
  obtain ⟨-, -, -, -, e0, e1, -⟩ := attnIndex t
  match a with
  | ⟨0, _⟩ => show win0_2.index t (0 : Fin 2) * 350 + 1 * (y 0).val = (y 0).val; omega
  | ⟨1, _⟩ => show win0_2.index t (1 : Fin 2) * 4096 + 1 * (y 1).val = (y 1).val; omega

/-- The bias row's block is the whole row. -/
theorem attnBlock3 (c : Dev nD) (t : Fin cfg0.N) : (iblk0 V c 3 t : S1x350.Idx → Elt F .f32) = V c main_v2 := by
  funext y
  show V c main_v2 (((cfg0.win 3).blk t).view.emb y) = V c main_v2 y
  refine congrArg _ (funext fun a => Fin.ext ?_)
  obtain ⟨-, -, -, -, -, -, e0, e1, -⟩ := attnIndex t
  match a with
  | ⟨0, _⟩ => show win0_3.index t (0 : Fin 2) * 1 + 1 * (y 0).val = (y 0).val; omega
  | ⟨1, _⟩ => show win0_3.index t (1 : Fin 2) * 350 + 1 * (y 1).val = (y 1).val; omega

/-- The encoder outputs' block is the whole matrix. -/
theorem attnBlock4 (c : Dev nD) (t : Fin cfg0.N) : (iblk0 V c 4 t : S350x2048.Idx → Elt F .f32) = V c main_arg2 := by
  funext y
  show V c main_arg2 (((cfg0.win 4).blk t).view.emb y) = V c main_arg2 y
  refine congrArg _ (funext fun a => Fin.ext ?_)
  obtain ⟨-, -, -, -, -, -, -, -, e0, e1, -⟩ := attnIndex t
  match a with
  | ⟨0, _⟩ => show win0_4.index t (0 : Fin 2) * 350 + 1 * (y 0).val = (y 0).val; omega
  | ⟨1, _⟩ => show win0_4.index t (1 : Fin 2) * 2048 + 1 * (y 1).val = (y 1).val; omega

/-- The weights row the one point writes back is the body's first stored value of the whole arrays. -/
theorem attnFlushed5 (c : Dev nD) (t : Fin cfg0.N) :
    (dat0 V c).flushed 5 t = ((cfg0.win 5).blk t).view.read (Elt F)
      (k0_pay1 (V c main_v0) (V c main_v1) (V c main_arg3) (V c main_v2)) := by
  show (cfg0.win 5).cut (grid0.coords t) ((dat0 V c).after 5 t) = _
  rw [after0_5]
  unfold out0_5
  rw [View.canon_unit_zero zeroOffsets2]
  simp only [View.ld_unit_zero (S := S1x2048) zeroOffsets2, View.ld_unit_zero (S := S350x4096) zeroOffsets2,
    View.ld_unit_zero (S := S1x350) zeroOffsets2]
  rw [attnBlock0, attnBlock1, attnBlock2, attnBlock3]
  funext j
  show k0_pay1 (V c main_v0) (V c main_v1) (V c main_arg3) (V c main_v2) j
    = k0_pay1 (V c main_v0) (V c main_v1) (V c main_arg3) (V c main_v2) (((cfg0.win 5).blk t).view.emb j)
  refine congrArg _ (funext fun a => Fin.ext ?_)
  obtain ⟨-, -, -, -, -, -, -, -, -, -, e0, e1, -⟩ := attnIndex t
  match a with
  | ⟨0, _⟩ => show (j 0).val = win0_5.index t (0 : Fin 2) * 1 + 1 * (j 0).val; omega
  | ⟨1, _⟩ => show (j 1).val = win0_5.index t (1 : Fin 2) * 350 + 1 * (j 1).val; omega

/-- The context row the one point writes back is the body's second stored value of the whole arrays. -/
theorem attnFlushed6 (c : Dev nD) (t : Fin cfg0.N) :
    (dat0 V c).flushed 6 t = ((cfg0.win 6).blk t).view.read (Elt F)
      (k0_pay2 (V c main_v0) (V c main_v1) (V c main_arg3) (V c main_v2) (V c main_arg2)) := by
  show (cfg0.win 6).cut (grid0.coords t) ((dat0 V c).after 6 t) = _
  rw [after0_6]
  unfold out0_6
  rw [View.canon_unit_zero zeroOffsets2]
  simp only [View.ld_unit_zero (S := S1x2048) zeroOffsets2, View.ld_unit_zero (S := S350x4096) zeroOffsets2,
    View.ld_unit_zero (S := S1x350) zeroOffsets2, View.ld_unit_zero (S := S350x2048) zeroOffsets2]
  rw [attnBlock0, attnBlock1, attnBlock2, attnBlock3, attnBlock4]
  funext j
  show k0_pay2 (V c main_v0) (V c main_v1) (V c main_arg3) (V c main_v2) (V c main_arg2) j
    = k0_pay2 (V c main_v0) (V c main_v1) (V c main_arg3) (V c main_v2) (V c main_arg2) (((cfg0.win 6).blk t).view.emb j)
  refine congrArg _ (funext fun a => Fin.ext ?_)
  obtain ⟨-, -, -, -, -, -, -, -, -, -, -, -, e0, e1⟩ := attnIndex t
  match a with
  | ⟨0, _⟩ => show (j 0).val = win0_6.index t (0 : Fin 2) * 1 + 1 * (j 0).val; omega
  | ⟨1, _⟩ => show (j 1).val = win0_6.index t (1 : Fin 2) * 2048 + 1 * (j 1).val; omega

/-- The one point's block of the weights row is the whole row. -/
theorem attnCover5 (i : S1x350.Idx) : ∃ t : Fin cfg0.N, (cfg0.win 5).flush t = true ∧ i ∈ ((cfg0.win 5).blk t).view.set := by
  obtain ⟨t, -⟩ := (by decide +kernel : ∃ t : Fin grid0.N, t.val = 0)
  refine ⟨t, flush0_5 t, ?_⟩
  show i ∈ ((View.whole main_v3_0).slice (win0_5.rect t)).set
  rw [View.set_slice_whole, Rect.mem_set_unit]
  obtain ⟨-, -, -, -, -, -, -, -, -, -, e0, e1, -⟩ := attnIndex t
  intro a
  match a with
  | ⟨0, _⟩ =>
    show win0_5.index t (0 : Fin 2) * 1 ≤ (i 0).val ∧ (i 0).val < win0_5.index t (0 : Fin 2) * 1 + 1
    have hi : (i 0).val < 1 := (i 0).isLt; omega
  | ⟨1, _⟩ =>
    show win0_5.index t (1 : Fin 2) * 350 ≤ (i 1).val ∧ (i 1).val < win0_5.index t (1 : Fin 2) * 350 + 350
    have hi : (i 1).val < 350 := (i 1).isLt; omega

/-- The one point's block of the context row is the whole row. -/
theorem attnCover6 (i : S1x2048.Idx) : ∃ t : Fin cfg0.N, (cfg0.win 6).flush t = true ∧ i ∈ ((cfg0.win 6).blk t).view.set := by
  obtain ⟨t, -⟩ := (by decide +kernel : ∃ t : Fin grid0.N, t.val = 0)
  refine ⟨t, flush0_6 t, ?_⟩
  show i ∈ ((View.whole main_v3_1).slice (win0_6.rect t)).set
  rw [View.set_slice_whole, Rect.mem_set_unit]
  obtain ⟨-, -, -, -, -, -, -, -, -, -, -, -, e0, e1⟩ := attnIndex t
  intro a
  match a with
  | ⟨0, _⟩ =>
    show win0_6.index t (0 : Fin 2) * 1 ≤ (i 0).val ∧ (i 0).val < win0_6.index t (0 : Fin 2) * 1 + 1
    have hi : (i 0).val < 1 := (i 0).isLt; omega
  | ⟨1, _⟩ =>
    show win0_6.index t (1 : Fin 2) * 2048 ≤ (i 1).val ∧ (i 1).val < win0_6.index t (1 : Fin 2) * 2048 + 2048
    have hi : (i 1).val < 2048 := (i 1).isLt; omega

/-- The attention weights' array after the call. -/
theorem attnWeightsArray (c : Dev nD) :
    (dat0 V c).arrAt 5 cfg0.N = k0_pay1 (V c main_v0) (V c main_v1) (V c main_arg3) (V c main_v2) :=
  (dat0 V c).arrAt_eq_of_cover 5 _ (fun t _ => attnFlushed5 V c t) attnCover5

/-- The context array after the call. -/
theorem attnContextArray (c : Dev nD) :
    (dat0 V c).arrAt 6 cfg0.N = k0_pay2 (V c main_v0) (V c main_v1) (V c main_arg3) (V c main_v2) (V c main_arg2) :=
  (dat0 V c).arrAt_eq_of_cover 6 _ (fun t _ => attnFlushed6 V c t) attnCover6

end Cert.KernelIdeal.Bridge

end
-- ==== Proof.CombArrays.lean ====
/-
  What the combine call leaves in its result array.

  The call runs its body at four grid points.  At point `t` it sees the whole input row and the whole context row, rows
  `512 t … 512 t + 511` of the combine weights and the same 512 bias entries, and writes back entries
  `512 t … 512 t + 511` of the result row.  Entry `y` of the block written at `t` is entry `512 t + y` of the combined
  input; the four blocks tile the row, so the result array ends holding the combined input.
-/
import proofs.«100843_j15350213116625_2_alg».proof.Proof.Gen.KernelIdeal.Frame
import proofs.«100843_j15350213116625_2_alg».proof.Proof.CombBody
import proofs.«100843_j15350213116625_2_alg».proof.Proof.AttnArrays

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The combined input as one function of the arrays the call finds: input row, context row, weights, bias row. -/
def combineArray (X C : S1x2048.Idx → EReal) (U : S2048x4096.Idx → EReal) (D : S1x2048.Idx → EReal) : S1x2048.Idx → EReal :=
  fun i => Spec.combine
    (fun k => concatenate S1x4096 1 [⟨S1x2048, X⟩, ⟨S1x2048, C⟩] concatenates_S1x2048_S1x2048_S1x4096_d1
      (ix2 (⟨(i 0).val, (i 0).isLt⟩ : Fin 1) k))
    (fun n k => U (ix2 n k)) (fun n => D (ix2 (⟨(i 0).val, (i 0).isLt⟩ : Fin 1) n)) ⟨(i 1).val, (i 1).isLt⟩

/-- One point's block entry is the combined input at the array index under it: block entry `(j₀, j₁)` of the point whose
    block index along the row is `q` sits at array index `(j₀, 512 q + j₁)`. -/
theorem combinePoint (X C : S1x2048.Idx → EReal) (U : S2048x4096.Idx → EReal) (D : S1x2048.Idx → EReal)
    (Ub : Vec Ideal S512x4096 .f32) (db : Vec Ideal S1x512 .f32) (q : Nat) (hq : q ≤ 3)
    (hU : ∀ (y : Fin 512) (k : Fin 4096), Ub (ix2 y k) = U (ix2 (⟨q * 512 + y.val, by have := y.isLt; omega⟩ : Fin 2048) k))
    (hd : ∀ (p : Fin 1) (y : Fin 512), db (ix2 p y) = D (ix2 p (⟨q * 512 + y.val, by have := y.isLt; omega⟩ : Fin 2048)))
    (j : S1x512.Idx) (i : S1x2048.Idx) (hi0 : (i 0).val = (j 0).val) (hi1 : (i 1).val = q * 512 + (j 1).val) :
    k1_pay1 (F := Ideal) X C Ub db j = combineArray X C U D i := by
  obtain ⟨p, y, rfl⟩ : ∃ (p : Fin 1) (y : Fin 512), j = ix2 p y := ⟨j 0, j 1, eq_ix2 j⟩
  unfold combineArray
  have e0 : (⟨(i 0).val, (i 0).isLt⟩ : Fin 1) = p := Fin.ext hi0
  have e1 : (⟨(i 1).val, (i 1).isLt⟩ : Fin 2048) = ⟨q * 512 + y.val, by have := y.isLt; omega⟩ := Fin.ext hi1
  rw [e0, e1]
  exact combineBlock_apply X C Ub db p y (fun n k => U (ix2 n k)) (fun n => D (ix2 p n)) _ (fun k => hU y k) (hd p y)

variable (V : (c : Dev nD) → (b : Ref sig .tc) → Buf (Elt Ideal) ((c : Thread nD τ).loc b))

/-- How the windows move over the four points: the two rows stay, the weights move down their rows and the bias and the
    result along theirs, all with the result's block index, which is at most three. -/
theorem combineIndex : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = win1_4.index t (1 : Fin 2) ∧ win1_2.index t (1 : Fin 2) = 0
    ∧ win1_3.index t (0 : Fin 2) = 0 ∧ win1_3.index t (1 : Fin 2) = win1_4.index t (1 : Fin 2)
    ∧ win1_4.index t (0 : Fin 2) = 0 ∧ win1_4.index t (1 : Fin 2) ≤ 3 :=
  (by decide +kernel : ∀ t : Fin grid1.N, _)

/-- Every one of the four blocks of the result row is some point's. -/
theorem combineOnto : ∀ q : Fin 4, ∃ t : Fin cfg1.N, win1_4.index t (1 : Fin 2) = q.val :=
  (by decide +kernel : ∀ q : Fin 4, ∃ t : Fin grid1.N, win1_4.index t (1 : Fin 2) = q.val)

/-- The input row's block is the whole row at every point. -/
theorem combineBlock0 (c : Dev nD) (t : Fin cfg1.N) : (iblk1 V c 0 t : S1x2048.Idx → EReal) = V c main_v0 := by
  funext y
  show V c main_v0 (((cfg1.win 0).blk t).view.emb y) = V c main_v0 y
  refine congrArg _ (funext fun a => Fin.ext ?_)
  obtain ⟨e0, e1, -⟩ := combineIndex t
  match a with
  | ⟨0, _⟩ => show win1_0.index t (0 : Fin 2) * 1 + 1 * (y 0).val = (y 0).val; omega
  | ⟨1, _⟩ => show win1_0.index t (1 : Fin 2) * 2048 + 1 * (y 1).val = (y 1).val; omega

/-- The context row's block is the whole row at every point. -/
theorem combineBlock1 (c : Dev nD) (t : Fin cfg1.N) : (iblk1 V c 1 t : S1x2048.Idx → EReal) = V c main_v3_1 := by
  funext y
  show V c main_v3_1 (((cfg1.win 1).blk t).view.emb y) = V c main_v3_1 y
  refine congrArg _ (funext fun a => Fin.ext ?_)
  obtain ⟨-, -, e0, e1, -⟩ := combineIndex t
  match a with
  | ⟨0, _⟩ => show win1_1.index t (0 : Fin 2) * 1 + 1 * (y 0).val = (y 0).val; omega
  | ⟨1, _⟩ => show win1_1.index t (1 : Fin 2) * 2048 + 1 * (y 1).val = (y 1).val; omega

/-- What point `t` writes back is block `t` of the combined input of the arrays as the call finds them. -/
theorem combineFlushed (c : Dev nD) (t : Fin cfg1.N) :
    (dat1 V c).flushed 4 t = ((cfg1.win 4).blk t).view.read (Elt Ideal)
      (combineArray (V c main_v0) (V c main_v3_1) (V c main_arg5) (V c main_v4)) := by
  show (cfg1.win 4).cut (grid1.coords t) ((dat1 V c).after 4 t) = _
  rw [after1_4]
  unfold out1_4
  rw [View.canon_unit_zero zeroOffsets2]
  simp only [View.ld_unit_zero (S := S1x2048) zeroOffsets2, View.ld_unit_zero (S := S512x4096) zeroOffsets2,
    View.ld_unit_zero (S := S1x512) zeroOffsets2]
  rw [combineBlock0, combineBlock1]
  obtain ⟨-, -, -, -, e20, e21, e30, e31, e40, e41⟩ := combineIndex t
  funext j
  refine combinePoint (V c main_v0) (V c main_v3_1) (V c main_arg5) (V c main_v4) (iblk1 V c 2 t) (iblk1 V c 3 t)
    (win1_4.index t (1 : Fin 2)) e41 (fun y k => ?_) (fun p y => ?_) j (((cfg1.win 4).blk t).view.emb j) ?_ ?_
  · show V c main_arg5 (((cfg1.win 2).blk t).view.emb (ix2 y k)) = V c main_arg5 _
    refine congrArg _ (funext fun a => Fin.ext ?_)
    match a with
    | ⟨0, _⟩ => show win1_2.index t (0 : Fin 2) * 512 + 1 * y.val = win1_4.index t (1 : Fin 2) * 512 + y.val; omega
    | ⟨1, _⟩ => show win1_2.index t (1 : Fin 2) * 4096 + 1 * k.val = k.val; omega
  · show V c main_v4 (((cfg1.win 3).blk t).view.emb (ix2 p y)) = V c main_v4 _
    refine congrArg _ (funext fun a => Fin.ext ?_)
    match a with
    | ⟨0, _⟩ => show win1_3.index t (0 : Fin 2) * 1 + 1 * p.val = p.val; omega
    | ⟨1, _⟩ => show win1_3.index t (1 : Fin 2) * 512 + 1 * y.val = win1_4.index t (1 : Fin 2) * 512 + y.val; omega
  · show win1_4.index t (0 : Fin 2) * 1 + 1 * (j 0).val = (j 0).val; omega
  · show win1_4.index t (1 : Fin 2) * 512 + 1 * (j 1).val = win1_4.index t (1 : Fin 2) * 512 + (j 1).val; omega

/-- The four blocks tile the result row: entry `n` lies in the block of the point whose block index is `n / 512`. -/
theorem combineCover (i : S1x2048.Idx) : ∃ t : Fin cfg1.N, (cfg1.win 4).flush t = true ∧ i ∈ ((cfg1.win 4).blk t).view.set := by
  have hi0 : (i 0).val < 1 := (i 0).isLt
  have hi1 : (i 1).val < 2048 := (i 1).isLt
  obtain ⟨t, ht⟩ := combineOnto ⟨(i 1).val / 512, by omega⟩
  have ht' : win1_4.index t (1 : Fin 2) = (i 1).val / 512 := ht
  obtain ⟨-, -, -, -, -, -, -, -, e40, -⟩ := combineIndex t
  refine ⟨t, flush1_4 t, ?_⟩
  show i ∈ ((View.whole main_v5).slice (win1_4.rect t)).set
  rw [View.set_slice_whole, Rect.mem_set_unit]
  intro a
  match a with
  | ⟨0, _⟩ =>
    show win1_4.index t (0 : Fin 2) * 1 ≤ (i 0).val ∧ (i 0).val < win1_4.index t (0 : Fin 2) * 1 + 1
    omega
  | ⟨1, _⟩ =>
    show win1_4.index t (1 : Fin 2) * 512 ≤ (i 1).val ∧ (i 1).val < win1_4.index t (1 : Fin 2) * 512 + 512
    omega

/-- The combined-input array after the call. -/
theorem combineResultArray (c : Dev nD) :
    (dat1 V c).arrAt 4 cfg1.N = combineArray (V c main_v0) (V c main_v3_1) (V c main_arg5) (V c main_v4) :=
  (dat1 V c).arrAt_eq_of_cover 4 _ (fun t _ => combineFlushed V c t) combineCover

end Cert.KernelIdeal.Bridge

end
-- ==== Proof.CellBody.lean ====
/-
  The recurrent-cell kernel's stored block, entry by entry.

  At a grid point the body sees the combined input row `g`, the previous hidden row `h`, and for each of the three gates
  256 rows of the input weights, of the hidden weights and 256 entries of each bias; it also loads the 256 entries of `h`
  under the point.  For each gate it forms a row-times-transposed-matrix product plus the bias, and entry `y` of what it
  stores is `(1 − z) · tanh (i_n + r · h_n) + z · h_y` with `r` and `z` the sigmoids of the summed reset and update
  pre-activations.  Told which unit `n` of the whole layer block entry `y` is, this is the new hidden entry of unit `n`.
-/
import proofs.«100843_j15350213116625_2_alg».proof.Proof.RowDot
import proofs.«100843_j15350213116625_2_alg».proof.Proof.Spec
import Idealize.ShloMosaic.Lib.Pipeline.Value

noncomputable section

namespace Cert.KernelIdeal.Bridge

open Cert.KernelIdeal Cert.KernelIdeal.Gen
open Idealize.ShloMosaic Idealize.ShloMosaic.ValueIdx

/-- One gate's pre-activation at block entry `y`: slab `a` of the weight block against the row, plus slab `a` of the bias
    block. -/
theorem gateBlock_apply (a : Nat) (ha : a < 3) (hsW : S3x256x2048.Slices ![a, 0, 0] S1x256x2048)
    (hsB : S3x1x256.Slices ![a, 0, 0] S1x1x256)
    (v : FVec Ideal S1x2048 .bf16) (Wt : FVec Ideal S3x256x2048 .bf16) (Bt : FVec Ideal S3x1x256 .f32) (p : Fin 1) (y : Fin 256) :
    addf (matmul dot_S1x2048_S256x2048_S1x256_1_1_0_0_n_n none v
          (shapeCast S256x2048 (extractStridedSlice S1x256x2048 ![a, 0, 0] Wt hsW) shapeCasts_S1x256x2048_S256x2048)
          (constant S1x256 .f32 0x00000000#32))
        (shapeCast S1x256 (extractStridedSlice S1x1x256 ![a, 0, 0] Bt hsB) shapeCasts_S1x1x256_S1x256) (ix2 p y)
      = (∑ k : Fin 2048, v (ix2 p k) * Wt (ix3 (⟨a, ha⟩ : Fin 3) y k)) + Bt (ix3 (⟨a, ha⟩ : Fin 3) (0 : Fin 1) y) := by
  refine (congrArg₂ (· + ·) ((rowDotT_2048_256 v _ p y).trans (Finset.sum_congr rfl fun k _ => congrArg (v (ix2 p k) * ·) ?_)) ?_ : _)
  · refine (shapeCast_apply _ shapeCasts_S1x256x2048_S256x2048 (ix2 y k) (ix3 (0 : Fin 1) y k) ?_).trans ?_
    · rw [Shape.rowMajor_val_three, Shape.rowMajor_val_two]
      show (0 * 256 + y.val) * 2048 + k.val = y.val * 2048 + k.val
      omega
    · exact extractStridedSlice_apply ![a, 0, 0] Wt hsW (ix3 (0 : Fin 1) y k) (ix3 (⟨a, ha⟩ : Fin 3) y k)
        (fun x => by
          match x with
          | ⟨0, _⟩ => exact rfl
          | ⟨1, _⟩ => exact (Nat.zero_add _).symm
          | ⟨2, _⟩ => exact (Nat.zero_add _).symm)
  · refine (shapeCast_apply _ shapeCasts_S1x1x256_S1x256 (ix2 p y) (ix3 (0 : Fin 1) (0 : Fin 1) y) ?_).trans ?_
    · rw [Shape.rowMajor_val_three, Shape.rowMajor_val_two]
      have := p.isLt
      show (0 * 1 + 0) * 256 + y.val = p.val * 256 + y.val
      omega
    · exact extractStridedSlice_apply ![a, 0, 0] Bt hsB (ix3 (0 : Fin 1) (0 : Fin 1) y) (ix3 (⟨a, ha⟩ : Fin 3) (0 : Fin 1) y)
        (fun x => by
          match x with
          | ⟨0, _⟩ => exact rfl
          | ⟨1, _⟩ => exact (Nat.zero_add _).symm
          | ⟨2, _⟩ => exact (Nat.zero_add _).symm)

/-- The pointwise tail of the body over the six pre-activation rows and the hidden slice, as the kernel prints it. -/
def cellTail (ir iz ic hr hz hc hb : FVec Ideal S1x256 .f32) : FVec Ideal S1x256 .f32 :=
  addf (mulf (subf (broadcast S1x256 (Scalar.ofBits .f32 0x3F800000#32)) (logistic (addf iz hz)))
      (tanh (addf ic (mulf (logistic (addf ir hr)) hc))))
    (mulf (logistic (addf iz hz)) hb)

/-- Entry by entry the tail is the cell's update formula. -/
theorem cellTail_apply (ir iz ic hr hz hc hb : FVec Ideal S1x256 .f32) (i : S1x256.Idx) :
    cellTail ir iz ic hr hz hc hb i
      = (Spec.oneW - Ideal.logistic (iz i + hz i)) * Ideal.tanh (ic i + Ideal.logistic (ir i + hr i) * hc i)
        + Ideal.logistic (iz i + hz i) * hb i := rfl

/-- A change of float format and a cast to the same shape leave a row as it was. -/
theorem castRow (G : Vec Ideal S1x2048 .f32) : (k2_pay2 (F := Ideal) G : S1x2048.Idx → EReal) = G := by
  unfold k2_pay2; rw [shapeCast_self]; rfl
theorem castRow' (H : Vec Ideal S1x2048 .f32) : (k2_pay3 (F := Ideal) H : S1x2048.Idx → EReal) = H := by
  unfold k2_pay3; rw [shapeCast_self]; rfl
theorem castSlab (W : Vec Ideal S3x256x2048 .f32) : (k2_pay5 (F := Ideal) W : S3x256x2048.Idx → EReal) = W := by
  unfold k2_pay5; rw [shapeCast_self]; rfl
theorem castSlab' (W : Vec Ideal S3x256x2048 .f32) : (k2_pay6 (F := Ideal) W : S3x256x2048.Idx → EReal) = W := by
  unfold k2_pay6; rw [shapeCast_self]; rfl
theorem castBias (B : Vec Ideal S3x1x256 .f32) : (k2_pay7 (F := Ideal) B : S3x1x256.Idx → EReal) = B := by
  unfold k2_pay7; rw [shapeCast_self]
theorem castBias' (B : Vec Ideal S3x1x256 .f32) : (k2_pay8 (F := Ideal) B : S3x1x256.Idx → EReal) = B := by
  unfold k2_pay8; rw [shapeCast_self]
theorem castSlice (hb : Vec Ideal S1x256 .f32) : (k2_pay4 (F := Ideal) hb : S1x256.Idx → EReal) = hb := by
  unfold k2_pay4; rw [shapeCast_self]

/-- Entry `y` of the stored block is the new hidden entry of unit `n`, when the block's gate pre-activations at `y` are the
    affine images' rows of unit `n` (`hgi`, `hgh`) and the loaded hidden slice at `y` is the hidden entry `n` (`hh`). -/
theorem cellBlock_apply (G H : Vec Ideal S1x2048 .f32) (hb : Vec Ideal S1x256 .f32) (Wi Wh : Vec Ideal S3x256x2048 .f32)
    (Bi Bh : Vec Ideal S3x1x256 .f32) (p : Fin 1) (y : Fin 256)
    (gi gh : Fin 6144 → EReal) (hv : Fin 2048 → EReal) (n : Fin 2048)
    (hgi : ∀ a : Fin 3, (∑ k : Fin 2048, G (ix2 p k) * Wi (ix3 a y k)) + Bi (ix3 a (0 : Fin 1) y) = gi (Spec.gateRow a n))
    (hgh : ∀ a : Fin 3, (∑ k : Fin 2048, H (ix2 p k) * Wh (ix3 a y k)) + Bh (ix3 a (0 : Fin 1) y) = gh (Spec.gateRow a n))
    (hh : hb (ix2 p y) = hv n) :
    k2_pay1 (F := Ideal) (k2_pay3 H) (k2_pay4 hb) (k2_pay6 Wh) (k2_pay8 Bh) (k2_pay9 G Wi Bi) (k2_pay10 G Wi Bi)
        (k2_pay11 G Wi) (k2_pay12 Bi) (ix2 p y)
      = Spec.cell gi gh hv n := by
  -- the input-side pre-activations
  have ei : ∀ (a : Nat) (ha : a < 3) (hsW : S3x256x2048.Slices ![a, 0, 0] S1x256x2048) (hsB : S3x1x256.Slices ![a, 0, 0] S1x1x256),
      addf (matmul dot_S1x2048_S256x2048_S1x256_1_1_0_0_n_n none (k2_pay2 (F := Ideal) G)
            (shapeCast S256x2048 (extractStridedSlice S1x256x2048 ![a, 0, 0] (k2_pay5 (F := Ideal) Wi) hsW) shapeCasts_S1x256x2048_S256x2048)
            (constant S1x256 .f32 0x00000000#32))
          (shapeCast S1x256 (extractStridedSlice S1x1x256 ![a, 0, 0] (k2_pay7 (F := Ideal) Bi) hsB) shapeCasts_S1x1x256_S1x256) (ix2 p y)
        = gi (Spec.gateRow ⟨a, ha⟩ n) := fun a ha hsW hsB => by
    refine (gateBlock_apply a ha hsW hsB _ _ _ p y).trans ?_
    rw [castRow, castSlab, castBias]
    exact hgi ⟨a, ha⟩
  -- the hidden-side pre-activations
  have eh : ∀ (a : Nat) (ha : a < 3) (hsW : S3x256x2048.Slices ![a, 0, 0] S1x256x2048) (hsB : S3x1x256.Slices ![a, 0, 0] S1x1x256),
      addf (matmul dot_S1x2048_S256x2048_S1x256_1_1_0_0_n_n none (k2_pay3 (F := Ideal) H)
            (shapeCast S256x2048 (extractStridedSlice S1x256x2048 ![a, 0, 0] (k2_pay6 (F := Ideal) Wh) hsW) shapeCasts_S1x256x2048_S256x2048)
            (constant S1x256 .f32 0x00000000#32))
          (shapeCast S1x256 (extractStridedSlice S1x1x256 ![a, 0, 0] (k2_pay8 (F := Ideal) Bh) hsB) shapeCasts_S1x1x256_S1x256) (ix2 p y)
        = gh (Spec.gateRow ⟨a, ha⟩ n) := fun a ha hsW hsB => by
    refine (gateBlock_apply a ha hsW hsB _ _ _ p y).trans ?_
    rw [castRow', castSlab', castBias']
    exact hgh ⟨a, ha⟩
  have hpay : k2_pay1 (F := Ideal) (k2_pay3 H) (k2_pay4 hb) (k2_pay6 Wh) (k2_pay8 Bh) (k2_pay9 G Wi Bi) (k2_pay10 G Wi Bi)
        (k2_pay11 G Wi) (k2_pay12 Bi)
      = cellTail (k2_pay9 G Wi Bi) (k2_pay10 G Wi Bi) (addf (k2_pay11 G Wi) (k2_pay12 Bi))
          (addf (matmul dot_S1x2048_S256x2048_S1x256_1_1_0_0_n_n none (k2_pay3 (F := Ideal) H)
              (shapeCast S256x2048 (extractStridedSlice S1x256x2048 ![0, 0, 0] (k2_pay6 (F := Ideal) Wh) slices_S3x256x2048_o0_0_0_S1x256x2048) shapeCasts_S1x256x2048_S256x2048)
              (constant S1x256 .f32 0x00000000#32))
            (shapeCast S1x256 (extractStridedSlice S1x1x256 ![0, 0, 0] (k2_pay8 (F := Ideal) Bh) slices_S3x1x256_o0_0_0_S1x1x256) shapeCasts_S1x1x256_S1x256))
          (addf (matmul dot_S1x2048_S256x2048_S1x256_1_1_0_0_n_n none (k2_pay3 (F := Ideal) H)
              (shapeCast S256x2048 (extractStridedSlice S1x256x2048 ![1, 0, 0] (k2_pay6 (F := Ideal) Wh) slices_S3x256x2048_o1_0_0_S1x256x2048) shapeCasts_S1x256x2048_S256x2048)
              (constant S1x256 .f32 0x00000000#32))
            (shapeCast S1x256 (extractStridedSlice S1x1x256 ![1, 0, 0] (k2_pay8 (F := Ideal) Bh) slices_S3x1x256_o1_0_0_S1x1x256) shapeCasts_S1x1x256_S1x256))
          (addf (matmul dot_S1x2048_S256x2048_S1x256_1_1_0_0_n_n none (k2_pay3 (F := Ideal) H)
              (shapeCast S256x2048 (extractStridedSlice S1x256x2048 ![2, 0, 0] (k2_pay6 (F := Ideal) Wh) slices_S3x256x2048_o2_0_0_S1x256x2048) shapeCasts_S1x256x2048_S256x2048)
              (constant S1x256 .f32 0x00000000#32))
            (shapeCast S1x256 (extractStridedSlice S1x1x256 ![2, 0, 0] (k2_pay8 (F := Ideal) Bh) slices_S3x1x256_o2_0_0_S1x1x256) shapeCasts_S1x1x256_S1x256))
          (k2_pay4 hb) := rfl
  rw [hpay, cellTail_apply]
  have e0 : k2_pay9 (F := Ideal) G Wi Bi (ix2 p y) = gi (Spec.gateRow 0 n) := ei 0 (by decide) _ _
  have e1 : k2_pay10 (F := Ideal) G Wi Bi (ix2 p y) = gi (Spec.gateRow 1 n) := ei 1 (by decide) _ _
  have e2 : addf (k2_pay11 (F := Ideal) G Wi) (k2_pay12 Bi) (ix2 p y) = gi (Spec.gateRow 2 n) := ei 2 (by decide) _ _
  rw [e0, e1, e2, eh 0 (by decide), eh 1 (by decide), eh 2 (by decide), congrFun (castSlice hb) (ix2 p y), hh]
  rfl

end Cert.KernelIdeal.Bridge

end
-- ==== Proof.CellArrays.lean ====
/-
  What the recurrent-cell call leaves in its result array.

  The call runs its body at eight grid points.  At point `t` it sees the whole combined-input row and the whole hidden
  row, for each gate rows `256 t … 256 t + 255` of the input and hidden weights and the same 256 entries of each bias,
  loads entries `256 t … 256 t + 255` of the hidden row through a rectangle at offset `256 t`, and writes back entries
  `256 t … 256 t + 255` of the result row.  Entry `y` of the block written at `t` is the new hidden entry of unit
  `256 t + y`; the eight blocks tile the row, so the result array ends holding the new hidden row.
-/
import proofs.«100843_j15350213116625_2_alg».proof.Proof.Gen.KernelIdeal.Frame
import proofs.«100843_j15350213116625_2_alg».proof.Proof.CellBody
import proofs.«100843_j15350213116625_2_alg».proof.Proof.AttnArrays

set_option maxRecDepth 16384

noncomputable section

namespace Cert.KernelIdeal.Bridge

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)

theorem zeroOffsets3 : (![0, 0, 0] : Fin 3 → Nat) = fun _ => 0 := funext fun a => by fin_cases a <;> rfl

section AnyFormat
variable {F : FTy → Type} [FloatOps F]

/-- What the body leaves in its output buffer: one store of the cell's update formula over the loaded blocks and the
    slice of the hidden row loaded at the point's offset. -/
theorem cellStored (c : Dev nD) (i : grid2.Coords) (arg1 : Memref sig .tc .vmem S1x2048 .f32) (harg1 : arg1.IsWhole) (arg2 : Memref sig .tc .vmem S1x2048 .f32) (harg2 : arg2.IsWhole) (arg3 : Memref sig .tc .vmem S3x256x2048 .f32) (harg3 : arg3.IsWhole) (arg4 : Memref sig .tc .vmem S3x256x2048 .f32) (harg4 : arg4.IsWhole) (arg5 : Memref sig .tc .vmem S3x1x256 .f32) (harg5 : arg5.IsWhole) (arg6 : Memref sig .tc .vmem S3x1x256 .f32) (harg6 : arg6.IsWhole) (arg7 : Memref sig .tc .vmem S1x256 .f32) (harg7 : arg7.IsWhole)
    (x0 : Vec F S1x2048 .f32) (x1 : Vec F S1x2048 .f32) (x2 : Vec F S3x256x2048 .f32) (x3 : Vec F S3x256x2048 .f32) (x4 : Vec F S3x1x256 .f32) (x5 : Vec F S3x1x256 .f32) :
    out2_A_6 (F := F) c i arg1 harg1 arg2 harg2 arg3 harg3 arg4 harg4 arg5 harg5 arg6 harg6 arg7 harg7 x0 x1 x2 x3 x4 x5
      = k2_pay1 (k2_pay3 x1) (k2_pay4 (View.ld x1 (Rect.unit (s := S1x2048) (k2_off1 i) S1x256.size (k2_off1_inb i))))
          (k2_pay6 x3) (k2_pay8 x5) (k2_pay9 x0 x2 x4) (k2_pay10 x0 x2 x4) (k2_pay11 x0 x2) (k2_pay12 x4) := by
  unfold out2_A_6
  rw [View.read_writes_eq_canon _ _ _ (cover2_A_6 c i arg1 harg1 arg2 harg2 arg3 harg3 arg4 harg4 arg5 harg5 arg6 harg6 arg7 harg7 x0 x1 x2 x3 x4 x5)]
  unfold kernelRun2_A
  dsimp only
  sl_unfold_words
  rw [View.canon_unit_zero zeroOffsets2]
  simp only [View.readAt_eq_ld, harg1.read_unread, harg2.read_unread, harg3.read_unread, harg4.read_unread, harg5.read_unread,
    harg6.read_unread, View.ld_unit_zero (S := S1x2048) zeroOffsets2, View.ld_unit_zero (S := S3x256x2048) zeroOffsets3,
    View.ld_unit_zero (S := S3x1x256) zeroOffsets3]

end AnyFormat

/-- One gate's pre-activation for unit `n` over the whole arrays a call finds: the row against row `n` of slab `a` of the
    weights read as three slabs, plus entry `n` of row `a` of the bias read as three rows. -/
def gatePre (G : S1x2048.Idx → EReal) (W : S3x2048x2048.Idx → EReal) (B : S3x1x2048.Idx → EReal)
    (a : Fin 3) (p : Fin 1) (n : Fin 2048) : EReal :=
  (∑ k : Fin 2048, G (ix2 p k) * W (ix3 a n k)) + B (ix3 a (0 : Fin 1) n)

/-- The new hidden row as one function of the two affine images (rows of all three gates) and the previous hidden row. -/
def cellArray (gi gh : Fin 1 → Fin 6144 → EReal) (H : S1x2048.Idx → EReal) : S1x2048.Idx → EReal :=
  fun i => Spec.cell (gi ⟨(i 0).val, (i 0).isLt⟩) (gh ⟨(i 0).val, (i 0).isLt⟩)
    (fun n => H (ix2 (⟨(i 0).val, (i 0).isLt⟩ : Fin 1) n)) ⟨(i 1).val, (i 1).isLt⟩

/-- One point's block entry is the new hidden entry at the array index under it: block entry `(j₀, j₁)` of the point whose
    block index along the row is `q` sits at array index `(j₀, 256 q + j₁)`. -/
theorem cellPoint (G H : S1x2048.Idx → EReal) (gi gh : Fin 1 → Fin 6144 → EReal)
    (hb : Vec Ideal S1x256 .f32) (Wi Wh : Vec Ideal S3x256x2048 .f32) (Bi Bh : Vec Ideal S3x1x256 .f32) (q : Nat) (hq : q ≤ 7)
    (hgi : ∀ (a : Fin 3) (p : Fin 1) (y : Fin 256),
      (∑ k : Fin 2048, G (ix2 p k) * Wi (ix3 a y k)) + Bi (ix3 a (0 : Fin 1) y)
        = gi p (Spec.gateRow a ⟨q * 256 + y.val, by have := y.isLt; omega⟩))
    (hgh : ∀ (a : Fin 3) (p : Fin 1) (y : Fin 256),
      (∑ k : Fin 2048, H (ix2 p k) * Wh (ix3 a y k)) + Bh (ix3 a (0 : Fin 1) y)
        = gh p (Spec.gateRow a ⟨q * 256 + y.val, by have := y.isLt; omega⟩))
    (hh : ∀ (p : Fin 1) (y : Fin 256), hb (ix2 p y) = H (ix2 p (⟨q * 256 + y.val, by have := y.isLt; omega⟩ : Fin 2048)))
    (j : S1x256.Idx) (i : S1x2048.Idx) (hi0 : (i 0).val = (j 0).val) (hi1 : (i 1).val = q * 256 + (j 1).val) :
    k2_pay1 (F := Ideal) (k2_pay3 H) (k2_pay4 hb) (k2_pay6 Wh) (k2_pay8 Bh) (k2_pay9 G Wi Bi) (k2_pay10 G Wi Bi)
        (k2_pay11 G Wi) (k2_pay12 Bi) j
      = cellArray gi gh H i := by
  obtain ⟨p, y, rfl⟩ : ∃ (p : Fin 1) (y : Fin 256), j = ix2 p y := ⟨j 0, j 1, eq_ix2 j⟩
  unfold cellArray
  have e0 : (⟨(i 0).val, (i 0).isLt⟩ : Fin 1) = p := Fin.ext hi0
  have e1 : (⟨(i 1).val, (i 1).isLt⟩ : Fin 2048) = ⟨q * 256 + y.val, by have := y.isLt; omega⟩ := Fin.ext hi1
  rw [e0, e1]
  exact cellBlock_apply G H hb Wi Wh Bi Bh p y (gi p) (gh p) (fun n => H (ix2 p n)) _
    (fun a => hgi a p y) (fun a => hgh a p y) (hh p y)

variable (V : (c : Dev nD) → (b : Ref sig .tc) → Buf (Elt Ideal) ((c : Thread nD τ).loc b))

/-- How the windows move over the eight points: the two rows stay, the weight blocks move along their middle axis and
    the bias blocks and the result along their last, all with the result's block index, which is at most seven; and the
    rectangle the hidden slice is loaded through starts at 256 times that index. -/
theorem cellIndex : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 3) = 0 ∧ win2_2.index t (1 : Fin 3) = win2_6.index t (1 : Fin 2) ∧ win2_2.index t (2 : Fin 3) = 0
    ∧ win2_3.index t (0 : Fin 3) = 0 ∧ win2_3.index t (1 : Fin 3) = win2_6.index t (1 : Fin 2) ∧ win2_3.index t (2 : Fin 3) = 0
    ∧ win2_4.index t (0 : Fin 3) = 0 ∧ win2_4.index t (1 : Fin 3) = 0 ∧ win2_4.index t (2 : Fin 3) = win2_6.index t (1 : Fin 2)
    ∧ win2_5.index t (0 : Fin 3) = 0 ∧ win2_5.index t (1 : Fin 3) = 0 ∧ win2_5.index t (2 : Fin 3) = win2_6.index t (1 : Fin 2)
    ∧ win2_6.index t (0 : Fin 2) = 0 ∧ win2_6.index t (1 : Fin 2) ≤ 7
    ∧ k2_off1 (grid2.coords t) (0 : Fin 2) = 0 ∧ k2_off1 (grid2.coords t) (1 : Fin 2) = win2_6.index t (1 : Fin 2) * 256 :=
  (by decide +kernel : ∀ t : Fin grid2.N, _)

/-- Every one of the eight blocks of the result row is some point's. -/
theorem cellOnto : ∀ q : Fin 8, ∃ t : Fin cfg2.N, win2_6.index t (1 : Fin 2) = q.val :=
  (by decide +kernel : ∀ q : Fin 8, ∃ t : Fin grid2.N, win2_6.index t (1 : Fin 2) = q.val)

/-- The combined-input row's block is the whole row at every point. -/
theorem cellBlock0 (c : Dev nD) (t : Fin cfg2.N) : (iblk2 V c 0 t : S1x2048.Idx → EReal) = V c main_v5 := by
  funext y
  show V c main_v5 (((cfg2.win 0).blk t).view.emb y) = V c main_v5 y
  refine congrArg _ (funext fun a => Fin.ext ?_)
  obtain ⟨e0, e1, -⟩ := cellIndex t
  match a with
  | ⟨0, _⟩ => show win2_0.index t (0 : Fin 2) * 1 + 1 * (y 0).val = (y 0).val; omega
  | ⟨1, _⟩ => show win2_0.index t (1 : Fin 2) * 2048 + 1 * (y 1).val = (y 1).val; omega

/-- The hidden row's block is the whole row at every point. -/
theorem cellBlock1 (c : Dev nD) (t : Fin cfg2.N) : (iblk2 V c 1 t : S1x2048.Idx → EReal) = V c main_v1 := by
  funext y
  show V c main_v1 (((cfg2.win 1).blk t).view.emb y) = V c main_v1 y
  refine congrArg _ (funext fun a => Fin.ext ?_)
  obtain ⟨-, -, e0, e1, -⟩ := cellIndex t
  match a with
  | ⟨0, _⟩ => show win2_1.index t (0 : Fin 2) * 1 + 1 * (y 0).val = (y 0).val; omega
  | ⟨1, _⟩ => show win2_1.index t (1 : Fin 2) * 2048 + 1 * (y 1).val = (y 1).val; omega

/-- What point `t` writes back is block `t` of the new hidden row, when the arrays the call finds have the gates'
    pre-activations `gi`, `gh` (`Hgi`, `Hgh`: the reshaped weights and biases against the two rows). -/
theorem cellFlushed (c : Dev nD) (gi gh : Fin 1 → Fin 6144 → EReal)
    (Hgi : ∀ (a : Fin 3) (p : Fin 1) (n : Fin 2048),
      gatePre (V c main_v5) (V c main_v6) (V c main_v8) a p n = gi p (Spec.gateRow a n))
    (Hgh : ∀ (a : Fin 3) (p : Fin 1) (n : Fin 2048),
      gatePre (V c main_v1) (V c main_v7) (V c main_v9) a p n = gh p (Spec.gateRow a n))
    (t : Fin cfg2.N) :
    (dat2 V c).flushed 6 t = ((cfg2.win 6).blk t).view.read (Elt Ideal) (cellArray gi gh (V c main_v1)) := by
  show (cfg2.win 6).cut (grid2.coords t) ((dat2 V c).after 6 t) = _
  rw [after2_6]
  unfold outsAt2
  rw [cellStored]
  rw [cellBlock0, cellBlock1]
  obtain ⟨-, -, -, -, e20, e21, e22, e30, e31, e32, e40, e41, e42, e50, e51, e52, e60, e61, eo0, eo1⟩ := cellIndex t
  funext j
  refine cellPoint (V c main_v5) (V c main_v1) gi gh
    (View.ld (V c main_v1) (Rect.unit (s := S1x2048) (k2_off1 (grid2.coords t)) S1x256.size (k2_off1_inb (grid2.coords t))))
    (iblk2 V c 2 t) (iblk2 V c 3 t) (iblk2 V c 4 t) (iblk2 V c 5 t) (win2_6.index t (1 : Fin 2)) e61
    (fun a p y => ?_) (fun a p y => ?_) (fun p y => ?_) j (((cfg2.win 6).blk t).view.emb j) ?_ ?_
  ·
    have hW : ∀ k : Fin 2048, iblk2 V c 2 t (ix3 a y k)
        = V c main_v6 (ix3 a (⟨win2_6.index t (1 : Fin 2) * 256 + y.val, by have := y.isLt; omega⟩ : Fin 2048) k) := fun k => by
      show V c main_v6 (((cfg2.win 2).blk t).view.emb (ix3 a y k)) = V c main_v6 _
      refine congrArg _ (funext fun b => Fin.ext ?_)
      match b with
      | ⟨0, _⟩ => show win2_2.index t (0 : Fin 3) * 3 + 1 * a.val = a.val; omega
      | ⟨1, _⟩ => show win2_2.index t (1 : Fin 3) * 256 + 1 * y.val = win2_6.index t (1 : Fin 2) * 256 + y.val; omega
      | ⟨2, _⟩ => show win2_2.index t (2 : Fin 3) * 2048 + 1 * k.val = k.val; omega
    have hB : iblk2 V c 4 t (ix3 a (0 : Fin 1) y)
        = V c main_v8 (ix3 a (0 : Fin 1) (⟨win2_6.index t (1 : Fin 2) * 256 + y.val, by have := y.isLt; omega⟩ : Fin 2048)) := by
      show V c main_v8 (((cfg2.win 4).blk t).view.emb (ix3 a (0 : Fin 1) y)) = V c main_v8 _
      refine congrArg _ (funext fun b => Fin.ext ?_)
      match b with
      | ⟨0, _⟩ => show win2_4.index t (0 : Fin 3) * 3 + 1 * a.val = a.val; omega
      | ⟨1, _⟩ => show win2_4.index t (1 : Fin 3) * 1 + 1 * 0 = 0; omega
      | ⟨2, _⟩ => show win2_4.index t (2 : Fin 3) * 256 + 1 * y.val = win2_6.index t (1 : Fin 2) * 256 + y.val; omega
    simp only [hW, hB]
    exact Hgi a p ⟨win2_6.index t (1 : Fin 2) * 256 + y.val, by have := y.isLt; omega⟩
  ·
    have hW : ∀ k : Fin 2048, iblk2 V c 3 t (ix3 a y k)
        = V c main_v7 (ix3 a (⟨win2_6.index t (1 : Fin 2) * 256 + y.val, by have := y.isLt; omega⟩ : Fin 2048) k) := fun k => by
      show V c main_v7 (((cfg2.win 3).blk t).view.emb (ix3 a y k)) = V c main_v7 _
      refine congrArg _ (funext fun b => Fin.ext ?_)
      match b with
      | ⟨0, _⟩ => show win2_3.index t (0 : Fin 3) * 3 + 1 * a.val = a.val; omega
      | ⟨1, _⟩ => show win2_3.index t (1 : Fin 3) * 256 + 1 * y.val = win2_6.index t (1 : Fin 2) * 256 + y.val; omega
      | ⟨2, _⟩ => show win2_3.index t (2 : Fin 3) * 2048 + 1 * k.val = k.val; omega
    have hB : iblk2 V c 5 t (ix3 a (0 : Fin 1) y)
        = V c main_v9 (ix3 a (0 : Fin 1) (⟨win2_6.index t (1 : Fin 2) * 256 + y.val, by have := y.isLt; omega⟩ : Fin 2048)) := by
      show V c main_v9 (((cfg2.win 5).blk t).view.emb (ix3 a (0 : Fin 1) y)) = V c main_v9 _
      refine congrArg _ (funext fun b => Fin.ext ?_)
      match b with
      | ⟨0, _⟩ => show win2_5.index t (0 : Fin 3) * 3 + 1 * a.val = a.val; omega
      | ⟨1, _⟩ => show win2_5.index t (1 : Fin 3) * 1 + 1 * 0 = 0; omega
      | ⟨2, _⟩ => show win2_5.index t (2 : Fin 3) * 256 + 1 * y.val = win2_6.index t (1 : Fin 2) * 256 + y.val; omega
    simp only [hW, hB]
    exact Hgh a p ⟨win2_6.index t (1 : Fin 2) * 256 + y.val, by have := y.isLt; omega⟩
  · show V c main_v1 ((Rect.unit (s := S1x2048) (k2_off1 (grid2.coords t)) S1x256.size (k2_off1_inb (grid2.coords t))).emb (ix2 p y))
      = V c main_v1 _
    refine congrArg _ (funext fun b => Fin.ext ?_)
    match b with
    | ⟨0, _⟩ => show k2_off1 (grid2.coords t) (0 : Fin 2) + 1 * p.val = p.val; omega
    | ⟨1, _⟩ => show k2_off1 (grid2.coords t) (1 : Fin 2) + 1 * y.val = win2_6.index t (1 : Fin 2) * 256 + y.val; omega
  · show win2_6.index t (0 : Fin 2) * 1 + 1 * (j 0).val = (j 0).val; omega
  · show win2_6.index t (1 : Fin 2) * 256 + 1 * (j 1).val = win2_6.index t (1 : Fin 2) * 256 + (j 1).val; omega

/-- The eight blocks tile the result row: entry `n` lies in the block of the point whose block index is `n / 256`. -/
theorem cellCover (i : S1x2048.Idx) : ∃ t : Fin cfg2.N, (cfg2.win 6).flush t = true ∧ i ∈ ((cfg2.win 6).blk t).view.set := by
  have hi0 : (i 0).val < 1 := (i 0).isLt
  have hi1 : (i 1).val < 2048 := (i 1).isLt
  obtain ⟨t, ht⟩ := cellOnto ⟨(i 1).val / 256, by omega⟩
  have ht' : win2_6.index t (1 : Fin 2) = (i 1).val / 256 := ht
  obtain ⟨-, -, -, -, -, -, -, -, -, -, -, -, -, -, -, -, e60, -⟩ := cellIndex t
  refine ⟨t, flush2_6 t, ?_⟩
  show i ∈ ((View.whole main_v10).slice (win2_6.rect t)).set
  rw [View.set_slice_whole, Rect.mem_set_unit]
  intro a
  match a with
  | ⟨0, _⟩ =>
    show win2_6.index t (0 : Fin 2) * 1 ≤ (i 0).val ∧ (i 0).val < win2_6.index t (0 : Fin 2) * 1 + 1
    omega
  | ⟨1, _⟩ =>
    show win2_6.index t (1 : Fin 2) * 256 ≤ (i 1).val ∧ (i 1).val < win2_6.index t (1 : Fin 2) * 256 + 256
    omega

/-- The new-hidden array after the call. -/
theorem cellResultArray (c : Dev nD) (gi gh : Fin 1 → Fin 6144 → EReal)
    (Hgi : ∀ (a : Fin 3) (p : Fin 1) (n : Fin 2048),
      gatePre (V c main_v5) (V c main_v6) (V c main_v8) a p n = gi p (Spec.gateRow a n))
    (Hgh : ∀ (a : Fin 3) (p : Fin 1) (n : Fin 2048),
      gatePre (V c main_v1) (V c main_v7) (V c main_v9) a p n = gh p (Spec.gateRow a n)) :
    (dat2 V c).arrAt 6 cfg2.N = cellArray gi gh (V c main_v1) :=
  (dat2 V c).arrAt_eq_of_cover 6 _ (fun t _ => cellFlushed V c gi gh Hgi Hgh t) cellCover

end Cert.KernelIdeal.Bridge

end
-- ==== Proof.RefAttn.lean ====
/-
  The reference's attention stage, entry by entry.

  The reference forms the scores as `[x ; h]` times the transposed weights plus the broadcast bias, subtracts the row
  maximum (a fold of `max` from `−∞`, compared with `−∞` once more), takes exponentials, divides by their sum (taken from
  zero), and multiplies the resulting row into the encoder outputs.  Read at an entry these are the score, the softmax
  and the context of the specification.
-/
import proofs.«100843_j15350213116625_2_alg».proof.Proof.ReadP
import proofs.«100843_j15350213116625_2_alg».proof.Proof.Spec

noncomputable section

namespace Cert.ReferenceIdeal.Bridge

open Cert.ReferenceIdeal Cert.ReferenceIdeal.Gen Cert.ReferenceIdeal.ReadP
open Idealize.ShloMosaic Idealize.ShloMosaic.ValueIdx

variable (x0 x1 : (⟨S1x1x2048, .f32⟩ : BufTy).Contents (Elt Ideal)) (x2 : (⟨S350x2048, .f32⟩ : BufTy).Contents (Elt Ideal)) (x3 : (⟨S350x4096, .f32⟩ : BufTy).Contents (Elt Ideal)) (x4 : (⟨S350, .f32⟩ : BufTy).Contents (Elt Ideal))
  (x5 : (⟨S2048x4096, .f32⟩ : BufTy).Contents (Elt Ideal)) (x6 : (⟨S2048, .f32⟩ : BufTy).Contents (Elt Ideal)) (x7 x8 : (⟨S6144x2048, .f32⟩ : BufTy).Contents (Elt Ideal)) (x9 x10 : (⟨S6144, .f32⟩ : BufTy).Contents (Elt Ideal))

/-- The score of slot `q`. -/
theorem refScore (p : Fin 1) (q : Fin 350) :
    val_main_v6 (F := Ideal) x0 x1 x3 x4 (ix2 p q)
      = Spec.score (fun k => val_main_v2 (F := Ideal) x0 x1 (ix2 p k)) (fun r k => x3 (ix2 r k)) (fun r => x4 (ix1 r)) q := by
  rw [val_main_v6_apply, val_main_v4_apply, val_main_v5_apply]
  unfold Spec.score
  rw [Ideal.addf_def]
  refine congrArg₂ (· + ·) (Finset.sum_congr rfl fun k _ => ?_) (congrArg x4 (funext fun a => Fin.ext (by match a with | ⟨0, _⟩ => rfl)))
  rw [val_main_v3_apply]
  exact congrArg₂ (· * ·) (congrArg (val_main_v2 (F := Ideal) x0 x1) (funext fun a => Fin.ext (by match a with | ⟨0, _⟩ => rfl | ⟨1, _⟩ => rfl))) (congrArg x3 (funext fun a => Fin.ext (by match a with | ⟨0, _⟩ => rfl | ⟨1, _⟩ => rfl)))

/-- The subtracted row holds the largest score at every entry. -/
theorem refTop (p : Fin 1) (q : Fin 350) :
    val_main_v11 (F := Ideal) x0 x1 x3 x4 (ix2 p q) = Spec.top (fun k => val_main_v6 (F := Ideal) x0 x1 x3 x4 (ix2 p k)) := by
  obtain rfl : p = 0 := Subsingleton.elim _ _
  rw [val_main_v11_apply, val_main_v10_apply, val_main_v9_apply, val_main_v8_apply, val_main_cst_0_apply]
  unfold Spec.top val_main_v7
  have hfold := Host.reduce_eq_fold_single (α := Ideal .f32) FloatOps.maximumf (val_main_v6 (F := Ideal) x0 x1 x3 x4 : S1x350.Idx → Ideal .f32)
    (val_main_cst (F := Ideal) : S_.Idx → Ideal .f32) reducesTo_S1x350_S1_d1 (by decide) h_S_ (idx_main_v10 (idx_main_v11 (ix2 (0 : Fin 1) q)))
  refine (congrArg (FloatOps.maximumf (FloatOps.ofBits (F := Ideal) .f32 0xFF800000#32)) hfold).trans ?_
  refine congrArg (max Spec.ninfW) (congrArg (fun f => (Finset.univ : Finset (Fin 350)).fold max Spec.ninfW f) (funext fun k => ?_))
  exact congrArg (val_main_v6 (F := Ideal) x0 x1 x3 x4) (funext fun a => Fin.ext (by match a with | ⟨0, _⟩ => rfl | ⟨1, _⟩ => rfl))

/-- The shifted exponential of slot `q`. -/
theorem refExpShift (p : Fin 1) (q : Fin 350) :
    val_main_v13 (F := Ideal) x0 x1 x3 x4 (ix2 p q) = Spec.expShift (fun k => val_main_v6 (F := Ideal) x0 x1 x3 x4 (ix2 p k)) q := by
  rw [val_main_v13_apply, val_main_v12_apply, refTop]
  rfl

/-- Entry `l` of the attention weights is the softmax of the scores at `l`. -/
theorem refSoftmax (p : Fin 1) (l : Fin 350) :
    val_main_v17 (F := Ideal) x0 x1 x3 x4 (ix2 p l) = Spec.softmax (fun k => val_main_v6 (F := Ideal) x0 x1 x3 x4 (ix2 p k)) l := by
  obtain rfl : p = 0 := Subsingleton.elim _ _
  rw [val_main_v17_apply, val_main_v16_apply, val_main_v15_apply, val_main_v14_apply, val_main_cst_1_apply, refExpShift]
  unfold Spec.softmax
  refine (congrArg (Ideal.div _) ?_ : _)
  refine (congrArg₂ (· + ·) Ideal.ofBits_zero_f32 (Finset.sum_congr rfl fun k _ => ?_)).trans (zero_add _)
  exact (congrArg (val_main_v13 (F := Ideal) x0 x1 x3 x4) (funext fun a => Fin.ext (by match a with | ⟨0, _⟩ => rfl | ⟨1, _⟩ => rfl))).trans (refExpShift x0 x1 x3 x4 0 k)

/-- The attention weights against the arguments: the softmax of the scores of `[x ; h]` against the weight rows. -/
theorem refAttnWeights (p : Fin 1) (l : Fin 350) :
    val_main_v17 (F := Ideal) x0 x1 x3 x4 (ix2 p l)
      = Spec.softmax (Spec.score (fun k => val_main_v2 (F := Ideal) x0 x1 (ix2 p k)) (fun r k => x3 (ix2 r k)) (fun r => x4 (ix1 r))) l :=
  (refSoftmax x0 x1 x3 x4 p l).trans (congrArg (fun s => Spec.softmax s l) (funext fun q => refScore x0 x1 x3 x4 p q))

/-- Entry `n` of the context: the sum over the slots of the attention weight times the encoder entry. -/
theorem refContext (p : Fin 1) (n : Fin 2048) :
    val_main_v18 (F := Ideal) x0 x1 x2 x3 x4 (ix2 p n) = Spec.context (fun l => val_main_v17 (F := Ideal) x0 x1 x3 x4 (ix2 p l)) (fun l c => x2 (ix2 l c)) n := by
  rw [val_main_v18_apply]
  unfold Spec.context
  refine Finset.sum_congr rfl fun k _ => ?_
  exact congrArg₂ (· * ·) (congrArg (val_main_v17 (F := Ideal) x0 x1 x3 x4) (funext fun a => Fin.ext (by match a with | ⟨0, _⟩ => rfl | ⟨1, _⟩ => rfl))) (congrArg x2 (funext fun a => Fin.ext (by match a with | ⟨0, _⟩ => rfl | ⟨1, _⟩ => rfl)))

end Cert.ReferenceIdeal.Bridge

end
-- ==== Proof.RefComb.lean ====
/-
  The reference's combine stage, entry by entry.

  The reference multiplies `[x ; c]` into the transposed combine weights, adds the broadcast bias and takes the maximum
  with a row of zeros.  Read at entry `n` this is the combined input of the specification.
-/
import proofs.«100843_j15350213116625_2_alg».proof.Proof.ReadP
import proofs.«100843_j15350213116625_2_alg».proof.Proof.Spec

noncomputable section

namespace Cert.ReferenceIdeal.Bridge

open Cert.ReferenceIdeal Cert.ReferenceIdeal.Gen Cert.ReferenceIdeal.ReadP
open Idealize.ShloMosaic Idealize.ShloMosaic.ValueIdx

variable (x0 x1 : (⟨S1x1x2048, .f32⟩ : BufTy).Contents (Elt Ideal)) (x2 : (⟨S350x2048, .f32⟩ : BufTy).Contents (Elt Ideal)) (x3 : (⟨S350x4096, .f32⟩ : BufTy).Contents (Elt Ideal)) (x4 : (⟨S350, .f32⟩ : BufTy).Contents (Elt Ideal))
  (x5 : (⟨S2048x4096, .f32⟩ : BufTy).Contents (Elt Ideal)) (x6 : (⟨S2048, .f32⟩ : BufTy).Contents (Elt Ideal)) (x7 x8 : (⟨S6144x2048, .f32⟩ : BufTy).Contents (Elt Ideal)) (x9 x10 : (⟨S6144, .f32⟩ : BufTy).Contents (Elt Ideal))

/-- Entry `n` of the combined input. -/
theorem refCombine (p : Fin 1) (n : Fin 2048) :
    val_main_v24 (F := Ideal) x0 x1 x2 x3 x4 x5 x6 (ix2 p n)
      = Spec.combine (fun k => val_main_v19 (F := Ideal) x0 x1 x2 x3 x4 (ix2 p k)) (fun r k => x5 (ix2 r k)) (fun r => x6 (ix1 r)) n := by
  rw [val_main_v24_apply, val_main_v23_apply, val_main_v21_apply, val_main_v22_apply, val_main_call0_v0_apply,
    val_main_call0_cst_apply]
  unfold Spec.combine
  rw [Ideal.maximumf_def, Ideal.addf_def]
  refine congrArg₂ max (congrArg₂ (· + ·) (Finset.sum_congr rfl fun k _ => ?_) (congrArg x6 (funext fun a => Fin.ext (by match a with | ⟨0, _⟩ => rfl)))) rfl
  rw [val_main_v20_apply]
  exact congrArg₂ (· * ·) (congrArg (val_main_v19 (F := Ideal) x0 x1 x2 x3 x4) (funext fun a => Fin.ext (by match a with | ⟨0, _⟩ => rfl | ⟨1, _⟩ => rfl))) (congrArg x5 (funext fun a => Fin.ext (by match a with | ⟨0, _⟩ => rfl | ⟨1, _⟩ => rfl)))

end Cert.ReferenceIdeal.Bridge

end
-- ==== Proof.RefCell.lean ====
/-
  The reference's recurrent cell, entry by entry.

  The reference forms the two affine images (combined input and previous hidden row against the transposed weight
  matrices, plus the broadcast biases, 3 · 2048 entries each), cuts each into the reset, update and candidate thirds,
  and combines them: `r` and `z` as `1 / (1 + exp (−·))` of the summed thirds, the candidate as `tanh` of the input third
  plus `r` times the hidden third, and the new hidden entry as `(1 − z) ·` candidate `+ z ·` previous.  Since the word the
  programs print for `1.0` is the number one, `1 / (1 + exp (−t))` is the sigmoid of the specification.
-/
import proofs.«100843_j15350213116625_2_alg».proof.Proof.ReadP
import proofs.«100843_j15350213116625_2_alg».proof.Proof.Spec

noncomputable section

namespace Cert.ReferenceIdeal.Bridge

open Cert.ReferenceIdeal Cert.ReferenceIdeal.Gen Cert.ReferenceIdeal.ReadP
open Idealize.ShloMosaic Idealize.ShloMosaic.ValueIdx

variable (x0 x1 : (⟨S1x1x2048, .f32⟩ : BufTy).Contents (Elt Ideal)) (x2 : (⟨S350x2048, .f32⟩ : BufTy).Contents (Elt Ideal)) (x3 : (⟨S350x4096, .f32⟩ : BufTy).Contents (Elt Ideal)) (x4 : (⟨S350, .f32⟩ : BufTy).Contents (Elt Ideal))
  (x5 : (⟨S2048x4096, .f32⟩ : BufTy).Contents (Elt Ideal)) (x6 : (⟨S2048, .f32⟩ : BufTy).Contents (Elt Ideal)) (x7 x8 : (⟨S6144x2048, .f32⟩ : BufTy).Contents (Elt Ideal)) (x9 x10 : (⟨S6144, .f32⟩ : BufTy).Contents (Elt Ideal))

/-- Row `r` of the affine image of the combined input. -/
theorem refAffineIn (p : Fin 1) (r : Fin 6144) :
    val_main_v28 (F := Ideal) x0 x1 x2 x3 x4 x5 x6 x7 x9 (ix2 p r)
      = Spec.affine (fun k => val_main_v24 (F := Ideal) x0 x1 x2 x3 x4 x5 x6 (ix2 p k)) (fun s k => x7 (ix2 s k)) (fun s => x9 (ix1 s)) r := by
  rw [val_main_v28_apply, val_main_v26_apply, val_main_v27_apply]
  unfold Spec.affine
  rw [Ideal.addf_def]
  refine congrArg₂ (· + ·) (Finset.sum_congr rfl fun k _ => ?_) (congrArg x9 (funext fun a => Fin.ext (by match a with | ⟨0, _⟩ => rfl)))
  rw [val_main_v25_apply]
  exact congrArg₂ (· * ·) (congrArg (val_main_v24 (F := Ideal) x0 x1 x2 x3 x4 x5 x6) (funext fun a => Fin.ext (by match a with | ⟨0, _⟩ => rfl | ⟨1, _⟩ => rfl))) (congrArg x7 (funext fun a => Fin.ext (by match a with | ⟨0, _⟩ => rfl | ⟨1, _⟩ => rfl)))

/-- Row `r` of the affine image of the previous hidden row. -/
theorem refAffineHid (p : Fin 1) (r : Fin 6144) :
    val_main_v32 (F := Ideal) x1 x8 x10 (ix2 p r)
      = Spec.affine (fun k => val_main_v1 (F := Ideal) x1 (ix2 p k)) (fun s k => x8 (ix2 s k)) (fun s => x10 (ix1 s)) r := by
  rw [val_main_v32_apply, val_main_v30_apply, val_main_v31_apply]
  unfold Spec.affine
  rw [Ideal.addf_def]
  refine congrArg₂ (· + ·) (Finset.sum_congr rfl fun k _ => ?_) (congrArg x10 (funext fun a => Fin.ext (by match a with | ⟨0, _⟩ => rfl)))
  rw [val_main_v29_apply]
  exact congrArg₂ (· * ·) (congrArg (val_main_v1 (F := Ideal) x1) (funext fun a => Fin.ext (by match a with | ⟨0, _⟩ => rfl | ⟨1, _⟩ => rfl))) (congrArg x8 (funext fun a => Fin.ext (by match a with | ⟨0, _⟩ => rfl | ⟨1, _⟩ => rfl)))

/-- The thirds of the two affine images are their rows `n`, `2048 + n`, `4096 + n`. -/
theorem refThirdIn0 (p : Fin 1) (n : Fin 2048) : val_main_v33 (F := Ideal) x0 x1 x2 x3 x4 x5 x6 x7 x9 (ix2 p n) = val_main_v28 (F := Ideal) x0 x1 x2 x3 x4 x5 x6 x7 x9 (ix2 p (Spec.gateRow 0 n)) := by
  rw [val_main_v33_apply]
  exact congrArg (val_main_v28 (F := Ideal) x0 x1 x2 x3 x4 x5 x6 x7 x9) (funext fun a => Fin.ext (by
      match a with
      | ⟨0, _⟩ => rfl
      | ⟨1, _⟩ => show n.val = 0 * 2048 + n.val; omega))
theorem refThirdIn1 (p : Fin 1) (n : Fin 2048) : val_main_v34 (F := Ideal) x0 x1 x2 x3 x4 x5 x6 x7 x9 (ix2 p n) = val_main_v28 (F := Ideal) x0 x1 x2 x3 x4 x5 x6 x7 x9 (ix2 p (Spec.gateRow 1 n)) := by
  rw [val_main_v34_apply]
  exact congrArg (val_main_v28 (F := Ideal) x0 x1 x2 x3 x4 x5 x6 x7 x9) (funext fun a => Fin.ext (by
      match a with
      | ⟨0, _⟩ => rfl
      | ⟨1, _⟩ => show 2048 + n.val = 1 * 2048 + n.val; omega))
theorem refThirdIn2 (p : Fin 1) (n : Fin 2048) : val_main_v35 (F := Ideal) x0 x1 x2 x3 x4 x5 x6 x7 x9 (ix2 p n) = val_main_v28 (F := Ideal) x0 x1 x2 x3 x4 x5 x6 x7 x9 (ix2 p (Spec.gateRow 2 n)) := by
  rw [val_main_v35_apply]
  exact congrArg (val_main_v28 (F := Ideal) x0 x1 x2 x3 x4 x5 x6 x7 x9) (funext fun a => Fin.ext (by
      match a with
      | ⟨0, _⟩ => rfl
      | ⟨1, _⟩ => show 4096 + n.val = 2 * 2048 + n.val; omega))
theorem refThirdHid0 (p : Fin 1) (n : Fin 2048) : val_main_v36 (F := Ideal) x1 x8 x10 (ix2 p n) = val_main_v32 (F := Ideal) x1 x8 x10 (ix2 p (Spec.gateRow 0 n)) := by
  rw [val_main_v36_apply]
  exact congrArg (val_main_v32 (F := Ideal) x1 x8 x10) (funext fun a => Fin.ext (by
      match a with
      | ⟨0, _⟩ => rfl
      | ⟨1, _⟩ => show n.val = 0 * 2048 + n.val; omega))
theorem refThirdHid1 (p : Fin 1) (n : Fin 2048) : val_main_v37 (F := Ideal) x1 x8 x10 (ix2 p n) = val_main_v32 (F := Ideal) x1 x8 x10 (ix2 p (Spec.gateRow 1 n)) := by
  rw [val_main_v37_apply]
  exact congrArg (val_main_v32 (F := Ideal) x1 x8 x10) (funext fun a => Fin.ext (by
      match a with
      | ⟨0, _⟩ => rfl
      | ⟨1, _⟩ => show 2048 + n.val = 1 * 2048 + n.val; omega))
theorem refThirdHid2 (p : Fin 1) (n : Fin 2048) : val_main_v38 (F := Ideal) x1 x8 x10 (ix2 p n) = val_main_v32 (F := Ideal) x1 x8 x10 (ix2 p (Spec.gateRow 2 n)) := by
  rw [val_main_v38_apply]
  exact congrArg (val_main_v32 (F := Ideal) x1 x8 x10) (funext fun a => Fin.ext (by
      match a with
      | ⟨0, _⟩ => rfl
      | ⟨1, _⟩ => show 4096 + n.val = 2 * 2048 + n.val; omega))

/-- `1 / (1 + exp (−t))`, with `1` spelt as the printed word, is the sigmoid. -/
theorem sigmoidSpelt (t : EReal) : Ideal.div Spec.oneW (Spec.oneW + Ideal.exp (-t)) = Ideal.logistic t := by
  rw [Spec.oneW_eq]; rfl

/-- Entry `n` of the new hidden row. -/
theorem refCell (p : Fin 1) (n : Fin 2048) :
    val_main_v60 (F := Ideal) x0 x1 x2 x3 x4 x5 x6 x7 x8 x9 x10 (ix2 p n)
      = Spec.cell (fun r => val_main_v28 (F := Ideal) x0 x1 x2 x3 x4 x5 x6 x7 x9 (ix2 p r)) (fun r => val_main_v32 (F := Ideal) x1 x8 x10 (ix2 p r)) (fun k => val_main_v1 (F := Ideal) x1 (ix2 p k)) n := by
  have hr : val_main_v45 (F := Ideal) x0 x1 x2 x3 x4 x5 x6 x7 x8 x9 x10 (ix2 p n) = Spec.reset (fun r => val_main_v28 (F := Ideal) x0 x1 x2 x3 x4 x5 x6 x7 x9 (ix2 p r)) (fun r => val_main_v32 (F := Ideal) x1 x8 x10 (ix2 p r)) n := by
    rw [val_main_v45_apply, val_main_v44_apply, val_main_cst_3_apply, val_main_v43_apply, val_main_v42_apply, val_main_cst_2_apply,
      val_main_v41_apply, val_main_v40_apply, val_main_v39_apply, refThirdIn0, refThirdHid0]
    exact sigmoidSpelt _
  have hz : val_main_v52 (F := Ideal) x0 x1 x2 x3 x4 x5 x6 x7 x8 x9 x10 (ix2 p n) = Spec.update (fun r => val_main_v28 (F := Ideal) x0 x1 x2 x3 x4 x5 x6 x7 x9 (ix2 p r)) (fun r => val_main_v32 (F := Ideal) x1 x8 x10 (ix2 p r)) n := by
    rw [val_main_v52_apply, val_main_v51_apply, val_main_cst_5_apply, val_main_v50_apply, val_main_v49_apply, val_main_cst_4_apply,
      val_main_v48_apply, val_main_v47_apply, val_main_v46_apply, refThirdIn1, refThirdHid1]
    exact sigmoidSpelt _
  have hc : val_main_v55 (F := Ideal) x0 x1 x2 x3 x4 x5 x6 x7 x8 x9 x10 (ix2 p n) = Spec.candidate (fun r => val_main_v28 (F := Ideal) x0 x1 x2 x3 x4 x5 x6 x7 x9 (ix2 p r)) (fun r => val_main_v32 (F := Ideal) x1 x8 x10 (ix2 p r)) n := by
    rw [val_main_v55_apply, val_main_v54_apply, val_main_v53_apply, hr, refThirdIn2, refThirdHid2]
    rfl
  rw [val_main_v60_apply, val_main_v58_apply, val_main_v57_apply, val_main_v56_apply, val_main_cst_6_apply, val_main_v59_apply, hz, hc]
  rfl

/-- The two results the reference returns for the new hidden row re-lay it as `1 × 1 × 2048`. -/
theorem refOut61 (q : Fin 1) (p : Fin 1) (n : Fin 2048) :
    val_main_v61 (F := Ideal) x0 x1 x2 x3 x4 x5 x6 x7 x8 x9 x10 (ix3 q p n) = val_main_v60 (F := Ideal) x0 x1 x2 x3 x4 x5 x6 x7 x8 x9 x10 (ix2 (0 : Fin 1) n) := by
  rw [val_main_v61_apply]
  exact congrArg (val_main_v60 (F := Ideal) x0 x1 x2 x3 x4 x5 x6 x7 x8 x9 x10) (funext fun a => Fin.ext (by match a with | ⟨0, _⟩ => rfl | ⟨1, _⟩ => rfl))
theorem refOut62 (q : Fin 1) (p : Fin 1) (n : Fin 2048) :
    val_main_v62 (F := Ideal) x0 x1 x2 x3 x4 x5 x6 x7 x8 x9 x10 (ix3 q p n) = val_main_v60 (F := Ideal) x0 x1 x2 x3 x4 x5 x6 x7 x8 x9 x10 (ix2 (0 : Fin 1) n) := by
  rw [val_main_v62_apply]
  exact congrArg (val_main_v60 (F := Ideal) x0 x1 x2 x3 x4 x5 x6 x7 x8 x9 x10) (funext fun a => Fin.ext (by match a with | ⟨0, _⟩ => rfl | ⟨1, _⟩ => rfl))

end Cert.ReferenceIdeal.Bridge

end
-- ==== Proof.Stages.lean ====
/-
  Stage by stage, the kernel's arrays are the reference's.

  With the specification between them: the attention call's first array is the reference's attention weights (both the
  softmax of the same scores), its second the reference's context (the same weighted sum of those weights); the combine
  call's array is the reference's combined input (the same clamped affine map of `[x ; c]`, the context being equal);
  and the recurrent-cell call's array is the reference's new hidden row (the same update formula over the same affine
  images, the combined input being equal).  A 6144-row matrix read as three slabs of 2048 rows has row `a · 2048 + n` as
  row `n` of slab `a`, which is how the kernel's reshaped weights meet the reference's thirds.
-/
import proofs.«100843_j15350213116625_2_alg».proof.Proof.AttnBody
import proofs.«100843_j15350213116625_2_alg».proof.Proof.CombArrays
import proofs.«100843_j15350213116625_2_alg».proof.Proof.CellArrays
import proofs.«100843_j15350213116625_2_alg».proof.Proof.RefAttn
import proofs.«100843_j15350213116625_2_alg».proof.Proof.RefComb
import proofs.«100843_j15350213116625_2_alg».proof.Proof.RefCell

noncomputable section

namespace Cert.Bridge

open Idealize.ShloMosaic Idealize.ShloMosaic.ValueIdx
open Cert.KernelIdeal.Facts₀

variable (a0 a1 : (⟨Cert.ReferenceIdeal.S1x1x2048, .f32⟩ : BufTy).Contents (Elt Ideal)) (a2 : (⟨Cert.ReferenceIdeal.S350x2048, .f32⟩ : BufTy).Contents (Elt Ideal)) (a3 : (⟨Cert.ReferenceIdeal.S350x4096, .f32⟩ : BufTy).Contents (Elt Ideal)) (a4 : (⟨Cert.ReferenceIdeal.S350, .f32⟩ : BufTy).Contents (Elt Ideal))
  (a5 : (⟨Cert.ReferenceIdeal.S2048x4096, .f32⟩ : BufTy).Contents (Elt Ideal)) (a6 : (⟨Cert.ReferenceIdeal.S2048, .f32⟩ : BufTy).Contents (Elt Ideal)) (a7 a8 : (⟨Cert.ReferenceIdeal.S6144x2048, .f32⟩ : BufTy).Contents (Elt Ideal)) (a9 a10 : (⟨Cert.ReferenceIdeal.S6144, .f32⟩ : BufTy).Contents (Elt Ideal))

/-- The attention weights. -/
theorem stageWeights :
    Cert.KernelIdeal.Gen.k0_pay1 (F := Ideal) (shapeCast Cert.KernelIdeal.S1x2048 a0 shapeCasts_S1x1x2048_S1x2048) (shapeCast Cert.KernelIdeal.S1x2048 a1 shapeCasts_S1x1x2048_S1x2048) a3 (shapeCast Cert.KernelIdeal.S1x350 a4 shapeCasts_S350_S1x350)
      = Cert.ReferenceIdeal.ReadP.val_main_v17 (F := Ideal) a0 a1 a3 a4 := by
  funext j
  obtain ⟨p, l, rfl⟩ : ∃ (p : Fin 1) (l : Fin 350), j = ix2 p l := ⟨j 0, j 1, eq_ix2 j⟩
  rw [Cert.KernelIdeal.Bridge.attnWeights_apply, Cert.ReferenceIdeal.Bridge.refAttnWeights]
  refine congrArg (fun s => Spec.softmax s l) ?_
  refine congrArg₂ (fun xh b => Spec.score xh (fun r k => a3 (ix2 r k)) b) (funext fun k => rfl) (funext fun r => ?_)
  exact shapeCast_apply a4 shapeCasts_S350_S1x350 (ix2 p r) (ix1 r)
    (by rw [Shape.rowMajor_val_one, Shape.rowMajor_val_two]; have := p.isLt; show r.val = p.val * 350 + r.val; omega)

/-- The context. -/
theorem stageContext :
    Cert.KernelIdeal.Gen.k0_pay2 (F := Ideal) (shapeCast Cert.KernelIdeal.S1x2048 a0 shapeCasts_S1x1x2048_S1x2048) (shapeCast Cert.KernelIdeal.S1x2048 a1 shapeCasts_S1x1x2048_S1x2048) a3 (shapeCast Cert.KernelIdeal.S1x350 a4 shapeCasts_S350_S1x350) a2
      = Cert.ReferenceIdeal.ReadP.val_main_v18 (F := Ideal) a0 a1 a2 a3 a4 := by
  funext j
  obtain ⟨p, n, rfl⟩ : ∃ (p : Fin 1) (n : Fin 2048), j = ix2 p n := ⟨j 0, j 1, eq_ix2 j⟩
  rw [Cert.KernelIdeal.Bridge.attnContext_apply, Cert.ReferenceIdeal.Bridge.refContext, stageWeights]

/-- The combined input. -/
theorem stageCombine :
    Cert.KernelIdeal.Bridge.combineArray (shapeCast Cert.KernelIdeal.S1x2048 a0 shapeCasts_S1x1x2048_S1x2048) (Cert.ReferenceIdeal.ReadP.val_main_v18 (F := Ideal) a0 a1 a2 a3 a4) a5 (shapeCast Cert.KernelIdeal.S1x2048 a6 shapeCasts_S2048_S1x2048)
      = Cert.ReferenceIdeal.ReadP.val_main_v24 (F := Ideal) a0 a1 a2 a3 a4 a5 a6 := by
  funext j
  obtain ⟨p, n, rfl⟩ : ∃ (p : Fin 1) (n : Fin 2048), j = ix2 p n := ⟨j 0, j 1, eq_ix2 j⟩
  rw [Cert.ReferenceIdeal.Bridge.refCombine]
  unfold Cert.KernelIdeal.Bridge.combineArray
  refine (congrArg₂ (fun xc d => Spec.combine xc (fun r k => a5 (ix2 r k)) d n) (funext fun k => rfl) (funext fun r => ?_) : _)
  exact shapeCast_apply a6 shapeCasts_S2048_S1x2048 (ix2 p r) (ix1 r)
    (by rw [Shape.rowMajor_val_one, Shape.rowMajor_val_two]; have := p.isLt; show r.val = p.val * 2048 + r.val; omega)

/-- The affine image of the combined input, all three gates' rows. -/
def gatesIn : Fin 1 → Fin 6144 → EReal := fun p r => Cert.ReferenceIdeal.ReadP.val_main_v28 (F := Ideal) a0 a1 a2 a3 a4 a5 a6 a7 a9 (ix2 p r)
/-- The affine image of the previous hidden row, all three gates' rows. -/
def gatesHid : Fin 1 → Fin 6144 → EReal := fun p r => Cert.ReferenceIdeal.ReadP.val_main_v32 (F := Ideal) a1 a8 a10 (ix2 p r)

/-- A gate's pre-activation over the reshaped weights and bias is that gate's row of the affine map over the weights as
    given: slab `a`, row `n` of the `3 × 2048 × 2048` reading is row `a · 2048 + n`. -/
theorem slabAffine (G : Cert.KernelIdeal.S1x2048.Idx → EReal) (w : (⟨Cert.ReferenceIdeal.S6144x2048, .f32⟩ : BufTy).Contents (Elt Ideal)) (b : (⟨Cert.ReferenceIdeal.S6144, .f32⟩ : BufTy).Contents (Elt Ideal)) (a : Fin 3) (p : Fin 1) (n : Fin 2048) :
    Cert.KernelIdeal.Bridge.gatePre G (shapeCast Cert.KernelIdeal.S3x2048x2048 w shapeCasts_S6144x2048_S3x2048x2048)
        (shapeCast Cert.KernelIdeal.S3x1x2048 b shapeCasts_S6144_S3x1x2048) a p n
      = Spec.affine (fun k => G (ix2 p k)) (fun s k => w (ix2 s k)) (fun s => b (ix1 s)) (Spec.gateRow a n) := by
  unfold Cert.KernelIdeal.Bridge.gatePre
  unfold Spec.affine
  refine congrArg₂ (· + ·) (Finset.sum_congr rfl fun k _ => congrArg (G (ix2 p k) * ·) ?_) ?_
  · exact shapeCast_apply w shapeCasts_S6144x2048_S3x2048x2048 (ix3 a n k) (ix2 (Spec.gateRow a n) k)
      (by rw [Shape.rowMajor_val_two, Shape.rowMajor_val_three]
          show (a.val * 2048 + n.val) * 2048 + k.val = (a.val * 2048 + n.val) * 2048 + k.val
          rfl)
  · exact shapeCast_apply b shapeCasts_S6144_S3x1x2048 (ix3 a (0 : Fin 1) n) (ix1 (Spec.gateRow a n))
      (by rw [Shape.rowMajor_val_one, Shape.rowMajor_val_three]
          show a.val * 2048 + n.val = (a.val * 1 + 0) * 2048 + n.val
          omega)

/-- The new hidden row. -/
theorem stageCell :
    Cert.KernelIdeal.Bridge.cellArray (gatesIn a0 a1 a2 a3 a4 a5 a6 a7 a9) (gatesHid a1 a8 a10) (shapeCast Cert.KernelIdeal.S1x2048 a1 shapeCasts_S1x1x2048_S1x2048) = Cert.ReferenceIdeal.ReadP.val_main_v60 (F := Ideal) a0 a1 a2 a3 a4 a5 a6 a7 a8 a9 a10 := by
  funext j
  obtain ⟨p, n, rfl⟩ : ∃ (p : Fin 1) (n : Fin 2048), j = ix2 p n := ⟨j 0, j 1, eq_ix2 j⟩
  rw [Cert.ReferenceIdeal.Bridge.refCell]
  rfl

/-- The two returned re-lays of the new hidden row. -/
theorem stageOut61 :
    shapeCast Cert.KernelIdeal.S1x1x2048 (Cert.ReferenceIdeal.ReadP.val_main_v60 (F := Ideal) a0 a1 a2 a3 a4 a5 a6 a7 a8 a9 a10) shapeCasts_S1x2048_S1x1x2048 = Cert.ReferenceIdeal.ReadP.val_main_v61 (F := Ideal) a0 a1 a2 a3 a4 a5 a6 a7 a8 a9 a10 := by
  funext j
  obtain ⟨q, p, n, rfl⟩ : ∃ (q p : Fin 1) (n : Fin 2048), j = ix3 q p n := ⟨j 0, j 1, j 2, eq_ix3 j⟩
  rw [Cert.ReferenceIdeal.Bridge.refOut61]
  exact shapeCast_apply (Cert.ReferenceIdeal.ReadP.val_main_v60 (F := Ideal) a0 a1 a2 a3 a4 a5 a6 a7 a8 a9 a10) shapeCasts_S1x2048_S1x1x2048 (ix3 q p n) (ix2 (0 : Fin 1) n)
    (by rw [Shape.rowMajor_val_two, Shape.rowMajor_val_three]; have := q.isLt; have := p.isLt
        show 0 * 2048 + n.val = (q.val * 1 + p.val) * 2048 + n.val; omega)
theorem stageOut62 :
    shapeCast Cert.KernelIdeal.S1x1x2048 (Cert.ReferenceIdeal.ReadP.val_main_v60 (F := Ideal) a0 a1 a2 a3 a4 a5 a6 a7 a8 a9 a10) shapeCasts_S1x2048_S1x1x2048 = Cert.ReferenceIdeal.ReadP.val_main_v62 (F := Ideal) a0 a1 a2 a3 a4 a5 a6 a7 a8 a9 a10 := by
  funext j
  obtain ⟨q, p, n, rfl⟩ : ∃ (q p : Fin 1) (n : Fin 2048), j = ix3 q p n := ⟨j 0, j 1, j 2, eq_ix3 j⟩
  rw [Cert.ReferenceIdeal.Bridge.refOut62]
  exact shapeCast_apply (Cert.ReferenceIdeal.ReadP.val_main_v60 (F := Ideal) a0 a1 a2 a3 a4 a5 a6 a7 a8 a9 a10) shapeCasts_S1x2048_S1x1x2048 (ix3 q p n) (ix2 (0 : Fin 1) n)
    (by rw [Shape.rowMajor_val_two, Shape.rowMajor_val_three]; have := q.isLt; have := p.isLt
        show 0 * 2048 + n.val = (q.val * 1 + p.val) * 2048 + n.val; omega)

end Cert.Bridge

end
-- ==== Proof.Results.lean ====
/-
  The three results at the end of the idealized kernel's run, as the reference's stages of the launch arrays.

  Each call's result array is, by the block-by-block reading, a function of the arrays the call finds; those are the
  reshaped arguments or the previous call's result; and stage by stage that function is the reference's.  So the
  attention weights' buffer ends at the reference's attention weights, and the two returned buffers at the reference's
  two re-lays of the new hidden row.
-/
import proofs.«100843_j15350213116625_2_alg».proof.Proof.Walk
import proofs.«100843_j15350213116625_2_alg».proof.Proof.Stages

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The attention call's first array is the reference's attention weights. -/
theorem weightsArray : (dat0 (V1 m ρ) c).arrAt 5 cfg0.N = Cert.ReferenceIdeal.ReadP.val_main_v17 (F := Ideal) (m ((c : Thread nD τ).loc main_arg0)) (m ((c : Thread nD τ).loc main_arg1)) (m ((c : Thread nD τ).loc main_arg3)) (m ((c : Thread nD τ).loc main_arg4)) := by
  rw [attnWeightsArray (V1 m ρ) c,
    show V1 m ρ c main_v0 = _ from W1_v0 m ρ c, show V1 m ρ c main_v1 = _ from W1_v1 m ρ c,
    show V1 m ρ c main_arg3 = _ from W1_arg3 m ρ c, show V1 m ρ c main_v2 = _ from W1_v2 m ρ c]
  exact Cert.Bridge.stageWeights _ _ _ _

/-- The attention call's second array is the reference's context. -/
theorem contextArray : (dat0 (V1 m ρ) c).arrAt 6 cfg0.N = Cert.ReferenceIdeal.ReadP.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [attnContextArray (V1 m ρ) c,
    show V1 m ρ c main_v0 = _ from W1_v0 m ρ c, show V1 m ρ c main_v1 = _ from W1_v1 m ρ c,
    show V1 m ρ c main_arg3 = _ from W1_arg3 m ρ c, show V1 m ρ c main_v2 = _ from W1_v2 m ρ c,
    show V1 m ρ c main_arg2 = _ from W1_arg2 m ρ c]
  exact Cert.Bridge.stageContext _ _ _ _ _

/-- The combine call's array is the reference's combined input. -/
theorem combinedArray : (dat1 (V3 m ρ) c).arrAt 4 cfg1.N = Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [combineResultArray (V3 m ρ) c,
    show V3 m ρ c main_v0 = _ from W3_v0 m ρ c,
    show V3 m ρ c main_v3_1 = _ from (W3_v3_1 m ρ c).trans (contextArray m ρ c),
    show V3 m ρ c main_arg5 = _ from W3_arg5 m ρ c, show V3 m ρ c main_v4 = _ from W3_v4 m ρ c]
  exact Cert.Bridge.stageCombine _ _ _ _ _ _ _

/-- The recurrent-cell call's array is the reference's new hidden row. -/
theorem hiddenArray : (dat2 (V5 m ρ) c).arrAt 6 cfg2.N = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hg : V5 m ρ c main_v5 = Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W5_v5 m ρ c).trans (combinedArray m ρ c)
  refine (cellResultArray (V5 m ρ) c (Cert.Bridge.gatesIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9))) (Cert.Bridge.gatesHid (m ((c : Thread nD τ).loc main_arg1)) (m ((c : Thread nD τ).loc main_arg8)) (m ((c : Thread nD τ).loc main_arg10))) ?_ ?_).trans ?_
  · intro a p n
    rw [hg, show V5 m ρ c main_v6 = _ from W5_v6 m ρ c, show V5 m ρ c main_v8 = _ from W5_v8 m ρ c]
    exact (Cert.Bridge.slabAffine _ _ _ a p n).trans (Cert.ReferenceIdeal.Bridge.refAffineIn _ _ _ _ _ _ _ _ _ p (Spec.gateRow a n)).symm
  · intro a p n
    rw [show V5 m ρ c main_v1 = _ from W5_v1 m ρ c, show V5 m ρ c main_v7 = _ from W5_v7 m ρ c,
      show V5 m ρ c main_v9 = _ from W5_v9 m ρ c]
    exact (Cert.Bridge.slabAffine _ _ _ a p n).trans (Cert.ReferenceIdeal.Bridge.refAffineHid _ _ _ p (Spec.gateRow a n)).symm
  · rw [show V5 m ρ c main_v1 = _ from W5_v1 m ρ c]
    exact Cert.Bridge.stageCell _ _ _ _ _ _ _ _ _ _ _

/-- The attention weights' buffer at the end. -/
theorem weightsResult : W7 m ρ c (Proc.devRef .tc main_v3_0) = Cert.ReferenceIdeal.ReadP.val_main_v17 (F := Ideal) (m ((c : Thread nD τ).loc main_arg0)) (m ((c : Thread nD τ).loc main_arg1)) (m ((c : Thread nD τ).loc main_arg3)) (m ((c : Thread nD τ).loc main_arg4)) :=
  (W7_v3_0 m ρ c).trans (weightsArray m ρ c)

/-- The first returned buffer at the end. -/
theorem outputResult : W7 m ρ c (Proc.devRef .tc main_v11) = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W7_v11, hiddenArray]
  exact Cert.Bridge.stageOut61 _ _ _ _ _ _ _ _ _ _ _

/-- The second returned buffer at the end. -/
theorem hiddenResult : W7 m ρ c (Proc.devRef .tc main_v12) = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W7_v12, hiddenArray]
  exact Cert.Bridge.stageOut62 _ _ _ _ _ _ _ _ _ _ _

end Cert.KernelIdeal.Bridge

end
-- ==== Proof.lean ====
/-
  One decoder step of an attention recurrent network, batch size one: the tiled kernel against its plain reference, over
  the extended reals.

  Both programs compute, from an input row `x`, a previous hidden row `h`, encoder outputs and five weight arrays:
  attention weights `a = softmax ([x ; h] · Wᵀ + b)` over 350 slots; the context `c = a · E`; the combined input
  `g = max ([x ; c] · Uᵀ + d, 0)`; and one gated recurrent step `h' = (1 − z) · tanh (i_n + r · h_n) + z · h` with
  `r = σ (i_r + h_r)`, `z = σ (i_z + h_z)`, the `i`'s and `h`'s being the thirds of the affine images of `g` and `h`.  They
  return `h'` twice (as `1 × 1 × 2048`) and `a`.

  The kernel does this in three calls — attention on whole arrays at one grid point, the combine step in four blocks of
  512 columns, the recurrent step in eight blocks of 256 units over weights read as three slabs — with matrix products
  into a zero accumulator on operands narrowed to a shorter float format; the reference does it with whole-array
  operations.  Over the extended reals a change of float format is the identity, a product into a zero accumulator is the
  plain sum of products, a lane reduction is a fold or a finite sum, and the kernel's one-operation sigmoid is
  `1 / (1 + exp (−t))`, which is how the reference spells it.  Nothing is reordered and no law that fails at an infinity is
  used, so the precondition (finite inputs) is never opened: block by block, then stage by stage, the kernel's arrays are
  the reference's.

  The three frames: the two kernel programs' are the generated frame runs; the reference's is its run (read back stretch by
  stretch) with the results dropped.  The idealization rewrote no operation, so there is nothing to preserve.  The value claim: the
  kernel's run keeps every buffer's final contents (the end of the fold over the program's seven segments), read at
  the three result buffers; the reference's run gives its results as its stages of the launch arrays; both are stated at the
  reference's stages of the launch arrays, which agree.
-/
import proofs.«100843_j15350213116625_2_alg».proof.Defs
import proofs.«100843_j15350213116625_2_alg».proof.Proof.Gen.Kernel
import proofs.«100843_j15350213116625_2_alg».proof.Proof.Gen.Kernel.Skeleton
import proofs.«100843_j15350213116625_2_alg».proof.Proof.Gen.Kernel.Launch
import proofs.«100843_j15350213116625_2_alg».proof.Proof.Gen.Kernel.Points
import proofs.«100843_j15350213116625_2_alg».proof.Proof.Gen.Kernel.Frame
import proofs.«100843_j15350213116625_2_alg».proof.Proof.Gen.KernelIdeal
import proofs.«100843_j15350213116625_2_alg».proof.Proof.Gen.KernelIdeal.Skeleton
import proofs.«100843_j15350213116625_2_alg».proof.Proof.Gen.KernelIdeal.Launch
import proofs.«100843_j15350213116625_2_alg».proof.Proof.Gen.KernelIdeal.Points
import proofs.«100843_j15350213116625_2_alg».proof.Proof.Gen.KernelIdeal.Frame
import proofs.«100843_j15350213116625_2_alg».proof.Proof.Gen.ReferenceIdeal
import proofs.«100843_j15350213116625_2_alg».proof.Proof.Gen.Pre_finite_inputs
import proofs.«100843_j15350213116625_2_alg».proof.Proof.KRun
import proofs.«100843_j15350213116625_2_alg».proof.Proof.RefRun
import proofs.«100843_j15350213116625_2_alg».proof.Proof.Results
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, with the results dropped. -/
theorem frame_referenceIdeal : Cert.frame_ReferenceIdeal := fun m ρ _ =>
  (θ_run Cert.ReferenceIdeal.defs _ _).mono (fun _ h c => (h c).2.2.2) (Cert.ReferenceIdeal.RunH.run (F := Ideal) m ρ)

set_option maxHeartbeats 4000000 in
/-- From memories that agree on the arguments both idealized programs run, and end with equal results: the new hidden row
    twice and the attention weights, each at the reference's stage of the launch arrays. -/
theorem algebraic : Cert.algebraic_KernelIdeal_ReferenceIdeal := by
  intro m ρ m' ρ' _ hagree
  refine ⟨fun c => Cert.ReferenceIdeal.ReadP.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.ReadP.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.ReadP.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · open Cert.KernelIdeal Cert.KernelIdeal.Gen Cert.KernelIdeal.Bridge in
    exact (θ_run Cert.KernelIdeal.defs _ _).mono (fun r h c =>
      ⟨(h c _ (mem_uc main_v11 (by decide))).trans (outputResult m ρ c),
        (h c _ (mem_uc main_v12 (by decide))).trans (hiddenResult m ρ c),
        (h c _ (mem_uc main_v3_0 (by decide))).trans (weightsResult m ρ c),
        (h c _ (mem_uc main_arg0 (by decide))).trans (W7_main_arg0 m ρ c),
        (h c _ (mem_uc main_arg1 (by decide))).trans (W7_main_arg1 m ρ c),
        (h c _ (mem_uc main_arg2 (by decide))).trans (W7_main_arg2 m ρ c),
        (h c _ (mem_uc main_arg3 (by decide))).trans (W7_main_arg3 m ρ c),
        (h c _ (mem_uc main_arg4 (by decide))).trans (W7_main_arg4 m ρ c),
        (h c _ (mem_uc main_arg5 (by decide))).trans (W7_main_arg5 m ρ c),
        (h c _ (mem_uc main_arg6 (by decide))).trans (W7_main_arg6 m ρ c),
        (h c _ (mem_uc main_arg7 (by decide))).trans (W7_main_arg7 m ρ c),
        (h c _ (mem_uc main_arg8 (by decide))).trans (W7_main_arg8 m ρ c),
        (h c _ (mem_uc main_arg9 (by decide))).trans (W7_main_arg9 m ρ c),
        (h c _ (mem_uc main_arg10 (by decide))).trans (W7_main_arg10 m ρ c)⟩)
      (run_final m ρ)
  · refine (θ_run Cert.ReferenceIdeal.defs _ _).mono (fun r h c => ?_) (Cert.ReferenceIdeal.RunH.run (F := Ideal) m' ρ')
    obtain ⟨e0, e1, e2, e3, e4, e5, e6, e7, e8, e9, e10⟩ := hagree c
    exact ⟨(h c).1.trans (by rw [e0, e1, e2, e3, e4, e5, e6, e7, e8, e9, e10]),
      (h c).2.1.trans (by rw [e0, e1, e2, e3, e4, e5, e6, e7, e8, e9, e10]),
      (h c).2.2.1.trans (by rw [e0, e1, e3, e4]), (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
